-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S256x1024 : Shape := ⟨2, ![256, 1024]⟩
abbrev S256 : Shape := ⟨1, ![256]⟩
abbrev S10x256 : Shape := ⟨2, ![10, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_

variable [Facts]

def fn_part1 {F : FTy → Type} [FloatOps F] (main_v13 : IVec S_ 1) (main_v16 : IVec S10x256 1) : IVec S_ 1 :=
  let main_c_5 : IVec S_ 1 := constantI S_ 1 1#1
  let main_v17 : IVec S_ 1 := (fun x v => Host.reduce IntOp.andi x v reducesTo_S10x256_S_d0_1 h_S_) main_v16 main_c_5
  let main_v18 : IVec S_ 1 := andi main_v13 main_v17
  main_v18

def fn {F : FTy → Type} [FloatOps F] (main_arg0 : FVec F S8192x1024 .f32) (main_arg1 : IVec S8192 32) (main_arg2 : FVec F S256x1024 .f32) (main_arg3 : FVec F S256 .f32) (main_arg4 : FVec F S10x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S10x256 .f32 := Host.absf main_arg4
  let main_cst_4 : FVec F S_ .f32 := constant S_ .f32 0x7F800000#32
  let main_v15 : FVec F S10x256 .f32 := broadcastInDim S10x256 ![] bcast_S_S10x256 main_cst_4
  let main_v16 : IVec S10x256 1 := cmpf .olt main_v14 main_v15
  fn_part1 (F := F) main_v13 main_v16
-- ==== Kernel.lean ====
abbrev S8192x1024 : Shape := ⟨2, ![8192, 1024]⟩
abbrev S8192 : Shape := ⟨1, ![8192]⟩
abbrev S256x1024 : Shape := ⟨2, ![256, 1024]⟩
abbrev S256 : Shape := ⟨1, ![256]⟩
abbrev S10x256 : Shape := ⟨2, ![10, 256]⟩
abbrev S8192x256 : Shape := ⟨2, ![8192, 256]⟩
abbrev S1024x1024 : Shape := ⟨2, ![1024, 1024]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S256x256 : Shape := ⟨2, ![256, 256]⟩
abbrev S256x1 : Shape := ⟨2, ![256, 1]⟩
abbrev S256x8192 : Shape := ⟨2, ![256, 8192]⟩
abbrev S1x1024 : Shape := ⟨2, ![1, 1024]⟩
abbrev S_ : Shape := ⟨0, ![]⟩
abbrev S10 : Shape := ⟨1, ![10]⟩
abbrev S10x1 : Shape := ⟨2, ![10, 1]⟩
abbrev S256x10 : Shape := ⟨2, ![256, 10]⟩
abbrev S8192x10 : Shape := ⟨2, ![8192, 10]⟩
abbrev S8192x2 : Shape := ⟨2, ![8192, 2]⟩
abbrev S1x10 : Shape := ⟨2, ![1, 10]⟩

abbrev nBuf : Space → Nat
  | .hbm => 116
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S256x1024, .f32⟩
  | .hbm, ⟨3, _⟩ => ⟨S256, .f32⟩
  | .hbm, ⟨4, _⟩ => ⟨S10x256, .f32⟩
  | .hbm, ⟨5, _⟩ => ⟨S8192x256, .f32⟩
  | .hbm, ⟨6, _⟩ => ⟨S8192x256, .bf16⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10x256, .f32⟩
  | .hbm, ⟨15, _⟩ => ⟨S_, .f32⟩
  | .hbm, ⟨16, _⟩ => ⟨S10, .f32⟩
  | .hbm, ⟨17, _⟩ => ⟨S10x1, .f32⟩
  | .hbm, ⟨18, _⟩ => ⟨S10x1, .f32⟩
  | .hbm, ⟨19, _⟩ => ⟨S_, .f32⟩
  | .hbm, ⟨20, _⟩ => ⟨S10x1, .f32⟩
  | .hbm, ⟨21, _⟩ => ⟨S10x1, .f32⟩
  | .hbm, ⟨22, _⟩ => ⟨S10x256, .f32⟩
  | .hbm, ⟨23, _⟩ => ⟨S10x256, .f32⟩
  | .hbm, ⟨24, _⟩ => ⟨S256x10, .f32⟩
  | .hbm, ⟨25, _⟩ => ⟨S8192x10, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x1, .i32⟩
  | .hbm, ⟨43, _⟩ => ⟨S8192x2, .i32⟩
  | .hbm, ⟨44, _⟩ => ⟨S8192, .f32⟩
  | .hbm, ⟨45, _⟩ => ⟨S10, .i32⟩
  | .hbm, ⟨46, _⟩ => ⟨S8192x1, .i32⟩
  | .hbm, ⟨47, _⟩ => ⟨S1x10, .i32⟩
  | .hbm, ⟨48, _⟩ => ⟨S8192x10, .i32⟩
  | .hbm, ⟨49, _⟩ => ⟨S8192x10, .i32⟩
  | .hbm, ⟨50, _⟩ => ⟨S8192x10, .i1⟩
  | .hbm, ⟨51, _⟩ => ⟨S8192x10, .f32⟩
  | .hbm, ⟨52, _⟩ => ⟨S_, .f32⟩
  | .hbm, ⟨53, _⟩ => ⟨S_, .f32⟩
  | .hbm, ⟨54, _⟩ => ⟨S8192x10, .f32⟩
  | .hbm, ⟨55, _⟩ => ⟨S8192x10, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S10, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192, .f32⟩
  | .hbm, ⟨78, _⟩ => ⟨S_, .f32⟩
  | .hbm, ⟨79, _⟩ => ⟨S10, .f32⟩
  | .hbm, ⟨80, _⟩ => ⟨S8192x1, .i32⟩
  | .hbm, ⟨81, _⟩ => ⟨S10, .f32⟩
  | .hbm, ⟨82, _⟩ => ⟨S10, .f32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S8192x1, .i32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S8192, .f32⟩
  | .hbm, ⟨105, _⟩ => ⟨S8192, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S256x256, .bf16⟩
  | .local _ .vmem, ⟨9, _⟩ => ⟨S256x256, .bf16⟩
  | .local _ .vmem, ⟨10, _⟩ => ⟨S8192x256, .bf16⟩
  | .local _ .vmem, ⟨11, _⟩ => ⟨S256x1, .i32⟩
  | .local _ .vmem, ⟨12, _⟩ => ⟨S256x1, .i32⟩
  | .local _ .vmem, ⟨13, _⟩ => ⟨S1x8192, .i32⟩
  | .local _ .vmem, ⟨14, _⟩ => ⟨S256x1, .f32⟩
  | .local _ .vmem, ⟨15, _⟩ => ⟨S256x1, .f32⟩
  | .local _ .vmem, ⟨16, _⟩ => ⟨S256x8192, .f32⟩
  | .local _ .vmem, ⟨17, _⟩ => ⟨S256x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_cst_20 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S8192_S8192x1 : S8192.ShapeCasts S8192x1
  shapeCasts_S8192_S1x8192 : S8192.ShapeCasts S1x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S8192x256_S1024x256_0_0 : ∀ a, (![0, 0] : Fin 2 → Nat) a + S1024x256.size a ≤ S8192x256.size a
  shapeCasts_S1024x256_S1024x256 : S1024x256.ShapeCasts S1024x256
  inb_S1x8192_S1x1024_0_0 : ∀ a, (![0, 0] : Fin 2 → Nat) a + S1x1024.size a ≤ S1x8192.size a
  h_S1x1024 : 0 < S1x1024.numel
  shapeCasts_S1x1024_S1x1024 : S1x1024.ShapeCasts S1x1024
  transposes_S1024x256_p1_0_S256x1024 : S1024x256.Transposes [1, 0] S256x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  inb_S256x8192_S256x1024_0_0 : ∀ a, (![0, 0] : Fin 2 → Nat) a + S256x1024.size a ≤ S256x8192.size a
  shapeCasts_S256x1024_S256x1024 : S256x1024.ShapeCasts S256x1024
  inb_S8192x256_S1024x256_1024_0 : ∀ a, (![1024, 0] : Fin 2 → Nat) a + S1024x256.size a ≤ S8192x256.size a
  inb_S1x8192_S1x1024_0_1024 : ∀ a, (![0, 1024] : Fin 2 → Nat) a + S1x1024.size a ≤ S1x8192.size a
  inb_S256x8192_S256x1024_0_1024 : ∀ a, (![0, 1024] : Fin 2 → Nat) a + S256x1024.size a ≤ S256x8192.size a
  inb_S8192x256_S1024x256_2048_0 : ∀ a, (![2048, 0] : Fin 2 → Nat) a + S1024x256.size a ≤ S8192x256.size a
  inb_S1x8192_S1x1024_0_2048 : ∀ a, (![0, 2048] : Fin 2 → Nat) a + S1x1024.size a ≤ S1x8192.size a
  inb_S256x8192_S256x1024_0_2048 : ∀ a, (![0, 2048] : Fin 2 → Nat) a + S256x1024.size a ≤ S256x8192.size a
  inb_S8192x256_S1024x256_3072_0 : ∀ a, (![3072, 0] : Fin 2 → Nat) a + S1024x256.size a ≤ S8192x256.size a
  inb_S1x8192_S1x1024_0_3072 : ∀ a, (![0, 3072] : Fin 2 → Nat) a + S1x1024.size a ≤ S1x8192.size a
  inb_S256x8192_S256x1024_0_3072 : ∀ a, (![0, 3072] : Fin 2 → Nat) a + S256x1024.size a ≤ S256x8192.size a
  inb_S8192x256_S1024x256_4096_0 : ∀ a, (![4096, 0] : Fin 2 → Nat) a + S1024x256.size a ≤ S8192x256.size a
  inb_S1x8192_S1x1024_0_4096 : ∀ a, (![0, 4096] : Fin 2 → Nat) a + S1x1024.size a ≤ S1x8192.size a
  inb_S256x8192_S256x1024_0_4096 : ∀ a, (![0, 4096] : Fin 2 → Nat) a + S256x1024.size a ≤ S256x8192.size a
  inb_S8192x256_S1024x256_5120_0 : ∀ a, (![5120, 0] : Fin 2 → Nat) a + S1024x256.size a ≤ S8192x256.size a
  inb_S1x8192_S1x1024_0_5120 : ∀ a, (![0, 5120] : Fin 2 → Nat) a + S1x1024.size a ≤ S1x8192.size a
  inb_S256x8192_S256x1024_0_5120 : ∀ a, (![0, 5120] : Fin 2 → Nat) a + S256x1024.size a ≤ S256x8192.size a
  inb_S8192x256_S1024x256_6144_0 : ∀ a, (![6144, 0] : Fin 2 → Nat) a + S1024x256.size a ≤ S8192x256.size a
  inb_S1x8192_S1x1024_0_6144 : ∀ a, (![0, 6144] : Fin 2 → Nat) a + S1x1024.size a ≤ S1x8192.size a
  inb_S256x8192_S256x1024_0_6144 : ∀ a, (![0, 6144] : Fin 2 → Nat) a + S256x1024.size a ≤ S256x8192.size a
  inb_S8192x256_S1024x256_7168_0 : ∀ a, (![7168, 0] : Fin 2 → Nat) a + S1024x256.size a ≤ S8192x256.size a
  inb_S1x8192_S1x1024_0_7168 : ∀ a, (![0, 7168] : Fin 2 → Nat) a + S1x1024.size a ≤ S1x8192.size a
  inb_S256x8192_S256x1024_0_7168 : ∀ a, (![0, 7168] : Fin 2 → Nat) a + S256x1024.size a ≤ S256x8192.size a
  iota_S256x1024_d0_w32 : S256x1024.Iotas .tc 32 [0]
  iota_S256x1024_d1_w32 : S256x1024.Iotas .tc 32 [1]
  reducesTo_S8192x1_S_d0_1 : S8192x1.ReducesTo [0, 1] S_
  h_S_ : 0 < S_.numel
  reducesTo_S10x256_S10_d1 : S10x256.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x256_0_1 : S10x1.BroadcastsInDim S10x256 (![0, 1] : Fin 2 → Fin S10x256.rank)
  transposes_S10x256_S256x10_1_0 : S10x256.Transposes [1, 0] S256x10
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S10_S1x10_1 : S10.BroadcastsInDim S1x10 (![1] : Fin 1 → Fin S1x10.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  bcast_S_S8192x10 : S_.BroadcastsInDim S8192x10 (![] : Fin 0 → Fin S8192x10.rank)
  reducesTo_S8192x10_S8192_d1 : S8192x10.ReducesTo [1] S8192
  reducesTo_S8192x10_S10_d0 : S8192x10.ReducesTo [0] S10
  bcast_S_S10 : S_.BroadcastsInDim S10 (![] : Fin 0 → Fin S10.rank)
  reducesTo_S8192_S_d0 : S8192.ReducesTo [0] S_
  dot_S1024x1024_S1024x256_S1024x256_1_0_0_1_n_n_wf : DotDims.WF S1024x1024 S1024x256 S1024x256 [1] [0] [0] [1] [] []
  dot_S256x256_S256x1024_S256x1024_1_0_0_1_n_n_wf : DotDims.WF S256x256 S256x1024 S256x1024 [1] [0] [0] [1] [] []
  dot_S8192x256_S256x10_S8192x10_1_0_0_1_n_n_wf : DotDims.WF S8192x256 S256x10 S8192x10 [1] [0] [0] [1] [] []
  gather_S8192x10_S8192x2_S8192_n_01_n_n_01_1_11_wf : GatherDims.WF S8192x10 S8192x2 S8192 [] [0, 1] [] [0, 1] [] 1 ![1, 1]
  scatter_S10_S8192x1_S8192_n_0_0_1_wf : ScatterDims.WF S10 S8192x1 S8192 [] [0] [0] 1
  gather_S10_S8192x1_S8192_n_0_n_n_0_1_1_wf : GatherDims.WF S10 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .bf16 = 32 ∨ (Rect.block (s := S8192x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .i32 = 32 ∨ (Rect.block (s := S8192x1) S256x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S8192x1.size a
  hwx1_4 : ∀ i : grid1.Coords, EltTy.bits .f32 = 32 ∨ (Rect.block (s := S8192x1) S256x1.size (cc1_transform_4 i) (hinb1_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def gather_S8192x10_S8192x2_S8192_n_01_n_n_01_1_11 : GatherDims S8192x10 S8192x2 S8192 where
  offsetDims := []
  collapsedSliceDims := [0, 1]
  operandBatchingDims := []
  startIndicesBatchingDims := []
  startIndexMap := [0, 1]
  indexVectorDim := 1
  sliceSizes := ![1, 1]
  wf := gather_S8192x10_S8192x2_S8192_n_01_n_n_01_1_11_wf
def scatter_S10_S8192x1_S8192_n_0_0_1 : ScatterDims S10 S8192x1 S8192 where
  updateWindowDims := []
  insertedWindowDims := [0]
  scatterDimsToOperandDims := [0]
  indexVectorDim := 1
  wf := scatter_S10_S8192x1_S8192_n_0_0_1_wf
def gather_S10_S8192x1_S8192_n_0_n_n_0_1_1 : GatherDims S10 S8192x1 S8192 where
  offsetDims := []
  collapsedSliceDims := [0]
  operandBatchingDims := []
  startIndicesBatchingDims := []
  startIndexMap := [0]
  indexVectorDim := 1
  sliceSizes := ![1]
  wf := gather_S10_S8192x1_S8192_n_0_n_n_0_1_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S256x1024 : Shape := ⟨2, ![256, 1024]⟩
abbrev S256 : Shape := ⟨1, ![256]⟩
abbrev S10x256 : Shape := ⟨2, ![10, 256]⟩
abbrev S1024x256 : Shape := ⟨2, ![1024, 256]⟩
abbrev S8192x256 : Shape := ⟨2, ![8192, 256]⟩
abbrev S1x256 : Shape := ⟨2, ![1, 256]⟩
abbrev S_ : Shape := ⟨0, ![]⟩
abbrev S8192x1 : Shape := ⟨2, ![8192, 1]⟩
abbrev S10 : Shape := ⟨1, ![10]⟩
abbrev S10x1 : Shape := ⟨2, ![10, 1]⟩
abbrev S256x8192 : Shape := ⟨2, ![256, 8192]⟩
abbrev S8192x8192 : Shape := ⟨2, ![8192, 8192]⟩
abbrev S1x8192 : Shape := ⟨2, ![1, 8192]⟩
abbrev S256x10 : Shape := ⟨2, ![256, 10]⟩
abbrev S8192x10 : Shape := ⟨2, ![8192, 10]⟩
abbrev S8192x2 : Shape := ⟨2, ![8192, 2]⟩
abbrev S1x10 : Shape := ⟨2, ![1, 10]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192, .i32⟩
  | 2 => ⟨S256x1024, .f32⟩
  | 3 => ⟨S256, .f32⟩
  | 4 => ⟨S10x256, .f32⟩
  | 5 => ⟨S1024x256, .f32⟩
  | 6 => ⟨S8192x256, .f32⟩
  | 7 => ⟨S1x256, .f32⟩
  | 8 => ⟨S8192x256, .f32⟩
  | 9 => ⟨S8192x256, .f32⟩
  | 10 => ⟨S8192x256, .f32⟩
  | 11 => ⟨S_, .f32⟩
  | 12 => ⟨S8192, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x256, .f32⟩
  | 19 => ⟨S8192x256, .f32⟩
  | 20 => ⟨S10x256, .f32⟩
  | 21 => ⟨S_, .f32⟩
  | 22 => ⟨S10, .f32⟩
  | 23 => ⟨S10x1, .f32⟩
  | 24 => ⟨S10x1, .f32⟩
  | 25 => ⟨S_, .f32⟩
  | 26 => ⟨S10x1, .f32⟩
  | 27 => ⟨S10x1, .f32⟩
  | 28 => ⟨S10x256, .f32⟩
  | 29 => ⟨S10x256, .f32⟩
  | 30 => ⟨S256x8192, .f32⟩
  | 31 => ⟨S8192x8192, .f32⟩
  | 32 => ⟨S8192x1, .i32⟩
  | 33 => ⟨S1x8192, .i32⟩
  | 34 => ⟨S8192x8192, .i32⟩
  | 35 => ⟨S8192x8192, .i32⟩
  | 36 => ⟨S8192x8192, .i1⟩
  | 37 => ⟨S8192x8192, .i32⟩
  | 38 => ⟨S8192x8192, .i32⟩
  | 39 => ⟨S_, .i32⟩
  | 40 => ⟨S8192x8192, .i32⟩
  | 41 => ⟨S8192x8192, .i32⟩
  | 42 => ⟨S8192x8192, .i1⟩
  | 43 => ⟨S8192x8192, .i1⟩
  | 44 => ⟨S8192x8192, .f32⟩
  | 45 => ⟨S_, .f32⟩
  | 46 => ⟨S_, .f32⟩
  | 47 => ⟨S8192x8192, .f32⟩
  | 48 => ⟨S8192x8192, .f32⟩
  | 49 => ⟨S_, .f32⟩
  | 50 => ⟨S8192, .f32⟩
  | 51 => ⟨S8192x8192, .i1⟩
  | 52 => ⟨S8192x8192, .i1⟩
  | 53 => ⟨S_, .f32⟩
  | 54 => ⟨S_, .f32⟩
  | 55 => ⟨S8192x8192, .f32⟩
  | 56 => ⟨S8192x8192, .f32⟩
  | 57 => ⟨S8192x8192, .f32⟩
  | 58 => ⟨S8192x1, .f32⟩
  | 59 => ⟨S8192x8192, .f32⟩
  | 60 => ⟨S8192x8192, .f32⟩
  | 61 => ⟨S8192x8192, .f32⟩
  | 62 => ⟨S8192x8192, .f32⟩
  | 63 => ⟨S8192x8192, .f32⟩
  | 64 => ⟨S8192x8192, .i1⟩
  | 65 => ⟨S_, .f32⟩
  | 66 => ⟨S_, .f32⟩
  | 67 => ⟨S8192x8192, .f32⟩
  | 68 => ⟨S8192x8192, .f32⟩
  | 69 => ⟨S_, .f32⟩
  | 70 => ⟨S_, .f32⟩
  | 71 => ⟨S_, .f32⟩
  | 72 => ⟨S_, .f32⟩
  | 73 => ⟨S256x10, .f32⟩
  | 74 => ⟨S8192x10, .f32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x1, .i32⟩
  | 92 => ⟨S8192x2, .i32⟩
  | 93 => ⟨S8192, .f32⟩
  | 94 => ⟨S8192x1, .i32⟩
  | 95 => ⟨S10, .i32⟩
  | 96 => ⟨S1x10, .i32⟩
  | 97 => ⟨S8192x10, .i32⟩
  | 98 => ⟨S8192x10, .i32⟩
  | 99 => ⟨S8192x10, .i1⟩
  | 100 => ⟨S8192x10, .f32⟩
  | 101 => ⟨S_, .f32⟩
  | 102 => ⟨S_, .f32⟩
  | 103 => ⟨S8192x10, .f32⟩
  | 104 => ⟨S8192x10, .f32⟩
  | 105 => ⟨S_, .f32⟩
  | 106 => ⟨S8192, .f32⟩
  | 107 => ⟨S_, .f32⟩
  | 108 => ⟨S10, .f32⟩
  | 109 => ⟨S8192, .i32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x1, .i32⟩
  | 126 => ⟨S8192x2, .i32⟩
  | 127 => ⟨S8192, .f32⟩
  | _ => ⟨S8192x1024, .f32⟩

abbrev hbmTy0_1 (i : Nat) : BufTy := match i % 128 with
  | 0 => ⟨S_, .f32⟩
  | 1 => ⟨S10, .f32⟩
  | 2 => ⟨S8192x1, .i32⟩
  | 3 => ⟨S10, .f32⟩
  | 4 => ⟨S10, .f32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192, .f32⟩
  | 14 => ⟨S8192, .f32⟩
  | 15 => ⟨S8192, .f32⟩
  | 16 => ⟨S8192, .f32⟩
  | 17 => ⟨S8192, .f32⟩
  | 18 => ⟨S8192, .f32⟩
  | 19 => ⟨S_, .f32⟩
  | 20 => ⟨S_, .f32⟩
  | 21 => ⟨S_, .f32⟩
  | 22 => ⟨S_, .f32⟩
  | 23 => ⟨S8192, .f32⟩
  | 24 => ⟨S8192, .f32⟩
  | 25 => ⟨S8192, .f32⟩
  | 26 => ⟨S8192, .f32⟩
  | 27 => ⟨S8192, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_call3_v0 : Ref sig .tc := ⟨.hbm, 102, rfl⟩
abbrev main_call3_v1 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_c_16 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_c_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_23 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_25 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_cst_27 : Ref sig .tc := ⟨.hbm, 160, rfl⟩
abbrev main_v118 : Ref sig .tc := ⟨.hbm, 161, rfl⟩
abbrev main_v119 : Ref sig .tc := ⟨.hbm, 162, rfl⟩
abbrev main_cst_28 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S10x256_S10_d1 : S10x256.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x256_0_1 : S10x1.BroadcastsInDim S10x256 (![0, 1] : Fin 2 → Fin S10x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  transposes_S10x256_S256x10_1_0 : S10x256.Transposes [1, 0] S256x10
  bcast_S_S8192 : S_.BroadcastsInDim S8192 (![] : Fin 0 → Fin S8192.rank)
  concatenates_S8192x1_S8192x1_S8192x2_d1 : Shape.Concatenates [S8192x1, S8192x1] S8192x2 1
  bcast_S10_S1x10_1 : S10.BroadcastsInDim S1x10 (![1] : Fin 1 → Fin S1x10.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  bcast_S_S8192x10 : S_.BroadcastsInDim S8192x10 (![] : Fin 0 → Fin S8192x10.rank)
  reducesTo_S8192x10_S8192_d1 : S8192x10.ReducesTo [1] S8192
  reducesTo_S8192x10_S10_d0 : S8192x10.ReducesTo [0] S10
  bcast_S_S10 : S_.BroadcastsInDim S10 (![] : Fin 0 → Fin S10.rank)
  reducesTo_S8192_S_d0 : S8192.ReducesTo [0] S_
  dot_S8192x1024_S1024x256_S8192x256_1_0_0_1_n_n_wf : DotDims.WF S8192x1024 S1024x256 S8192x256 [1] [0] [0] [1] [] []
  dot_S8192x256_S256x8192_S8192x8192_1_0_0_1_n_n_wf : DotDims.WF S8192x256 S256x8192 S8192x8192 [1] [0] [0] [1] [] []
  dot_S8192x256_S256x10_S8192x10_1_0_0_1_n_n_wf : DotDims.WF S8192x256 S256x10 S8192x10 [1] [0] [0] [1] [] []
  gather_S8192x10_S8192x2_S8192_n_01_n_n_01_1_11_wf : GatherDims.WF S8192x10 S8192x2 S8192 [] [0, 1] [] [0, 1] [] 1 ![1, 1]
  scatter_S10_S8192x1_S8192_n_0_0_1_wf : ScatterDims.WF S10 S8192x1 S8192 [] [0] [0] 1
  gather_S10_S8192x1_S8192_n_0_n_n_0_1_1_wf : GatherDims.WF S10 S8192x1 S8192 [] [0] [] [0] [] 1 ![1]

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def gather_S8192x10_S8192x2_S8192_n_01_n_n_01_1_11 : GatherDims S8192x10 S8192x2 S8192 where
  offsetDims := []
  collapsedSliceDims := [0, 1]
  operandBatchingDims := []
  startIndicesBatchingDims := []
  startIndexMap := [0, 1]
  indexVectorDim := 1
  sliceSizes := ![1, 1]
  wf := gather_S8192x10_S8192x2_S8192_n_01_n_n_01_1_11_wf
def scatter_S10_S8192x1_S8192_n_0_0_1 : ScatterDims S10 S8192x1 S8192 where
  updateWindowDims := []
  insertedWindowDims := [0]
  scatterDimsToOperandDims := [0]
  indexVectorDim := 1
  wf := scatter_S10_S8192x1_S8192_n_0_0_1_wf
def gather_S10_S8192x1_S8192_n_0_n_n_0_1_1 : GatherDims S10 S8192x1 S8192 where
  offsetDims := []
  collapsedSliceDims := [0]
  operandBatchingDims := []
  startIndicesBatchingDims := []
  startIndexMap := [0]
  indexVectorDim := 1
  sliceSizes := ![1]
  wf := gather_S10_S8192x1_S8192_n_0_n_n_0_1_1_wf

class Facts : Prop extends Facts₀ where

variable [Facts]
-- ==== Proof.WordRegion0Body.lean ====
/-
  (This module is the text of the module of the same name without the prefix, for the program as printed — read at the
  word level — instead of its idealization: the two programs are the same text, and every statement here holds at every
  float instance.)

  The first kernel region: rows of `embedding · Wᵀ + b` scaled to unit length.

  The grid has 8 points; point `t` reads rows `1024·t … 1024·t + 1023` of the embedding, the whole weight matrix and
  the whole bias, and writes the same 1024 rows of two outputs: the normalised rows as f32 and the same rows narrowed
  to bf16.  This module states what one call of the kernel function leaves in its two output buffers as a function of
  the three input blocks, and proves the call's triple; it holds at every float instance.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one call leaves in its output buffers -/

/-- The whole 1024×1024 embedding block. -/
abbrev rectEmb : Rect S1024x1024 := Rect.unit (s := S1024x1024) ![0, 0] S1024x1024.size inb_S1024x1024_S1024x1024_0_0
/-- The whole 256×1024 weight matrix. -/
abbrev rectW : Rect S256x1024 := Rect.unit (s := S256x1024) ![0, 0] S256x1024.size inb_S256x1024_S256x1024_0_0
/-- The whole bias vector. -/
abbrev rectB : Rect S256 := Rect.unit (s := S256) ![0] S256.size inb_S256_S256_0
/-- The whole 1024×256 output block. -/
abbrev rectRows : Rect S1024x256 := Rect.unit (s := S1024x256) ![0, 0] S1024x256.size inb_S1024x256_S1024x256_0_0

/-- The f32 output block after the call: its one store, of the normalised rows computed from the three input blocks. -/
def unitRows (x0 : Vec F S1024x1024 .f32) (x1 : Vec F S256x1024 .f32) (x2 : Vec F S256 .f32) : Vec F S1024x256 .f32 :=
  View.canon [⟨rectRows, k0_pay1 (View.ld x0 rectEmb) (View.ld x1 rectW) (View.ld x2 rectB)⟩]

/-- The bf16 output block after the call: the same rows narrowed. -/
def unitRowsNarrow (x0 : Vec F S1024x1024 .f32) (x1 : Vec F S256x1024 .f32) (x2 : Vec F S256 .f32) : Vec F S1024x256 .bf16 :=
  View.canon [⟨rectRows, k0_pay2 (View.ld x0 rectEmb) (View.ld x1 rectW) (View.ld x2 rectB)⟩]

/-- One store through the whole block covers the block. -/
theorem cover_rows (p0 : Vec F S1024x256 .f32) (y : S1024x256.Idx) :
    ∃ pc ∈ ([⟨rectRows, p0⟩] : List (View.Piece (Elt F) S1024x256 .f32)), y ∈ pc.1.set :=
  View.cover_of_tiled [⟨rectRows, p0⟩] S1024x256.size (by rfl) y

theorem cover_rows_narrow (p0 : Vec F S1024x256 .bf16) (y : S1024x256.Idx) :
    ∃ pc ∈ ([⟨rectRows, p0⟩] : List (View.Piece (Elt F) S1024x256 .bf16)), y ∈ pc.1.set :=
  View.cover_of_tiled [⟨rectRows, p0⟩] S1024x256.size (by rfl) y

/-! ## The call's triple -/

set_option maxHeartbeats 1000000 in
/-- The kernel function on whole buffers — the three inputs at contents `x0 x1 x2`, the two outputs at anything — runs to
    its continuation with the inputs as they were and the outputs at `unitRows` and `unitRowsNarrow` of the inputs. -/
theorem transform_triple (c : Dev nD) (E : Set ℕ) (i : grid0.Coords)
    (arg1 : Memref sig .tc .vmem S1024x1024 .f32) (harg1 : arg1.IsWhole) (arg2 : Memref sig .tc .vmem S256x1024 .f32) (harg2 : arg2.IsWhole)
    (arg3 : Memref sig .tc .vmem S256 .f32) (harg3 : arg3.IsWhole) (arg4 : Memref sig .tc .vmem S1024x256 .f32) (harg4 : arg4.IsWhole)
    (arg5 : Memref sig .tc .vmem S1024x256 .bf16) (harg5 : arg5.IsWhole)
    (x0 : Vec F S1024x1024 .f32) (x1 : Vec F S256x1024 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (unitRows x0 x1 x2) ∗ owns (c : Thread nD τ) arg5 fullShare (unitRowsNarrow x0 x1 x2)) -∗ K ⟨⟩))
      ⊢ wp frame (wpE (defs₀ (F := F)) Variants.none c none) E (cc0__transform_kernel i arg1 harg1 arg2 harg2 arg3 harg3 arg4 harg4 arg5 harg5) K := by
  simp only [cc0__transform_kernel_eq_skeleton]; unfold cc0__transform_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_rows _)
  iexists _; isplitr
  swap; · iexact H4
  ipureintro
  exact View.read_writes_eq_canon _ _ _ (cover_rows_narrow _)

end Cert.Kernel.Hand

end
-- ==== Proof.WordRegion0.lean ====
/-
  (This module is the text of the module of the same name without the prefix, for the program as printed — read at the
  word level — instead of its idealization: the two programs are the same text, and every statement here holds at every
  float instance.)

  The first kernel region as a pipeline: its proof data at the contents the region is entered with, and the body
  obligation at every grid point.

  At point `t` each of the three input windows holds its block of the array as entered — the 1024 embedding rows of the
  point, the whole weight matrix, the whole bias (the last two fetched at the first point only: their block never moves) —
  and the kernel function leaves in the two output windows the unit-length rows computed from those three blocks.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import proofs.«113247_j19061064860121_2_alg».proof.Proof.WordRegion0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding window's buffer holds the point's rows, for any proof data over `V`'s array that leaves them there. -/
theorem found0_0_of {c : Dev nD} (dat : Dat τ (Elt F) Unit ℕ (UR sig nD τ) ℕ cfg0 c) (hA : dat.A 0 = V c (Pipeline.arrRef spec0 0))
    (hafter : ∀ t, dat.after 0 t = inBlock0 V c 0 t) (t : Fin cfg0.N) (d) : dat.before 0 t d = inBlock0 V c 0 t :=
  (dat.before_in_eq_fetched 0 rfl (fun _ => rfl) (fun _ _ _ => rfl) (fun t => by rw [hafter]; unfold Dat.blockOf inBlock0; rw [hA]; try rfl) t d).trans
    (by unfold Dat.fetched Dat.blockOf inBlock0; rw [hA]; try rfl)

/-- The weight window's buffer holds the whole matrix at every point, fetched there or not. -/
theorem found0_1_of {c : Dev nD} (dat : Dat τ (Elt F) Unit ℕ (UR sig nD τ) ℕ cfg0 c) (hA : dat.A 1 = V c (Pipeline.arrRef spec0 1))
    (hafter : ∀ t, dat.after 1 t = inBlock0 V c 1 t) (t : Fin cfg0.N) (d) : dat.before 1 t d = inBlock0 V c 1 t :=
  (dat.before_in_eq_fetched 1 rfl (fun _ => rfl) (fun _ _ _ => rfl) (fun t => by rw [hafter]; unfold Dat.blockOf inBlock0; rw [hA]; try rfl) t d).trans
    (by unfold Dat.fetched Dat.blockOf inBlock0; rw [hA]; try rfl)

/-- The bias window's buffer holds the whole vector at every point, fetched there or not. -/
theorem found0_2_of {c : Dev nD} (dat : Dat τ (Elt F) Unit ℕ (UR sig nD τ) ℕ cfg0 c) (hA : dat.A 2 = V c (Pipeline.arrRef spec0 2))
    (hafter : ∀ t, dat.after 2 t = inBlock0 V c 2 t) (t : Fin cfg0.N) (d) : dat.before 2 t d = inBlock0 V c 2 t :=
  (dat.before_in_eq_fetched 2 rfl (fun _ => rfl) (fun _ _ _ => rfl) (fun t => by rw [hafter]; unfold Dat.blockOf inBlock0; rw [hA]; try rfl) t d).trans
    (by unfold Dat.fetched Dat.blockOf inBlock0; rw [hA]; try rfl)

/-! ## The proof data -/

/-- Pipeline 0 on core `c`: the arrays as entered; after the body at point `t` each input window at its block and the two
    output windows at the unit-length rows of those blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => inBlock0 V c 1 t
    | ⟨2, _⟩ => inBlock0 V c 2 t
    | ⟨3, _⟩ => unitRows (inBlock0 V c 0 t) (inBlock0 V c 1 t) (inBlock0 V c 2 t)
    | ⟨4, _⟩ => unitRowsNarrow (inBlock0 V c 0 t) (inBlock0 V c 1 t) (inBlock0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = inBlock0 V c 0 t := by dsimp only [dat0]
theorem dat0_after_1 (c : Dev nD) (t : Fin cfg0.N) : (dat0 V c).after 1 t = inBlock0 V c 1 t := by dsimp only [dat0]
theorem dat0_after_2 (c : Dev nD) (t : Fin cfg0.N) : (dat0 V c).after 2 t = inBlock0 V c 2 t := by dsimp only [dat0]
theorem dat0_after_3 (c : Dev nD) (t : Fin cfg0.N) :
    (dat0 V c).after 3 t = unitRows (inBlock0 V c 0 t) (inBlock0 V c 1 t) (inBlock0 V c 2 t) := by dsimp only [dat0]
theorem dat0_after_4 (c : Dev nD) (t : Fin cfg0.N) :
    (dat0 V c).after 4 t = unitRowsNarrow (inBlock0 V c 0 t) (inBlock0 V c 1 t) (inBlock0 V c 2 t) := by dsimp only [dat0]

theorem dat0_found_0 (c : Dev nD) (t : Fin cfg0.N) (d) : (dat0 V c).before 0 t d = inBlock0 V c 0 t :=
  found0_0_of V (dat0 V c) (dat0_A V c 0) (dat0_after_0 V c) t d
theorem dat0_found_1 (c : Dev nD) (t : Fin cfg0.N) (d) : (dat0 V c).before 1 t d = inBlock0 V c 1 t :=
  found0_1_of V (dat0 V c) (dat0_A V c 1) (dat0_after_1 V c) t d
theorem dat0_found_2 (c : Dev nD) (t : Fin cfg0.N) (d) : (dat0 V c).before 2 t d = inBlock0 V c 2 t :=
  found0_2_of V (dat0 V c) (dat0_A V c 2) (dat0_after_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the call's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_found_0, dat0_found_1, dat0_found_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (transform_triple c Set.univ _ _ _ _ _ _ _ _ _ _ _ (inBlock0 V c 0 t) (inBlock0 V c 1 t) (inBlock0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordRegion1.lean ====
/-
  (This module is the text of the module of the same name without the prefix, for the program as printed — read at the
  word level — instead of its idealization: the two programs are the same text, and every statement here holds at every
  float instance.)

  The second kernel region as a pipeline: its proof data at the contents the region is entered with, and the body
  obligation at every grid point, for ANY function the kernel function's triple names as the contents of its output
  buffer (the triple is a hypothesis here; the module that runs the body supplies it).

  The grid has 32 points; point `t` reads rows `256·t … 256·t + 255` of the unit-length rows (narrowed), ALL 8192 of those
  rows, the point's 256 labels as a column and all 8192 labels as a row, and writes 256 row sums.  The first two windows
  read one array: each holds half of it.  The kernel's two scratch buffers are part of the scoped rest the invariant
  carries; the body takes them at anything and gives them back at anything.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered: a parameter, instantiated by the run
variable (V : (c : Dev nD) → (b : Ref sig .tc) → Buf (Elt F) ((c : Thread nD τ).loc b))

/-- What one call leaves in its output buffer, from the grid point and the four input blocks. -/
abbrev RowFn (F : FTy → Type) [FloatOps F] : Type :=
  grid1.Coords → Vec F S256x256 .bf16 → Vec F S8192x256 .bf16 → Vec F S256x1 .i32 → Vec F S1x8192 .i32 → Vec F S256x1 .f32

/-- The kernel function's triple for `rowFn`: on whole buffers — the four inputs at contents `x0 … x3`, the output and the
    two scratch buffers at anything — the call runs to its continuation with the inputs as they were, the output at
    `rowFn` of the point and the inputs, the scratch buffers at anything. -/
def CallTriple (rowFn : RowFn F) : Prop :=
  ∀ (c : Dev nD) (E : Set ℕ) (i : grid1.Coords)
    (arg1 : Memref sig .tc .vmem S256x256 .bf16) (harg1 : arg1.IsWhole) (arg2 : Memref sig .tc .vmem S8192x256 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x8192 .f32) (harg6 : arg6.IsWhole)
    (arg7 : Memref sig .tc .vmem S256x8192 .f32) (harg7 : arg7.IsWhole)
    (x0 : Vec F S256x256 .bf16) (x1 : Vec F S8192x256 .bf16) (x2 : Vec F S256x1 .i32) (x3 : Vec F S1x8192 .i32) (K : PUnit → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowFn i x0 x1 x2 x3)
            ∗ (∃ d, owns (c : Thread nD τ) arg6 fullShare d) ∗ (∃ d, owns (c : Thread nD τ) arg7 fullShare d)) -∗ K ⟨⟩))
      ⊢ wp frame (wpE (defs₀ (F := F)) Variants.none c none) E
          (cc1__fused_interloss_kernel i arg1 harg1 arg2 harg2 arg3 harg3 arg4 harg4 arg5 harg5 arg6 harg6 arg7 harg7) K

variable (rowFn : RowFn F)

/-! ## The windows' blocks -/

/-- Window `w`'s block at point `t`, read off its array as the region finds it. -/
def inBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's 256 rows are in the first window's buffer, for any proof data over `V`'s array that leaves them there. -/
theorem found1_0_of {c : Dev nD} (dat : Dat τ (Elt F) Unit ℕ (UR sig nD τ) ℕ cfg1 c) (hA : dat.A 0 = V c (Pipeline.arrRef spec1 0))
    (hafter : ∀ t, dat.after 0 t = inBlock1 V c 0 t) (t : Fin cfg1.N) (d) : dat.before 0 t d = inBlock1 V c 0 t :=
  (dat.before_in_eq_fetched 0 rfl (fun _ => rfl) (fun _ _ _ => rfl) (fun t => by rw [hafter]; unfold Dat.blockOf inBlock1; rw [hA]; try rfl) t d).trans
    (by unfold Dat.fetched Dat.blockOf inBlock1; rw [hA]; try rfl)

/-- All 8192 rows are in the second window's buffer at every point, fetched there or not. -/
theorem found1_1_of {c : Dev nD} (dat : Dat τ (Elt F) Unit ℕ (UR sig nD τ) ℕ cfg1 c) (hA : dat.A 1 = V c (Pipeline.arrRef spec1 1))
    (hafter : ∀ t, dat.after 1 t = inBlock1 V c 1 t) (t : Fin cfg1.N) (d) : dat.before 1 t d = inBlock1 V c 1 t :=
  (dat.before_in_eq_fetched 1 rfl (fun _ => rfl) (fun _ _ _ => rfl) (fun t => by rw [hafter]; unfold Dat.blockOf inBlock1; rw [hA]; try rfl) t d).trans
    (by unfold Dat.fetched Dat.blockOf inBlock1; rw [hA]; try rfl)

/-- The point's 256 labels are in the third window's buffer. -/
theorem found1_2_of {c : Dev nD} (dat : Dat τ (Elt F) Unit ℕ (UR sig nD τ) ℕ cfg1 c) (hA : dat.A 2 = V c (Pipeline.arrRef spec1 2))
    (hafter : ∀ t, dat.after 2 t = inBlock1 V c 2 t) (t : Fin cfg1.N) (d) : dat.before 2 t d = inBlock1 V c 2 t :=
  (dat.before_in_eq_fetched 2 rfl (fun _ => rfl) (fun _ _ _ => rfl) (fun t => by rw [hafter]; unfold Dat.blockOf inBlock1; rw [hA]; try rfl) t d).trans
    (by unfold Dat.fetched Dat.blockOf inBlock1; rw [hA]; try rfl)

/-- All 8192 labels are in the fourth window's buffer at every point, fetched there or not. -/
theorem found1_3_of {c : Dev nD} (dat : Dat τ (Elt F) Unit ℕ (UR sig nD τ) ℕ cfg1 c) (hA : dat.A 3 = V c (Pipeline.arrRef spec1 3))
    (hafter : ∀ t, dat.after 3 t = inBlock1 V c 3 t) (t : Fin cfg1.N) (d) : dat.before 3 t d = inBlock1 V c 3 t :=
  (dat.before_in_eq_fetched 3 rfl (fun _ => rfl) (fun _ _ _ => rfl) (fun t => by rw [hafter]; unfold Dat.blockOf inBlock1; rw [hA]; try rfl) t d).trans
    (by unfold Dat.fetched Dat.blockOf inBlock1; rw [hA]; try rfl)

/-! ## The proof data -/

/-- Pipeline 1 on core `c`: the arrays as entered; after the body at point `t` each input window at its block and the
    output window at `rowFn` of the point and those blocks; the invariant is the scoped rest (the scratch buffers among it)
    and the generator register; nothing owed; the two windows on the one array hold its left and its right half, the
    others their arrays whole. -/
def dat1 (c : Dev nD) : Dat τ (Elt F) Unit ℕ (UR sig nD τ) ℕ cfg1 c where
  A w := V c (Pipeline.arrRef spec1 w)
  after w t := match w with
    | ⟨0, _⟩ => inBlock1 V c 0 t
    | ⟨1, _⟩ => inBlock1 V c 1 t
    | ⟨2, _⟩ => inBlock1 V c 2 t
    | ⟨3, _⟩ => inBlock1 V c 3 t
    | ⟨4, _⟩ => rowFn (grid1.coords t) (inBlock1 V c 0 t) (inBlock1 V c 1 t) (inBlock1 V c 2 t) (inBlock1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem dat1_A (c : Dev nD) (w : Fin cfg1.W) : (dat1 V rowFn c).A w = V c (Pipeline.arrRef spec1 w) := by
  dsimp only [dat1]

theorem dat1_after_0 (c : Dev nD) (t : Fin cfg1.N) : (dat1 V rowFn c).after 0 t = inBlock1 V c 0 t := by dsimp only [dat1]
theorem dat1_after_1 (c : Dev nD) (t : Fin cfg1.N) : (dat1 V rowFn c).after 1 t = inBlock1 V c 1 t := by dsimp only [dat1]
theorem dat1_after_2 (c : Dev nD) (t : Fin cfg1.N) : (dat1 V rowFn c).after 2 t = inBlock1 V c 2 t := by dsimp only [dat1]
theorem dat1_after_3 (c : Dev nD) (t : Fin cfg1.N) : (dat1 V rowFn c).after 3 t = inBlock1 V c 3 t := by dsimp only [dat1]
theorem dat1_after_4 (c : Dev nD) (t : Fin cfg1.N) :
    (dat1 V rowFn c).after 4 t = rowFn (grid1.coords t) (inBlock1 V c 0 t) (inBlock1 V c 1 t) (inBlock1 V c 2 t) (inBlock1 V c 3 t) := by
  dsimp only [dat1]

theorem dat1_found_0 (c : Dev nD) (t : Fin cfg1.N) (d) : (dat1 V rowFn c).before 0 t d = inBlock1 V c 0 t :=
  found1_0_of V (dat1 V rowFn c) (dat1_A V rowFn c 0) (dat1_after_0 V rowFn c) t d
theorem dat1_found_1 (c : Dev nD) (t : Fin cfg1.N) (d) : (dat1 V rowFn c).before 1 t d = inBlock1 V c 1 t :=
  found1_1_of V (dat1 V rowFn c) (dat1_A V rowFn c 1) (dat1_after_1 V rowFn c) t d
theorem dat1_found_2 (c : Dev nD) (t : Fin cfg1.N) (d) : (dat1 V rowFn c).before 2 t d = inBlock1 V c 2 t :=
  found1_2_of V (dat1 V rowFn c) (dat1_A V rowFn c 2) (dat1_after_2 V rowFn c) t d
theorem dat1_found_3 (c : Dev nD) (t : Fin cfg1.N) (d) : (dat1 V rowFn c).before 3 t d = inBlock1 V c 3 t :=
  found1_3_of V (dat1 V rowFn c) (dat1_A V rowFn c 3) (dat1_after_3 V rowFn c) t d

/-! ## The invariant: the scratch buffers among the scoped rest -/

/-- The scoped buffers of the core that are neither a staging buffer of this pipeline nor one of its two scratch
    buffers, each whole at some contents: the first pipeline's eight staging buffers. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant, with the two scratch buffers as whole memrefs at some contents. -/
theorem invariant1_eq (c : Dev nD) :
    (Pipeline.ΦA spec1 c : sProp 𝕄)
      = iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) (Memref.whole cc1_scratch0) fullShare d)
    ∗ (∃ d, owns (c : Thread nD τ) (Memref.whole cc1_scratch1) fullShare d)) ∗ (∃ r, prngReg c r)) := by
  unfold Pipeline.ΦA; rw [scopedRest1_eq]; simp only [owns_whole]; try rfl

/-! ## The body obligation -/

/-- What the body is called with at point `t`, the windows one by one, -/
def bodyPre1 (c : Dev nD) (t : Fin cfg1.N) : sProp 𝕄 :=
  iprop((dat1 V rowFn c).Φ t.castSucc ∗ (dat1 V rowFn c).owesAt () t.castSucc
    ∗ (∃ d, owns (c : Thread nD τ) (st1_0 t) fullShare ((dat1 V rowFn c).before 0 t d))
    ∗ (∃ d, owns (c : Thread nD τ) (st1_1 t) fullShare ((dat1 V rowFn c).before 1 t d))
    ∗ (∃ d, owns (c : Thread nD τ) (st1_2 t) fullShare ((dat1 V rowFn c).before 2 t d))
    ∗ (∃ d, owns (c : Thread nD τ) (st1_3 t) fullShare ((dat1 V rowFn c).before 3 t d))
    ∗ (∃ d, owns (c : Thread nD τ) (st1_4 t) fullShare ((dat1 V rowFn c).before 4 t d)))

/-- and what it returns. -/
def bodyPost1 (c : Dev nD) (t : Fin cfg1.N) : sProp 𝕄 :=
  iprop((dat1 V rowFn c).Φ t.succ ∗ (dat1 V rowFn c).owesAt () t.succ
    ∗ owns (c : Thread nD τ) (st1_0 t) fullShare ((dat1 V rowFn c).after 0 t)
    ∗ owns (c : Thread nD τ) (st1_1 t) fullShare ((dat1 V rowFn c).after 1 t)
    ∗ owns (c : Thread nD τ) (st1_2 t) fullShare ((dat1 V rowFn c).after 2 t)
    ∗ owns (c : Thread nD τ) (st1_3 t) fullShare ((dat1 V rowFn c).after 3 t)
    ∗ owns (c : Thread nD τ) (st1_4 t) fullShare ((dat1 V rowFn c).after 4 t))

/-- The body at any point: the inputs' buffers hold their blocks and the invariant lends the two scratch buffers, so the
    call's triple applies; the scratch buffers go back into the invariant at whatever they hold. -/
theorem sound_body1 (htriple : CallTriple rowFn) (c : Dev nD) (t : Fin cfg1.N) :
    bodyPre1 V rowFn c t ⊢ wp frame (wpE (defs₀ (F := F)) Variants.none c none) Set.univ (bodyAt1 t) (fun _ => bodyPost1 V rowFn c t) := by
  unfold bodyPre1 bodyPost1 bodyAt1
  simp only [dat1_found_0, dat1_found_1, dat1_found_2, dat1_found_3]
  rw [show (dat1 V rowFn c).Φ t.succ = Pipeline.ΦA spec1 c from rfl,
    show (dat1 V rowFn c).Φ t.castSucc = Pipeline.ΦA spec1 c from rfl,
    show (dat1 V rowFn c).owesAt () t.succ = (dat1 V rowFn c).owesAt () t.castSucc from rfl,
    dat1_after_0, dat1_after_1, dat1_after_2, dat1_after_3, dat1_after_4, invariant1_eq]
  iintro ⟨⟨⟨Hs0, Hs1, Hs2, Hs3, Hs4, Hs5, Hs6, Hs7, Hx0, Hx1⟩, Hg⟩, Ho, ⟨%d0, H0⟩, ⟨%d1, H1⟩, ⟨%d2, H2⟩, ⟨%d3, H3⟩, ⟨%d4, H4⟩⟩
  iapply (htriple c Set.univ _ _ _ _ _ _ _ _ _ _ _ _ _ _ _ (inBlock1 V c 0 t) (inBlock1 V c 1 t) (inBlock1 V c 2 t) (inBlock1 V c 3 t) _)
  isplitl [H0]; · iexact H0
  isplitl [H1]; · iexact H1
  isplitl [H2]; · iexact H2
  isplitl [H3]; · iexact H3
  isplitl [H4]; · iexists _; iexact H4
  isplitl [Hx0]; · iexact Hx0
  isplitl [Hx1]; · iexact Hx1
  iintro ⟨H0, H1, H2, H3, H4, Hx0, Hx1⟩
  isplitl [Hs0 Hs1 Hs2 Hs3 Hs4 Hs5 Hs6 Hs7 Hx0 Hx1 Hg]
  · isplitr [Hg]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hx0]; · iexact Hx0
      iexact Hx1
    iexact Hg
  isplitl [Ho]; · iexact Ho
  isplitl [H0]; · iexact H0
  isplitl [H1]; · iexact H1
  isplitl [H2]; · iexact H2
  isplitl [H3]; · iexact H3
  iexact H4

/-- The library's body obligation, at every point. -/
theorem body_obligation1 (htriple : CallTriple rowFn) (c : Dev nD) :
    BodyObligation (dat1 (F := F) V rowFn c) (defs₀ (F := F)) Variants.none () Set.univ := fun t => by
  rw [bigSep_W1, bigSep_W1]
  exact sound_body1 V rowFn htriple c t

end Cert.Kernel.Hand

end
-- ==== Proof.WordRegion1Arrays.lean ====
/-
  (This module is the text of the module of the same name without the prefix, for the program as printed — read at the
  word level — instead of its idealization: the two programs are the same text, and every statement here holds at every
  float instance.)

  The second region's arrays against the core's unscoped buffers.

  Four distinct buffers stand behind its five windows: the narrowed unit-length rows (read by the first TWO windows),
  the label column, the label row, and the row sums it writes.  Entering the region, the buffer behind the first two
  windows, held whole, is split into its left and right halves, one per window; leaving it, the two halves — both still at
  the entry contents, the windows only read — are joined again.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import proofs.«113247_j19061064860121_2_alg».proof.Proof.WordRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (rowFn : RowFn F)

/-- The distinct buffers behind the five windows. -/
theorem arrays1_refs : Finset.univ.image (Pipeline.arrRef spec1) = ([main_v0_1, main_v1, main_v2, main_v3] : List (Ref sig .tc)).toFinset := by decide

/-- Those buffers, each whole at the full share, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_1) ↦{fullShare} W main_v0_1) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  rw [BI.bigSep_eq_bigSepL_of_eq _ arrays1_refs (by decide)]
  rfl

/-- The pipeline's arrays, window by window: the first two windows hold the two halves of one buffer. -/
theorem arrays1_eq (c : Dev nD) (G : (w : Fin cfg1.W) → Buf (Elt F) ((cfg1.win w).arr.view.loc (c : Thread nD τ))) :
    ((dat1 V rowFn c).arrays G : sProp 𝕄)
      = iprop((((c : Thread nD τ).loc main_v0_1) ↦{fullShare.left} G 0) ∗ (((c : Thread nD τ).loc main_v0_1) ↦{fullShare.right} G 1)
          ∗ (((c : Thread nD τ).loc main_v1) ↦{fullShare} G 2) ∗ (((c : Thread nD τ).loc main_v2) ↦{fullShare} G 3)
          ∗ (((c : Thread nD τ).loc main_v3) ↦{fullShare} G 4)) := by
  unfold Dat.arrays
  rw [bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  have h4 : (cfg1.win 4).arr.view.set = Finset.univ := (arr_whole1 4).set_eq_univ
  -- the first two windows are on one buffer: one rewrite serves both
  rw [h0]
  try rw [h1]
  rw [h2, h3, h4]
  rfl

/-- ENTRY: the buffers behind the arrays, whole at `W`, make the pipeline's arrays at any contents that are `W`'s. -/
theorem enter1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V rowFn c).arrays G := by
  rw [arrBufs1_eq, arrays1_eq, hG 0, hG 1, hG 2, hG 3, hG 4]
  iintro ⟨Ha, Hb, Hc, Hd⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  isplitl [Hc]; · iexact Hc
  iexact Hd

/-- EXIT: the pipeline's arrays at contents `G` and the unscoped rest at `W` are the core's unscoped buffers at any
    valuation `W'` that has the arrays at `G` and agrees with `W` off them. -/
theorem leave1 (c : Dev nD) (W W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = W b) :
    iprop((dat1 V rowFn c).arrays G ∗ Pipeline.unscopedRest (Ix := Unit) (Name := ℕ) (U := UR sig nD τ) (Lvl := ℕ) spec1 c W)
      ⊢ (unscopedBufs c W' : sProp 𝕄) := by
  rw [Pipeline.unscopedBufs_split₀ cfgs 1 winFacts₀1.arr_unscoped c W']
  show iprop((dat1 V rowFn c).arrays G ∗ Pipeline.unscopedRest (Ix := Unit) (Name := ℕ) (U := UR sig nD τ) (Lvl := ℕ) spec1 c W)
    ⊢ iprop((Pipeline.arrBufs (Ix := Unit) (Name := ℕ) (U := UR sig nD τ) (Lvl := ℕ) spec1 c W' : sProp 𝕄)
      ∗ Pipeline.unscopedRest (Ix := Unit) (Name := ℕ) (U := UR sig nD τ) (Lvl := ℕ) spec1 c W')
  rw [arrBufs1_eq, arrays1_eq, hG 0, hG 1, hG 2, hG 3, hG 4]
  refine sep_mono ?_ (Entails.of_eq ?_)
  · iintro ⟨Hl, Hr, Hb, Hc, Hd⟩
    isplitl [Hl Hr]
    · iapply (pointsTo_share (PosShare.mem_left_op_right fullShare)).2
      isplitl [Hl]; · iexact Hl
      iexact Hr
    isplitl [Hb]; · iexact Hb
    isplitl [Hc]; · iexact Hc
    iexact Hd
  · unfold Pipeline.unscopedRest
    exact bigSep_congr fun b hb => by rw [hrest b (Finset.mem_sdiff.mp hb).2]

end Cert.Kernel.Hand

end
-- ==== Proof.WordRun.lean ====
/-
  (This module is the text of the module of the same name without the prefix, for the program as printed — read at the
  word level — instead of its idealization: the two programs are the same text, and every statement here holds at every
  float instance.)

  The whole program as a run of six segments: the first kernel region, two reshapes of the labels, the second kernel
  region, and three stretches of host operations (the mean of the row sums, the prototype losses, the final sum).

  The contents of every unscoped buffer are followed from the launch memory through each segment: a host stretch
  applies its operations; the first region leaves its two output arrays at what its eight write-backs make of them; the
  second leaves its one output array at what its thirty-two write-backs make of it.  Every execution ends with every
  unscoped buffer at the last of these valuations — from which both the frame (no segment writes an argument) and the
  result's value are read.  The second region's triple is a hypothesis; everything holds at every float instance.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import proofs.«113247_j19061064860121_2_alg».proof.Proof.Gen.Kernel.Regions
import proofs.«113247_j19061064860121_2_alg».proof.Proof.WordRegion0
import proofs.«113247_j19061064860121_2_alg».proof.Proof.WordRegion1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (rowFn : RowFn F)

/-! ## The buffers' contents at each segment boundary -/

/-- Core `c`'s buffers at launch: the first region's entry. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arrays (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the two reshapes of the labels: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b

/-- After the second region: the row sums at what the pipeline leaves, every other buffer as entered (its four input
    arrays among them: it only reads them). -/
def W3 (c : Dev nD) : Valuation τ sig (Elt F) :=
  Function.update (W2 m c) (Proc.devRef .tc main_v3) ((dat1 (E2 m) rowFn c).arrAt 4 cfg1.N)
abbrev E3 : (c : Dev nD) → (b : Ref sig .tc) → Buf (Elt F) ((c : Thread nD τ).loc b) := fun c b => W3 m rowFn c b

theorem W3_rows (c : Dev nD) : W3 m rowFn c (Proc.devRef .tc main_v3) = (dat1 (E2 m) rowFn c).arrAt 4 cfg1.N := by
  unfold W3; exact Function.update_self ..
theorem W3_of_ne (c : Dev nD) (b : Ref sig .tc) (hb : b ≠ main_v3) : W3 m rowFn c (Proc.devRef .tc b) = W2 m c (Proc.devRef .tc b) := by
  unfold W3; exact Function.update_of_ne (StableHlo.devRef_ne_of_ne hb) ..

theorem exit1_arrays (c : Dev nD) (w : Fin cfg1.W) : (dat1 (E2 m) rowFn c).arrAt w cfg1.N = E3 m rowFn c (Pipeline.arrRef spec1 w) :=
  match w with
  | ⟨0, _⟩ => ((dat1 (E2 m) rowFn c).arrAt_in 0 rfl _).trans ((dat1_A (E2 m) rowFn c 0).trans (W3_of_ne m rowFn c main_v0_1 (by decide)).symm)
  | ⟨1, _⟩ => ((dat1 (E2 m) rowFn c).arrAt_in 1 rfl _).trans ((dat1_A (E2 m) rowFn c 1).trans (W3_of_ne m rowFn c main_v0_1 (by decide)).symm)
  | ⟨2, _⟩ => ((dat1 (E2 m) rowFn c).arrAt_in 2 rfl _).trans ((dat1_A (E2 m) rowFn c 2).trans (W3_of_ne m rowFn c main_v1 (by decide)).symm)
  | ⟨3, _⟩ => ((dat1 (E2 m) rowFn c).arrAt_in 3 rfl _).trans ((dat1_A (E2 m) rowFn c 3).trans (W3_of_ne m rowFn c main_v2 (by decide)).symm)
  | ⟨4, _⟩ => (W3_rows m rowFn c).symm
theorem exit1_rest (c : Dev nD) : ∀ b, b ∉ Finset.univ.image (Pipeline.arrRef spec1) → E3 m rowFn c b = E2 m c b :=
  fun b hb => W3_of_ne m rowFn c b fun e => hb (e ▸ Finset.mem_image.mpr ⟨4, Finset.mem_univ _, rfl⟩)

/-- After the mean of the row sums and the first part of the prototype losses, -/
abbrev W4 : Dev nD → Valuation τ sig (Elt F) := fun c => StableHlo.after hostOps2 (W3 m rowFn c)
/-- after the masked exponentials, -/
abbrev W5 : Dev nD → Valuation τ sig (Elt F) := fun c => StableHlo.after hostOps2_1 (W4 m rowFn c)
/-- and at the end. -/
abbrev W6 : Dev nD → Valuation τ sig (Elt F) := fun c => StableHlo.after hostOps2_2 (W5 m rowFn c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) rowFn c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues. -/
abbrev Tₙ (c : Dev nD) : sProp 𝕄 := iprop(StableHlo.held (c : Thread nD τ) (Pipeline.ucRefs τ sig) (W6 m rowFn c) ∗ ∃ r, prngReg c r)

/-! ## The regions as segments -/

set_option backward.isDefEq.respectTransparency.types false in
/-- The first region: entered from every unscoped buffer at `W0`, left at `W1`. -/
def reg0 : Pipeline.RegionSeg (pcfgs (F := F)) adm (pdats m rowFn) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m rowFn) launch0.win launch0.arr_whole c
      ((pdats m rowFn 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m rowFn 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m rowFn 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m rowFn) ((pdats m rowFn 0 c).share_full fun _ => rfl)
      (E0 m c) (E1 m c) ((pdats m rowFn 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`.  Two of its windows read one array:
    the buffer is split in halves at the entry and joined at the exit. -/
def reg1 (htriple : CallTriple rowFn) : Pipeline.RegionSeg (pcfgs (F := F)) adm (pdats m rowFn) () defs₀ 𝒱₀ L lv 1 where
  win := winFacts₀1
  block_pos := block_pos1
  stage_whole := stage_whole1
  K := PEmpty
  osem k := k.elim
  ho := Pipeline.OwnSemFacts.none _
  hbody c := (body_obligation1 (E2 m) rowFn htriple c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m rowFn c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m rowFn 1 c).arrays ((pdats m rowFn 1 c).arrAt · 0)
            ∗ Pipeline.unscopedRest (Ix := Unit) (Name := ℕ) (U := UR sig nD τ) (Lvl := ℕ) spec1 c (E2 m c)) := by
      rw [Pipeline.unscopedBufs_split₀ cfgs 1 winFacts₀1.arr_unscoped c (E2 m c)]
      exact sep_mono (enter1 (E2 m) rowFn c (E2 m c) _ (fun w => dat1_A (E2 m) rowFn c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m rowFn 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m rowFn 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 (E2 m) rowFn c (E2 m c) (E3 m rowFn c) ((pdats m rowFn 1 c).arrAt · cfg1.N)
      (exit1_arrays m rowFn c) (exit1_rest m rowFn c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The six segments in order. -/
abbrev segs (htriple : CallTriple rowFn) : List (Pipeline.Seg (pcfgs (F := F)) adm (pdats m rowFn) () defs₀ 𝒱₀ L lv) :=
  [ .region (reg0 m rowFn),
    .host (hseg hostOps1 hostOps1_sub hostOps1_fresh (W1 m)),
    .region (reg1 m rowFn htriple),
    .host (hseg hostOps2 hostOps2_sub hostOps2_fresh (W3 m rowFn)),
    .host (hseg hostOps2_1 hostOps2_1_sub hostOps2_1_fresh (W4 m rowFn)),
    .host (hseg hostOps2_2 hostOps2_2_sub hostOps2_2_fresh (W5 m rowFn)) ]

/-- The program is the run of the segments. -/
theorem main_run (htriple : CallTriple rowFn) (c : Dev nD) : main (F := F) c = Pipeline.Seg.run (segs m rowFn htriple) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final state has every unscoped buffer of every core at the last valuation. -/
theorem run_all (htriple : CallTriple rowFn) :
    θ_run defs (onTc (τ := τ) (main (F := F))) ⟨m, fun _ => 0, ρ⟩ (fun r => ∀ c : Dev nD,
      ∀ b ∈ Pipeline.ucRefs τ sig, r.2.mem (((c : Thread nD τ)).1, b) = W6 m rowFn c b) :=
  Pipeline.θ_run_regions_kit (pcfgs (F := F)) adm (pdats m rowFn) () cellOf_inj emb₁ defs₀ 𝒱₀ L lv m ρ main (segs m rowFn htriple)
    (fun c Q => by rw [main_run m rowFn htriple c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m rowFn)
    (hch := ⟨fun _ => .rfl, fun _ => .rfl, fun _ => .rfl, fun _ => .rfl, fun _ => .rfl, fun _ => .rfl, fun c =>
      show iprop(StableHlo.held (c : Thread nD τ) (Pipeline.ucRefs τ sig) (W6 m rowFn c) ∗ R c)
        ⊢ iprop(Tₙ m rowFn c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m rowFn c b)
    (hfin := fun c s' => by
      iintro ⟨⟨Hh, -⟩, HSI⟩
      unfold StableHlo.held
      imodintro
      iapply (pointsTo_read_all (Pipeline.ucRefs τ sig) (fun b => (((c : Thread nD τ)).1, b)) (W6 m rowFn c) s')
      isplitl [Hh] <;> iassumption)
    (hQ := fun s h c => h c)

end Cert.Kernel.Hand

end
-- ==== Proof.WordRunFrame.lean ====
/-
  (This module is the text of the module of the same name without the prefix, for the program as printed — read at the
  word level — instead of its idealization: the two programs are the same text, and every statement here holds at every
  float instance.)

  No segment writes an argument: the frame.

  Reading an argument's buffer off the last valuation walks back through the six segments — the three closing host
  stretches and the two reshapes write other buffers; the second region changes only its row sums; the first region
  changes only its two outputs (it reads three of the arguments through input windows, which are never written back) —
  to the launch memory.
-/
import proofs.«113247_j19061064860121_2_alg».proof.Proof.Gen.Kernel.Launch
import proofs.«113247_j19061064860121_2_alg».proof.Proof.Gen.Kernel.Skeleton
import proofs.«113247_j19061064860121_2_alg».proof.Proof.Gen.Kernel.Points
import proofs.«113247_j19061064860121_2_alg».proof.Proof.WordRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (rowFn : RowFn F)

/-- A buffer that neither a host stretch nor the second region writes holds at the end what the first region left. -/
theorem W6_eq_W1 (c : Dev nD) (r : Ref sig .tc) (h22 : r ∉ hostOps2_2_W) (h21 : r ∉ hostOps2_1_W) (h2 : r ∉ hostOps2_W)
    (h3 : r ≠ main_v3) (h1 : r ∉ hostOps1_W) : W6 m rowFn c r = W1 m c r :=
  (StableHlo.after_of_writes_sub hostOps2_2 _ hostOps2_2_writes h22).trans <|
    (StableHlo.after_of_writes_sub hostOps2_1 _ hostOps2_1_writes h21).trans <|
    (StableHlo.after_of_writes_sub hostOps2 _ hostOps2_writes h2).trans <|
    (W3_of_ne m rowFn c r h3).trans <|
    (StableHlo.after_of_writes_sub hostOps1 _ hostOps1_writes h1)

/-- An input array of the first region is left as entered. -/
theorem W1_input (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (dat0_A (E0 m) c w))

theorem W6_main_arg0 (c : Dev nD) : W6 m rowFn c main_arg0 = m ((c : Thread nD τ).loc main_arg0) :=
  (W6_eq_W1 m rowFn c main_arg0 (by decide) (by decide) (by decide) (by decide) (by decide)).trans (W1_input m c 0 rfl)
theorem W6_main_arg1 (c : Dev nD) : W6 m rowFn c main_arg1 = m ((c : Thread nD τ).loc main_arg1) :=
  (W6_eq_W1 m rowFn c main_arg1 (by decide) (by decide) (by decide) (by decide) (by decide)).trans (W1_of_ne m c main_arg1 (by decide))
theorem W6_main_arg2 (c : Dev nD) : W6 m rowFn c main_arg2 = m ((c : Thread nD τ).loc main_arg2) :=
  (W6_eq_W1 m rowFn c main_arg2 (by decide) (by decide) (by decide) (by decide) (by decide)).trans (W1_input m c 1 rfl)
theorem W6_main_arg3 (c : Dev nD) : W6 m rowFn c main_arg3 = m ((c : Thread nD τ).loc main_arg3) :=
  (W6_eq_W1 m rowFn c main_arg3 (by decide) (by decide) (by decide) (by decide) (by decide)).trans (W1_input m c 2 rfl)
theorem W6_main_arg4 (c : Dev nD) : W6 m rowFn c main_arg4 = m ((c : Thread nD τ).loc main_arg4) :=
  (W6_eq_W1 m rowFn c main_arg4 (by decide) (by decide) (by decide) (by decide) (by decide)).trans (W1_of_ne m c main_arg4 (by decide))

/-- The final state's reading of the five arguments and of any one further unscoped buffer `res`: the arguments as
    launched, `res` at the last valuation. -/
theorem run_with (htriple : CallTriple rowFn) (res : Ref sig .tc) (hres : ¬ (Proc.devRef .tc res : DevRef τ sig).isScoped) :
    θ_run defs (onTc (τ := τ) (main (F := F))) ⟨m, fun _ => 0, ρ⟩ (fun r => ∀ c : Dev nD,
      r.2.mem ((c.tc : Thread nD τ).loc res) = W6 m rowFn c res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc res hres),
     (h c _ (mem_uc main_arg0 (by decide))).trans (W6_main_arg0 m rowFn c),
     (h c _ (mem_uc main_arg1 (by decide))).trans (W6_main_arg1 m rowFn c),
     (h c _ (mem_uc main_arg2 (by decide))).trans (W6_main_arg2 m rowFn c),
     (h c _ (mem_uc main_arg3 (by decide))).trans (W6_main_arg3 m rowFn c),
     (h c _ (mem_uc main_arg4 (by decide))).trans (W6_main_arg4 m rowFn c)⟩) (run_all m ρ rowFn htriple)

/-- THE FRAME: every execution terminates, nothing faulting, with the five argument arrays as launched. -/
theorem frame (htriple : CallTriple rowFn) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_with m ρ rowFn htriple main_v83 (by decide))

end Cert.Kernel.Hand

end
-- ==== Proof.WordBody1Defs.lean ====
/-
  (This module is the text of the module of the same name without the prefix, for the program as printed — read at the
  word level — instead of its idealization: the two programs are the same text, and every statement here holds at every
  float instance.)

  The second kernel region, one call: the values it computes, named.

  A call reads its block of 256 rows `en_i` (bf16), the full 8192×256 matrix `en` (bf16), the rows' labels (256×1) and
  all labels (1×8192).  In a first sweep over the eight column chunks of 1024 it forms `C = en_i · en_jᵀ` and `exp C`,
  keeps both in two 256×8192 strips, and accumulates, per row, the sum of `exp C` over the columns of a different
  label.  In a second sweep it reads the kept chunks back and accumulates, per row, the sum over the off-diagonal
  columns of `-pos + log (negsum + where (same, exp C, 1))`.  The 256 row sums are the call's one output.

  This module names every value of that computation as a function of the four inputs, each the body's own payload at
  what the body loads: an input through a literal rectangle, or a kept chunk product, which is the payload that was
  stored in that chunk of the strip.  It holds at every float instance.
-/
import proofs.«113247_j19061064860121_2_alg».proof.Proof.Gen.Kernel.Skeleton
import Idealize.ShloMosaic.Lib.Pipeline.FrameBody

-- membership in a rectangle of the kernel's extents recurses once per coordinate of the long axes
set_option maxRecDepth 16384

noncomputable section

namespace Cert.Kernel.Hand

open Cert.Kernel Cert.Kernel.Gen
open Idealize.ShloMosaic

variable {F : FTy → Type} [FloatOps F]

/-! ## The rectangles the body reads and writes through -/

/-- The whole 256×256 block of rows this call works on. -/
abbrev rowsRect : Rect S256x256 := Rect.unit (s := S256x256) ![0, 0] S256x256.size inb_S256x256_S256x256_0_0
/-- The whole 256×1 column: the rows' labels on input, the rows' sums on output. -/
abbrev colRect : Rect S256x1 := Rect.unit (s := S256x1) ![0, 0] S256x1.size inb_S256x1_S256x1_0_0
/-- Rows `0 … 1023` of the full 8192×256 matrix: column chunk 0. -/
abbrev chunkRect0 : Rect S8192x256 := Rect.unit (s := S8192x256) ![0, 0] S1024x256.size inb_S8192x256_S1024x256_0_0
/-- Rows `1024 … 2047` of the full 8192×256 matrix: column chunk 1. -/
abbrev chunkRect1 : Rect S8192x256 := Rect.unit (s := S8192x256) ![1024, 0] S1024x256.size inb_S8192x256_S1024x256_1024_0
/-- Rows `2048 … 3071` of the full 8192×256 matrix: column chunk 2. -/
abbrev chunkRect2 : Rect S8192x256 := Rect.unit (s := S8192x256) ![2048, 0] S1024x256.size inb_S8192x256_S1024x256_2048_0
/-- Rows `3072 … 4095` of the full 8192×256 matrix: column chunk 3. -/
abbrev chunkRect3 : Rect S8192x256 := Rect.unit (s := S8192x256) ![3072, 0] S1024x256.size inb_S8192x256_S1024x256_3072_0
/-- Rows `4096 … 5119` of the full 8192×256 matrix: column chunk 4. -/
abbrev chunkRect4 : Rect S8192x256 := Rect.unit (s := S8192x256) ![4096, 0] S1024x256.size inb_S8192x256_S1024x256_4096_0
/-- Rows `5120 … 6143` of the full 8192×256 matrix: column chunk 5. -/
abbrev chunkRect5 : Rect S8192x256 := Rect.unit (s := S8192x256) ![5120, 0] S1024x256.size inb_S8192x256_S1024x256_5120_0
/-- Rows `6144 … 7167` of the full 8192×256 matrix: column chunk 6. -/
abbrev chunkRect6 : Rect S8192x256 := Rect.unit (s := S8192x256) ![6144, 0] S1024x256.size inb_S8192x256_S1024x256_6144_0
/-- Rows `7168 … 8191` of the full 8192×256 matrix: column chunk 7. -/
abbrev chunkRect7 : Rect S8192x256 := Rect.unit (s := S8192x256) ![7168, 0] S1024x256.size inb_S8192x256_S1024x256_7168_0
/-- Entries `0 … 1023` of the 1×8192 label row: the labels of column chunk 0. -/
abbrev chunkLabRect0 : Rect S1x8192 := Rect.unit (s := S1x8192) ![0, 0] S1x1024.size inb_S1x8192_S1x1024_0_0
/-- Entries `1024 … 2047` of the 1×8192 label row: the labels of column chunk 1. -/
abbrev chunkLabRect1 : Rect S1x8192 := Rect.unit (s := S1x8192) ![0, 1024] S1x1024.size inb_S1x8192_S1x1024_0_1024
/-- Entries `2048 … 3071` of the 1×8192 label row: the labels of column chunk 2. -/
abbrev chunkLabRect2 : Rect S1x8192 := Rect.unit (s := S1x8192) ![0, 2048] S1x1024.size inb_S1x8192_S1x1024_0_2048
/-- Entries `3072 … 4095` of the 1×8192 label row: the labels of column chunk 3. -/
abbrev chunkLabRect3 : Rect S1x8192 := Rect.unit (s := S1x8192) ![0, 3072] S1x1024.size inb_S1x8192_S1x1024_0_3072
/-- Entries `4096 … 5119` of the 1×8192 label row: the labels of column chunk 4. -/
abbrev chunkLabRect4 : Rect S1x8192 := Rect.unit (s := S1x8192) ![0, 4096] S1x1024.size inb_S1x8192_S1x1024_0_4096
/-- Entries `5120 … 6143` of the 1×8192 label row: the labels of column chunk 5. -/
abbrev chunkLabRect5 : Rect S1x8192 := Rect.unit (s := S1x8192) ![0, 5120] S1x1024.size inb_S1x8192_S1x1024_0_5120
/-- Entries `6144 … 7167` of the 1×8192 label row: the labels of column chunk 6. -/
abbrev chunkLabRect6 : Rect S1x8192 := Rect.unit (s := S1x8192) ![0, 6144] S1x1024.size inb_S1x8192_S1x1024_0_6144
/-- Entries `7168 … 8191` of the 1×8192 label row: the labels of column chunk 7. -/
abbrev chunkLabRect7 : Rect S1x8192 := Rect.unit (s := S1x8192) ![0, 7168] S1x1024.size inb_S1x8192_S1x1024_0_7168
/-- Columns `0 … 1023` of a 256×8192 strip: where column chunk 0's products are kept. -/
abbrev stripRect0 : Rect S256x8192 := Rect.unit (s := S256x8192) ![0, 0] S256x1024.size inb_S256x8192_S256x1024_0_0
/-- Columns `1024 … 2047` of a 256×8192 strip: where column chunk 1's products are kept. -/
abbrev stripRect1 : Rect S256x8192 := Rect.unit (s := S256x8192) ![0, 1024] S256x1024.size inb_S256x8192_S256x1024_0_1024
/-- Columns `2048 … 3071` of a 256×8192 strip: where column chunk 2's products are kept. -/
abbrev stripRect2 : Rect S256x8192 := Rect.unit (s := S256x8192) ![0, 2048] S256x1024.size inb_S256x8192_S256x1024_0_2048
/-- Columns `3072 … 4095` of a 256×8192 strip: where column chunk 3's products are kept. -/
abbrev stripRect3 : Rect S256x8192 := Rect.unit (s := S256x8192) ![0, 3072] S256x1024.size inb_S256x8192_S256x1024_0_3072
/-- Columns `4096 … 5119` of a 256×8192 strip: where column chunk 4's products are kept. -/
abbrev stripRect4 : Rect S256x8192 := Rect.unit (s := S256x8192) ![0, 4096] S256x1024.size inb_S256x8192_S256x1024_0_4096
/-- Columns `5120 … 6143` of a 256×8192 strip: where column chunk 5's products are kept. -/
abbrev stripRect5 : Rect S256x8192 := Rect.unit (s := S256x8192) ![0, 5120] S256x1024.size inb_S256x8192_S256x1024_0_5120
/-- Columns `6144 … 7167` of a 256×8192 strip: where column chunk 6's products are kept. -/
abbrev stripRect6 : Rect S256x8192 := Rect.unit (s := S256x8192) ![0, 6144] S256x1024.size inb_S256x8192_S256x1024_0_6144
/-- Columns `7168 … 8191` of a 256×8192 strip: where column chunk 7's products are kept. -/
abbrev stripRect7 : Rect S256x8192 := Rect.unit (s := S256x8192) ![0, 7168] S256x1024.size inb_S256x8192_S256x1024_0_7168

/-! ## The values of one call, from the four inputs

`x0` is the block of rows, `x1` the full matrix, `x2` the rows' labels, `x3` all labels.  Each value is the body's own
payload at what the body loads: an input through one of the rectangles above, or a kept chunk product, which is the
payload that was stored in that chunk of the strip. -/

/-- The block of rows as the body uses it from the second chunk on. -/
def rowsI (x0 : Vec F S256x256 .bf16) : FVec F S256x256 .bf16 := k1_pay2 (View.ld x0 rowsRect)

/-- The rows' labels as words. -/
def labI (x2 : Vec F S256x1 .i32) : IVec S256x1 32 := k1_pay3 (View.ld x2 colRect)

/-- The index of the block's first row among all rows: `256 · i`. -/
def rowBase (i : grid1.Coords) : BitVec 32 := Scalar.muli (BitVec.ofNat 32 (i 0).val) 256#32

/-- Column chunk 3 of the full matrix as the body uses it. -/
def chunk3 (x1 : Vec F S8192x256 .bf16) : FVec F S1024x256 .bf16 := k1_pay19 (View.ld x1 chunkRect3)

/-! ### The products kept in the first strip: `C = en_i · en_jᵀ`, chunk by chunk -/

def prod0 (x0 : Vec F S256x256 .bf16) (x1 : Vec F S8192x256 .bf16) : Vec F S256x1024 .f32 := k1_pay7 (View.ld x0 rowsRect) (View.ld x1 chunkRect0)
def prod1 (x0 : Vec F S256x256 .bf16) (x1 : Vec F S8192x256 .bf16) : Vec F S256x1024 .f32 := k1_pay12 (k1_pay9 (View.ld x0 rowsRect) (View.ld x1 chunkRect1))
def prod2 (x0 : Vec F S256x256 .bf16) (x1 : Vec F S8192x256 .bf16) : Vec F S256x1024 .f32 := k1_pay17 (rowsI x0) (View.ld x1 chunkRect2)
def prod3 (x0 : Vec F S256x256 .bf16) (x1 : Vec F S8192x256 .bf16) : Vec F S256x1024 .f32 := k1_pay22 (rowsI x0) (chunk3 x1)
def prod4 (x0 : Vec F S256x256 .bf16) (x1 : Vec F S8192x256 .bf16) : Vec F S256x1024 .f32 := k1_pay27 (rowsI x0) (View.ld x1 chunkRect4)
def prod5 (x0 : Vec F S256x256 .bf16) (x1 : Vec F S8192x256 .bf16) : Vec F S256x1024 .f32 := k1_pay31 (rowsI x0) (View.ld x1 chunkRect5)
def prod6 (x0 : Vec F S256x256 .bf16) (x1 : Vec F S8192x256 .bf16) : Vec F S256x1024 .f32 := k1_pay36 (k1_pay33 (rowsI x0) (View.ld x1 chunkRect6))
def prod7 (x0 : Vec F S256x256 .bf16) (x1 : Vec F S8192x256 .bf16) : Vec F S256x1024 .f32 := k1_pay41 (rowsI x0) (View.ld x1 chunkRect7)

/-! ### Their exponentials, kept in the second strip -/

def expProd0 (x0 : Vec F S256x256 .bf16) (x1 : Vec F S8192x256 .bf16) : Vec F S256x1024 .f32 := k1_pay8 (View.ld x0 rowsRect) (View.ld x1 chunkRect0)
/-- Chunk 1's exponential before it is stored: the first sweep also adds it into the running sum. -/
def expProd1' (x0 : Vec F S256x256 .bf16) (x1 : Vec F S8192x256 .bf16) : FVec F S256x1024 .f32 := k1_pay10 (View.ld x0 rowsRect) (View.ld x1 chunkRect1)
def expProd1 (x0 : Vec F S256x256 .bf16) (x1 : Vec F S8192x256 .bf16) : Vec F S256x1024 .f32 := k1_pay13 (expProd1' x0 x1)
def expProd2 (x0 : Vec F S256x256 .bf16) (x1 : Vec F S8192x256 .bf16) : Vec F S256x1024 .f32 := k1_pay18 (rowsI x0) (View.ld x1 chunkRect2)
def expProd3 (x0 : Vec F S256x256 .bf16) (x1 : Vec F S8192x256 .bf16) : Vec F S256x1024 .f32 := k1_pay23 (rowsI x0) (chunk3 x1)
def expProd4 (x0 : Vec F S256x256 .bf16) (x1 : Vec F S8192x256 .bf16) : Vec F S256x1024 .f32 := k1_pay28 (rowsI x0) (View.ld x1 chunkRect4)
def expProd5 (x0 : Vec F S256x256 .bf16) (x1 : Vec F S8192x256 .bf16) : Vec F S256x1024 .f32 := k1_pay32 (rowsI x0) (View.ld x1 chunkRect5)
def expProd6 (x0 : Vec F S256x256 .bf16) (x1 : Vec F S8192x256 .bf16) : Vec F S256x1024 .f32 := k1_pay37 (k1_pay34 (rowsI x0) (View.ld x1 chunkRect6))
def expProd7 (x0 : Vec F S256x256 .bf16) (x1 : Vec F S8192x256 .bf16) : Vec F S256x1024 .f32 := k1_pay42 (rowsI x0) (View.ld x1 chunkRect7)

/-! ### The first sweep: per row, the sum of `exp C` over the columns of a different label -/

/-- after chunk 0; -/
def negsum0 (x0 : Vec F S256x256 .bf16) (x1 : Vec F S8192x256 .bf16) (x2 : Vec F S256x1 .i32) (x3 : Vec F S1x8192 .i32) : FVec F S256x1 .f32 :=
  k1_pay6 (View.ld x0 rowsRect) (View.ld x2 colRect) (View.ld x1 chunkRect0) (View.ld x3 chunkLabRect0)
/-- after chunks 0 … 2; -/
def negsum2 (x0 : Vec F S256x256 .bf16) (x1 : Vec F S8192x256 .bf16) (x2 : Vec F S256x1 .i32) (x3 : Vec F S1x8192 .i32) : FVec F S256x1 .f32 :=
  k1_pay16 (rowsI x0) (labI x2) (negsum0 x0 x1 x2 x3) (expProd1' x0 x1) (k1_pay11 (View.ld x2 colRect) (View.ld x3 chunkLabRect1))
    (View.ld x1 chunkRect2) (View.ld x3 chunkLabRect2)
/-- after chunks 0 … 4; -/
def negsum4 (x0 : Vec F S256x256 .bf16) (x1 : Vec F S8192x256 .bf16) (x2 : Vec F S256x1 .i32) (x3 : Vec F S1x8192 .i32) : FVec F S256x1 .f32 :=
  k1_pay26 (rowsI x0) (labI x2) (negsum2 x0 x1 x2 x3) (chunk3 x1) (View.ld x3 chunkLabRect3) (View.ld x1 chunkRect4) (View.ld x3 chunkLabRect4)
/-- after chunks 0 … 6; -/
def negsum6 (x0 : Vec F S256x256 .bf16) (x1 : Vec F S8192x256 .bf16) (x2 : Vec F S256x1 .i32) (x3 : Vec F S1x8192 .i32) : FVec F S256x1 .f32 :=
  k1_pay35 (rowsI x0) (labI x2) (negsum4 x0 x1 x2 x3) (View.ld x1 chunkRect5) (View.ld x3 chunkLabRect5) (View.ld x1 chunkRect6) (View.ld x3 chunkLabRect6)
/-- over all eight chunks. -/
def negsum (x0 : Vec F S256x256 .bf16) (x1 : Vec F S8192x256 .bf16) (x2 : Vec F S256x1 .i32) (x3 : Vec F S1x8192 .i32) : FVec F S256x1 .f32 :=
  k1_pay40 (rowsI x0) (labI x2) (negsum6 x0 x1 x2 x3) (View.ld x1 chunkRect7) (View.ld x3 chunkLabRect7)

/-! ### The second sweep: per row, the sum of the terms over the off-diagonal columns -/

/-- after chunk 0; -/
def rowsum0 (i : grid1.Coords) (x0 : Vec F S256x256 .bf16) (x1 : Vec F S8192x256 .bf16) (x2 : Vec F S256x1 .i32) (x3 : Vec F S1x8192 .i32) : FVec F S256x1 .f32 :=
  k1_pay45 (negsum x0 x1 x2 x3) (rowBase i) (k1_pay43 (F := F)) (prod0 x0 x1) (expProd0 x0 x1) (k1_pay44 (labI x2) (View.ld x3 chunkLabRect0))
/-- after chunks 0 … 2; -/
def rowsum2 (i : grid1.Coords) (x0 : Vec F S256x256 .bf16) (x1 : Vec F S8192x256 .bf16) (x2 : Vec F S256x1 .i32) (x3 : Vec F S1x8192 .i32) : FVec F S256x1 .f32 :=
  k1_pay50 (labI x2) (negsum x0 x1 x2 x3) (rowBase i) (rowsum0 i x0 x1 x2 x3) (expProd1 x0 x1) (k1_pay46 (rowBase i))
    (k1_pay47 (labI x2) (rowBase i) (View.ld x3 chunkLabRect1)) (k1_pay48 (labI x2) (rowBase i) (prod1 x0 x1) (View.ld x3 chunkLabRect1))
    (k1_pay49 (F := F)) (prod2 x0 x1) (expProd2 x0 x1) (View.ld x3 chunkLabRect2)
/-- after chunks 0 … 3; -/
def rowsum3 (i : grid1.Coords) (x0 : Vec F S256x256 .bf16) (x1 : Vec F S8192x256 .bf16) (x2 : Vec F S256x1 .i32) (x3 : Vec F S1x8192 .i32) : FVec F S256x1 .f32 :=
  k1_pay51 (labI x2) (negsum x0 x1 x2 x3) (rowBase i) (rowsum2 i x0 x1 x2 x3) (prod3 x0 x1) (expProd3 x0 x1) (View.ld x3 chunkLabRect3)
/-- after chunks 0 … 4; -/
def rowsum4 (i : grid1.Coords) (x0 : Vec F S256x256 .bf16) (x1 : Vec F S8192x256 .bf16) (x2 : Vec F S256x1 .i32) (x3 : Vec F S1x8192 .i32) : FVec F S256x1 .f32 :=
  k1_pay54 (negsum x0 x1 x2 x3) (rowsum3 i x0 x1 x2 x3) (prod4 x0 x1) (expProd4 x0 x1) (k1_pay52 (labI x2) (View.ld x3 chunkLabRect4))
    (k1_pay53 (rowBase i)) (iota .tc S256x1024 32 [1] iota_S256x1024_d1_w32)
/-- after chunks 0 … 6. -/
def rowsum6 (i : grid1.Coords) (x0 : Vec F S256x256 .bf16) (x1 : Vec F S8192x256 .bf16) (x2 : Vec F S256x1 .i32) (x3 : Vec F S1x8192 .i32) : FVec F S256x1 .f32 :=
  k1_pay59 (labI x2) (negsum x0 x1 x2 x3) (rowBase i) (rowsum4 i x0 x1 x2 x3) (k1_pay55 (rowBase i))
    (k1_pay57 (labI x2) (rowBase i) (expProd5 x0 x1) (View.ld x3 chunkLabRect5)) (k1_pay58 (labI x2) (rowBase i) (prod5 x0 x1) (View.ld x3 chunkLabRect5))
    (prod6 x0 x1) (expProd6 x0 x1) (View.ld x3 chunkLabRect6)

/-- The row sums over all eight chunks: what the body stores. -/
def rowsum (i : grid1.Coords) (x0 : Vec F S256x256 .bf16) (x1 : Vec F S8192x256 .bf16) (x2 : Vec F S256x1 .i32) (x3 : Vec F S1x8192 .i32) : FVec F S256x1 .f32 :=
  k1_pay1 (labI x2) (negsum x0 x1 x2 x3) (rowBase i) (rowsum6 i x0 x1 x2 x3) (prod7 x0 x1) (expProd7 x0 x1) (View.ld x3 chunkLabRect7)

/-! ## What one call leaves in its output buffer -/

/-- The output buffer after the call: its one store, of the row sums. -/
def out1_4 (i : grid1.Coords) (x0 : Vec F S256x256 .bf16) (x1 : Vec F S8192x256 .bf16) (x2 : Vec F S256x1 .i32) (x3 : Vec F S1x8192 .i32) : Vec F S256x1 .f32 :=
  View.canon [⟨colRect, rowsum i x0 x1 x2 x3⟩]

/-- One store through the whole column covers it. -/
theorem cover_col (p0 : Vec F S256x1 .f32) (y : S256x1.Idx) :
    ∃ pc ∈ ([⟨colRect, p0⟩] : List (View.Piece (Elt F) S256x1 .f32)), y ∈ pc.1.set :=
  View.cover_of_tiled [⟨colRect, p0⟩] S256x1.size (by rfl) y

end Cert.Kernel.Hand

end
-- ==== Proof.Region0Body.lean ====
/-
  The first kernel region: rows of `embedding · Wᵀ + b` scaled to unit length.

  The grid has 8 points; point `t` reads rows `1024·t … 1024·t + 1023` of the embedding, the whole weight matrix and
  the whole bias, and writes the same 1024 rows of two outputs: the normalised rows as f32 and the same rows narrowed
  to bf16.  This module states what one call of the kernel function leaves in its two output buffers as a function of
  the three input blocks, and proves the call's triple; it holds at every float instance.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one call leaves in its output buffers -/

/-- The whole 1024×1024 embedding block. -/
abbrev rectEmb : Rect S1024x1024 := Rect.unit (s := S1024x1024) ![0, 0] S1024x1024.size inb_S1024x1024_S1024x1024_0_0
/-- The whole 256×1024 weight matrix. -/
abbrev rectW : Rect S256x1024 := Rect.unit (s := S256x1024) ![0, 0] S256x1024.size inb_S256x1024_S256x1024_0_0
/-- The whole bias vector. -/
abbrev rectB : Rect S256 := Rect.unit (s := S256) ![0] S256.size inb_S256_S256_0
/-- The whole 1024×256 output block. -/
abbrev rectRows : Rect S1024x256 := Rect.unit (s := S1024x256) ![0, 0] S1024x256.size inb_S1024x256_S1024x256_0_0

/-- The f32 output block after the call: its one store, of the normalised rows computed from the three input blocks. -/
def unitRows (x0 : Vec F S1024x1024 .f32) (x1 : Vec F S256x1024 .f32) (x2 : Vec F S256 .f32) : Vec F S1024x256 .f32 :=
  View.canon [⟨rectRows, k0_pay1 (View.ld x0 rectEmb) (View.ld x1 rectW) (View.ld x2 rectB)⟩]

/-- The bf16 output block after the call: the same rows narrowed. -/
def unitRowsNarrow (x0 : Vec F S1024x1024 .f32) (x1 : Vec F S256x1024 .f32) (x2 : Vec F S256 .f32) : Vec F S1024x256 .bf16 :=
  View.canon [⟨rectRows, k0_pay2 (View.ld x0 rectEmb) (View.ld x1 rectW) (View.ld x2 rectB)⟩]

/-- One store through the whole block covers the block. -/
theorem cover_rows (p0 : Vec F S1024x256 .f32) (y : S1024x256.Idx) :
    ∃ pc ∈ ([⟨rectRows, p0⟩] : List (View.Piece (Elt F) S1024x256 .f32)), y ∈ pc.1.set :=
  View.cover_of_tiled [⟨rectRows, p0⟩] S1024x256.size (by rfl) y

theorem cover_rows_narrow (p0 : Vec F S1024x256 .bf16) (y : S1024x256.Idx) :
    ∃ pc ∈ ([⟨rectRows, p0⟩] : List (View.Piece (Elt F) S1024x256 .bf16)), y ∈ pc.1.set :=
  View.cover_of_tiled [⟨rectRows, p0⟩] S1024x256.size (by rfl) y

/-! ## The call's triple -/

set_option maxHeartbeats 1000000 in
/-- The kernel function on whole buffers — the three inputs at contents `x0 x1 x2`, the two outputs at anything — runs to
    its continuation with the inputs as they were and the outputs at `unitRows` and `unitRowsNarrow` of the inputs. -/
theorem transform_triple (c : Dev nD) (E : Set ℕ) (i : grid0.Coords)
    (arg1 : Memref sig .tc .vmem S1024x1024 .f32) (harg1 : arg1.IsWhole) (arg2 : Memref sig .tc .vmem S256x1024 .f32) (harg2 : arg2.IsWhole)
    (arg3 : Memref sig .tc .vmem S256 .f32) (harg3 : arg3.IsWhole) (arg4 : Memref sig .tc .vmem S1024x256 .f32) (harg4 : arg4.IsWhole)
    (arg5 : Memref sig .tc .vmem S1024x256 .bf16) (harg5 : arg5.IsWhole)
    (x0 : Vec F S1024x1024 .f32) (x1 : Vec F S256x1024 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (unitRows x0 x1 x2) ∗ owns (c : Thread nD τ) arg5 fullShare (unitRowsNarrow x0 x1 x2)) -∗ K ⟨⟩))
      ⊢ wp frame (wpE (defs₀ (F := F)) Variants.none c none) E (cc0__transform_kernel i arg1 harg1 arg2 harg2 arg3 harg3 arg4 harg4 arg5 harg5) K := by
  simp only [cc0__transform_kernel_eq_skeleton]; unfold cc0__transform_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_rows _)
  iexists _; isplitr
  swap; · iexact H4
  ipureintro
  exact View.read_writes_eq_canon _ _ _ (cover_rows_narrow _)

end Cert.KernelIdeal.Hand

end
-- ==== Proof.Region0.lean ====
/-
  The first kernel region as a pipeline: its proof data at the contents the region is entered with, and the body
  obligation at every grid point.

  At point `t` each of the three input windows holds its block of the array as entered — the 1024 embedding rows of the
  point, the whole weight matrix, the whole bias (the last two fetched at the first point only: their block never moves) —
  and the kernel function leaves in the two output windows the unit-length rows computed from those three blocks.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.Region0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding window's buffer holds the point's rows, for any proof data over `V`'s array that leaves them there. -/
theorem found0_0_of {c : Dev nD} (dat : Dat τ (Elt F) Unit ℕ (UR sig nD τ) ℕ cfg0 c) (hA : dat.A 0 = V c (Pipeline.arrRef spec0 0))
    (hafter : ∀ t, dat.after 0 t = inBlock0 V c 0 t) (t : Fin cfg0.N) (d) : dat.before 0 t d = inBlock0 V c 0 t :=
  (dat.before_in_eq_fetched 0 rfl (fun _ => rfl) (fun _ _ _ => rfl) (fun t => by rw [hafter]; unfold Dat.blockOf inBlock0; rw [hA]; try rfl) t d).trans
    (by unfold Dat.fetched Dat.blockOf inBlock0; rw [hA]; try rfl)

/-- The weight window's buffer holds the whole matrix at every point, fetched there or not. -/
theorem found0_1_of {c : Dev nD} (dat : Dat τ (Elt F) Unit ℕ (UR sig nD τ) ℕ cfg0 c) (hA : dat.A 1 = V c (Pipeline.arrRef spec0 1))
    (hafter : ∀ t, dat.after 1 t = inBlock0 V c 1 t) (t : Fin cfg0.N) (d) : dat.before 1 t d = inBlock0 V c 1 t :=
  (dat.before_in_eq_fetched 1 rfl (fun _ => rfl) (fun _ _ _ => rfl) (fun t => by rw [hafter]; unfold Dat.blockOf inBlock0; rw [hA]; try rfl) t d).trans
    (by unfold Dat.fetched Dat.blockOf inBlock0; rw [hA]; try rfl)

/-- The bias window's buffer holds the whole vector at every point, fetched there or not. -/
theorem found0_2_of {c : Dev nD} (dat : Dat τ (Elt F) Unit ℕ (UR sig nD τ) ℕ cfg0 c) (hA : dat.A 2 = V c (Pipeline.arrRef spec0 2))
    (hafter : ∀ t, dat.after 2 t = inBlock0 V c 2 t) (t : Fin cfg0.N) (d) : dat.before 2 t d = inBlock0 V c 2 t :=
  (dat.before_in_eq_fetched 2 rfl (fun _ => rfl) (fun _ _ _ => rfl) (fun t => by rw [hafter]; unfold Dat.blockOf inBlock0; rw [hA]; try rfl) t d).trans
    (by unfold Dat.fetched Dat.blockOf inBlock0; rw [hA]; try rfl)

/-! ## The proof data -/

/-- Pipeline 0 on core `c`: the arrays as entered; after the body at point `t` each input window at its block and the two
    output windows at the unit-length rows of those blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => inBlock0 V c 1 t
    | ⟨2, _⟩ => inBlock0 V c 2 t
    | ⟨3, _⟩ => unitRows (inBlock0 V c 0 t) (inBlock0 V c 1 t) (inBlock0 V c 2 t)
    | ⟨4, _⟩ => unitRowsNarrow (inBlock0 V c 0 t) (inBlock0 V c 1 t) (inBlock0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = inBlock0 V c 0 t := by dsimp only [dat0]
theorem dat0_after_1 (c : Dev nD) (t : Fin cfg0.N) : (dat0 V c).after 1 t = inBlock0 V c 1 t := by dsimp only [dat0]
theorem dat0_after_2 (c : Dev nD) (t : Fin cfg0.N) : (dat0 V c).after 2 t = inBlock0 V c 2 t := by dsimp only [dat0]
theorem dat0_after_3 (c : Dev nD) (t : Fin cfg0.N) :
    (dat0 V c).after 3 t = unitRows (inBlock0 V c 0 t) (inBlock0 V c 1 t) (inBlock0 V c 2 t) := by dsimp only [dat0]
theorem dat0_after_4 (c : Dev nD) (t : Fin cfg0.N) :
    (dat0 V c).after 4 t = unitRowsNarrow (inBlock0 V c 0 t) (inBlock0 V c 1 t) (inBlock0 V c 2 t) := by dsimp only [dat0]

theorem dat0_found_0 (c : Dev nD) (t : Fin cfg0.N) (d) : (dat0 V c).before 0 t d = inBlock0 V c 0 t :=
  found0_0_of V (dat0 V c) (dat0_A V c 0) (dat0_after_0 V c) t d
theorem dat0_found_1 (c : Dev nD) (t : Fin cfg0.N) (d) : (dat0 V c).before 1 t d = inBlock0 V c 1 t :=
  found0_1_of V (dat0 V c) (dat0_A V c 1) (dat0_after_1 V c) t d
theorem dat0_found_2 (c : Dev nD) (t : Fin cfg0.N) (d) : (dat0 V c).before 2 t d = inBlock0 V c 2 t :=
  found0_2_of V (dat0 V c) (dat0_A V c 2) (dat0_after_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the call's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_found_0, dat0_found_1, dat0_found_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (transform_triple c Set.univ _ _ _ _ _ _ _ _ _ _ _ (inBlock0 V c 0 t) (inBlock0 V c 1 t) (inBlock0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel region as a pipeline: its proof data at the contents the region is entered with, and the body
  obligation at every grid point, for ANY function the kernel function's triple names as the contents of its output
  buffer (the triple is a hypothesis here; the module that runs the body supplies it).

  The grid has 32 points; point `t` reads rows `256·t … 256·t + 255` of the unit-length rows (narrowed), ALL 8192 of those
  rows, the point's 256 labels as a column and all 8192 labels as a row, and writes 256 row sums.  The first two windows
  read one array: each holds half of it.  The kernel's two scratch buffers are part of the scoped rest the invariant
  carries; the body takes them at anything and gives them back at anything.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered: a parameter, instantiated by the run
variable (V : (c : Dev nD) → (b : Ref sig .tc) → Buf (Elt F) ((c : Thread nD τ).loc b))

/-- What one call leaves in its output buffer, from the grid point and the four input blocks. -/
abbrev RowFn (F : FTy → Type) [FloatOps F] : Type :=
  grid1.Coords → Vec F S256x256 .bf16 → Vec F S8192x256 .bf16 → Vec F S256x1 .i32 → Vec F S1x8192 .i32 → Vec F S256x1 .f32

/-- The kernel function's triple for `rowFn`: on whole buffers — the four inputs at contents `x0 … x3`, the output and the
    two scratch buffers at anything — the call runs to its continuation with the inputs as they were, the output at
    `rowFn` of the point and the inputs, the scratch buffers at anything. -/
def CallTriple (rowFn : RowFn F) : Prop :=
  ∀ (c : Dev nD) (E : Set ℕ) (i : grid1.Coords)
    (arg1 : Memref sig .tc .vmem S256x256 .bf16) (harg1 : arg1.IsWhole) (arg2 : Memref sig .tc .vmem S8192x256 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x8192 .f32) (harg6 : arg6.IsWhole)
    (arg7 : Memref sig .tc .vmem S256x8192 .f32) (harg7 : arg7.IsWhole)
    (x0 : Vec F S256x256 .bf16) (x1 : Vec F S8192x256 .bf16) (x2 : Vec F S256x1 .i32) (x3 : Vec F S1x8192 .i32) (K : PUnit → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (rowFn i x0 x1 x2 x3)
            ∗ (∃ d, owns (c : Thread nD τ) arg6 fullShare d) ∗ (∃ d, owns (c : Thread nD τ) arg7 fullShare d)) -∗ K ⟨⟩))
      ⊢ wp frame (wpE (defs₀ (F := F)) Variants.none c none) E
          (cc1__fused_interloss_kernel i arg1 harg1 arg2 harg2 arg3 harg3 arg4 harg4 arg5 harg5 arg6 harg6 arg7 harg7) K

variable (rowFn : RowFn F)

/-! ## The windows' blocks -/

/-- Window `w`'s block at point `t`, read off its array as the region finds it. -/
def inBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's 256 rows are in the first window's buffer, for any proof data over `V`'s array that leaves them there. -/
theorem found1_0_of {c : Dev nD} (dat : Dat τ (Elt F) Unit ℕ (UR sig nD τ) ℕ cfg1 c) (hA : dat.A 0 = V c (Pipeline.arrRef spec1 0))
    (hafter : ∀ t, dat.after 0 t = inBlock1 V c 0 t) (t : Fin cfg1.N) (d) : dat.before 0 t d = inBlock1 V c 0 t :=
  (dat.before_in_eq_fetched 0 rfl (fun _ => rfl) (fun _ _ _ => rfl) (fun t => by rw [hafter]; unfold Dat.blockOf inBlock1; rw [hA]; try rfl) t d).trans
    (by unfold Dat.fetched Dat.blockOf inBlock1; rw [hA]; try rfl)

/-- All 8192 rows are in the second window's buffer at every point, fetched there or not. -/
theorem found1_1_of {c : Dev nD} (dat : Dat τ (Elt F) Unit ℕ (UR sig nD τ) ℕ cfg1 c) (hA : dat.A 1 = V c (Pipeline.arrRef spec1 1))
    (hafter : ∀ t, dat.after 1 t = inBlock1 V c 1 t) (t : Fin cfg1.N) (d) : dat.before 1 t d = inBlock1 V c 1 t :=
  (dat.before_in_eq_fetched 1 rfl (fun _ => rfl) (fun _ _ _ => rfl) (fun t => by rw [hafter]; unfold Dat.blockOf inBlock1; rw [hA]; try rfl) t d).trans
    (by unfold Dat.fetched Dat.blockOf inBlock1; rw [hA]; try rfl)

/-- The point's 256 labels are in the third window's buffer. -/
theorem found1_2_of {c : Dev nD} (dat : Dat τ (Elt F) Unit ℕ (UR sig nD τ) ℕ cfg1 c) (hA : dat.A 2 = V c (Pipeline.arrRef spec1 2))
    (hafter : ∀ t, dat.after 2 t = inBlock1 V c 2 t) (t : Fin cfg1.N) (d) : dat.before 2 t d = inBlock1 V c 2 t :=
  (dat.before_in_eq_fetched 2 rfl (fun _ => rfl) (fun _ _ _ => rfl) (fun t => by rw [hafter]; unfold Dat.blockOf inBlock1; rw [hA]; try rfl) t d).trans
    (by unfold Dat.fetched Dat.blockOf inBlock1; rw [hA]; try rfl)

/-- All 8192 labels are in the fourth window's buffer at every point, fetched there or not. -/
theorem found1_3_of {c : Dev nD} (dat : Dat τ (Elt F) Unit ℕ (UR sig nD τ) ℕ cfg1 c) (hA : dat.A 3 = V c (Pipeline.arrRef spec1 3))
    (hafter : ∀ t, dat.after 3 t = inBlock1 V c 3 t) (t : Fin cfg1.N) (d) : dat.before 3 t d = inBlock1 V c 3 t :=
  (dat.before_in_eq_fetched 3 rfl (fun _ => rfl) (fun _ _ _ => rfl) (fun t => by rw [hafter]; unfold Dat.blockOf inBlock1; rw [hA]; try rfl) t d).trans
    (by unfold Dat.fetched Dat.blockOf inBlock1; rw [hA]; try rfl)

/-! ## The proof data -/

/-- Pipeline 1 on core `c`: the arrays as entered; after the body at point `t` each input window at its block and the
    output window at `rowFn` of the point and those blocks; the invariant is the scoped rest (the scratch buffers among it)
    and the generator register; nothing owed; the two windows on the one array hold its left and its right half, the
    others their arrays whole. -/
def dat1 (c : Dev nD) : Dat τ (Elt F) Unit ℕ (UR sig nD τ) ℕ cfg1 c where
  A w := V c (Pipeline.arrRef spec1 w)
  after w t := match w with
    | ⟨0, _⟩ => inBlock1 V c 0 t
    | ⟨1, _⟩ => inBlock1 V c 1 t
    | ⟨2, _⟩ => inBlock1 V c 2 t
    | ⟨3, _⟩ => inBlock1 V c 3 t
    | ⟨4, _⟩ => rowFn (grid1.coords t) (inBlock1 V c 0 t) (inBlock1 V c 1 t) (inBlock1 V c 2 t) (inBlock1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem dat1_A (c : Dev nD) (w : Fin cfg1.W) : (dat1 V rowFn c).A w = V c (Pipeline.arrRef spec1 w) := by
  dsimp only [dat1]

theorem dat1_after_0 (c : Dev nD) (t : Fin cfg1.N) : (dat1 V rowFn c).after 0 t = inBlock1 V c 0 t := by dsimp only [dat1]
theorem dat1_after_1 (c : Dev nD) (t : Fin cfg1.N) : (dat1 V rowFn c).after 1 t = inBlock1 V c 1 t := by dsimp only [dat1]
theorem dat1_after_2 (c : Dev nD) (t : Fin cfg1.N) : (dat1 V rowFn c).after 2 t = inBlock1 V c 2 t := by dsimp only [dat1]
theorem dat1_after_3 (c : Dev nD) (t : Fin cfg1.N) : (dat1 V rowFn c).after 3 t = inBlock1 V c 3 t := by dsimp only [dat1]
theorem dat1_after_4 (c : Dev nD) (t : Fin cfg1.N) :
    (dat1 V rowFn c).after 4 t = rowFn (grid1.coords t) (inBlock1 V c 0 t) (inBlock1 V c 1 t) (inBlock1 V c 2 t) (inBlock1 V c 3 t) := by
  dsimp only [dat1]

theorem dat1_found_0 (c : Dev nD) (t : Fin cfg1.N) (d) : (dat1 V rowFn c).before 0 t d = inBlock1 V c 0 t :=
  found1_0_of V (dat1 V rowFn c) (dat1_A V rowFn c 0) (dat1_after_0 V rowFn c) t d
theorem dat1_found_1 (c : Dev nD) (t : Fin cfg1.N) (d) : (dat1 V rowFn c).before 1 t d = inBlock1 V c 1 t :=
  found1_1_of V (dat1 V rowFn c) (dat1_A V rowFn c 1) (dat1_after_1 V rowFn c) t d
theorem dat1_found_2 (c : Dev nD) (t : Fin cfg1.N) (d) : (dat1 V rowFn c).before 2 t d = inBlock1 V c 2 t :=
  found1_2_of V (dat1 V rowFn c) (dat1_A V rowFn c 2) (dat1_after_2 V rowFn c) t d
theorem dat1_found_3 (c : Dev nD) (t : Fin cfg1.N) (d) : (dat1 V rowFn c).before 3 t d = inBlock1 V c 3 t :=
  found1_3_of V (dat1 V rowFn c) (dat1_A V rowFn c 3) (dat1_after_3 V rowFn c) t d

/-! ## The invariant: the scratch buffers among the scoped rest -/

/-- The scoped buffers of the core that are neither a staging buffer of this pipeline nor one of its two scratch
    buffers, each whole at some contents: the first pipeline's eight staging buffers. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant, with the two scratch buffers as whole memrefs at some contents. -/
theorem invariant1_eq (c : Dev nD) :
    (Pipeline.ΦA spec1 c : sProp 𝕄)
      = iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) (Memref.whole cc1_scratch0) fullShare d)
    ∗ (∃ d, owns (c : Thread nD τ) (Memref.whole cc1_scratch1) fullShare d)) ∗ (∃ r, prngReg c r)) := by
  unfold Pipeline.ΦA; rw [scopedRest1_eq]; simp only [owns_whole]; try rfl

/-! ## The body obligation -/

/-- What the body is called with at point `t`, the windows one by one, -/
def bodyPre1 (c : Dev nD) (t : Fin cfg1.N) : sProp 𝕄 :=
  iprop((dat1 V rowFn c).Φ t.castSucc ∗ (dat1 V rowFn c).owesAt () t.castSucc
    ∗ (∃ d, owns (c : Thread nD τ) (st1_0 t) fullShare ((dat1 V rowFn c).before 0 t d))
    ∗ (∃ d, owns (c : Thread nD τ) (st1_1 t) fullShare ((dat1 V rowFn c).before 1 t d))
    ∗ (∃ d, owns (c : Thread nD τ) (st1_2 t) fullShare ((dat1 V rowFn c).before 2 t d))
    ∗ (∃ d, owns (c : Thread nD τ) (st1_3 t) fullShare ((dat1 V rowFn c).before 3 t d))
    ∗ (∃ d, owns (c : Thread nD τ) (st1_4 t) fullShare ((dat1 V rowFn c).before 4 t d)))

/-- and what it returns. -/
def bodyPost1 (c : Dev nD) (t : Fin cfg1.N) : sProp 𝕄 :=
  iprop((dat1 V rowFn c).Φ t.succ ∗ (dat1 V rowFn c).owesAt () t.succ
    ∗ owns (c : Thread nD τ) (st1_0 t) fullShare ((dat1 V rowFn c).after 0 t)
    ∗ owns (c : Thread nD τ) (st1_1 t) fullShare ((dat1 V rowFn c).after 1 t)
    ∗ owns (c : Thread nD τ) (st1_2 t) fullShare ((dat1 V rowFn c).after 2 t)
    ∗ owns (c : Thread nD τ) (st1_3 t) fullShare ((dat1 V rowFn c).after 3 t)
    ∗ owns (c : Thread nD τ) (st1_4 t) fullShare ((dat1 V rowFn c).after 4 t))

/-- The body at any point: the inputs' buffers hold their blocks and the invariant lends the two scratch buffers, so the
    call's triple applies; the scratch buffers go back into the invariant at whatever they hold. -/
theorem sound_body1 (htriple : CallTriple rowFn) (c : Dev nD) (t : Fin cfg1.N) :
    bodyPre1 V rowFn c t ⊢ wp frame (wpE (defs₀ (F := F)) Variants.none c none) Set.univ (bodyAt1 t) (fun _ => bodyPost1 V rowFn c t) := by
  unfold bodyPre1 bodyPost1 bodyAt1
  simp only [dat1_found_0, dat1_found_1, dat1_found_2, dat1_found_3]
  rw [show (dat1 V rowFn c).Φ t.succ = Pipeline.ΦA spec1 c from rfl,
    show (dat1 V rowFn c).Φ t.castSucc = Pipeline.ΦA spec1 c from rfl,
    show (dat1 V rowFn c).owesAt () t.succ = (dat1 V rowFn c).owesAt () t.castSucc from rfl,
    dat1_after_0, dat1_after_1, dat1_after_2, dat1_after_3, dat1_after_4, invariant1_eq]
  iintro ⟨⟨⟨Hs0, Hs1, Hs2, Hs3, Hs4, Hs5, Hs6, Hs7, Hx0, Hx1⟩, Hg⟩, Ho, ⟨%d0, H0⟩, ⟨%d1, H1⟩, ⟨%d2, H2⟩, ⟨%d3, H3⟩, ⟨%d4, H4⟩⟩
  iapply (htriple c Set.univ _ _ _ _ _ _ _ _ _ _ _ _ _ _ _ (inBlock1 V c 0 t) (inBlock1 V c 1 t) (inBlock1 V c 2 t) (inBlock1 V c 3 t) _)
  isplitl [H0]; · iexact H0
  isplitl [H1]; · iexact H1
  isplitl [H2]; · iexact H2
  isplitl [H3]; · iexact H3
  isplitl [H4]; · iexists _; iexact H4
  isplitl [Hx0]; · iexact Hx0
  isplitl [Hx1]; · iexact Hx1
  iintro ⟨H0, H1, H2, H3, H4, Hx0, Hx1⟩
  isplitl [Hs0 Hs1 Hs2 Hs3 Hs4 Hs5 Hs6 Hs7 Hx0 Hx1 Hg]
  · isplitr [Hg]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hx0]; · iexact Hx0
      iexact Hx1
    iexact Hg
  isplitl [Ho]; · iexact Ho
  isplitl [H0]; · iexact H0
  isplitl [H1]; · iexact H1
  isplitl [H2]; · iexact H2
  isplitl [H3]; · iexact H3
  iexact H4

/-- The library's body obligation, at every point. -/
theorem body_obligation1 (htriple : CallTriple rowFn) (c : Dev nD) :
    BodyObligation (dat1 (F := F) V rowFn c) (defs₀ (F := F)) Variants.none () Set.univ := fun t => by
  rw [bigSep_W1, bigSep_W1]
  exact sound_body1 V rowFn htriple c t

end Cert.KernelIdeal.Hand

end
-- ==== Proof.Region1Arrays.lean ====
/-
  The second region's arrays against the core's unscoped buffers.

  Four distinct buffers stand behind its five windows: the narrowed unit-length rows (read by the first TWO windows),
  the label column, the label row, and the row sums it writes.  Entering the region, the buffer behind the first two
  windows, held whole, is split into its left and right halves, one per window; leaving it, the two halves — both still at
  the entry contents, the windows only read — are joined again.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (rowFn : RowFn F)

/-- The distinct buffers behind the five windows. -/
theorem arrays1_refs : Finset.univ.image (Pipeline.arrRef spec1) = ([main_v0_1, main_v1, main_v2, main_v3] : List (Ref sig .tc)).toFinset := by decide

/-- Those buffers, each whole at the full share, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_1) ↦{fullShare} W main_v0_1) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  rw [BI.bigSep_eq_bigSepL_of_eq _ arrays1_refs (by decide)]
  rfl

/-- The pipeline's arrays, window by window: the first two windows hold the two halves of one buffer. -/
theorem arrays1_eq (c : Dev nD) (G : (w : Fin cfg1.W) → Buf (Elt F) ((cfg1.win w).arr.view.loc (c : Thread nD τ))) :
    ((dat1 V rowFn c).arrays G : sProp 𝕄)
      = iprop((((c : Thread nD τ).loc main_v0_1) ↦{fullShare.left} G 0) ∗ (((c : Thread nD τ).loc main_v0_1) ↦{fullShare.right} G 1)
          ∗ (((c : Thread nD τ).loc main_v1) ↦{fullShare} G 2) ∗ (((c : Thread nD τ).loc main_v2) ↦{fullShare} G 3)
          ∗ (((c : Thread nD τ).loc main_v3) ↦{fullShare} G 4)) := by
  unfold Dat.arrays
  rw [bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  have h4 : (cfg1.win 4).arr.view.set = Finset.univ := (arr_whole1 4).set_eq_univ
  -- the first two windows are on one buffer: one rewrite serves both
  rw [h0]
  try rw [h1]
  rw [h2, h3, h4]
  rfl

/-- ENTRY: the buffers behind the arrays, whole at `W`, make the pipeline's arrays at any contents that are `W`'s. -/
theorem enter1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V rowFn c).arrays G := by
  rw [arrBufs1_eq, arrays1_eq, hG 0, hG 1, hG 2, hG 3, hG 4]
  iintro ⟨Ha, Hb, Hc, Hd⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  isplitl [Hc]; · iexact Hc
  iexact Hd

/-- EXIT: the pipeline's arrays at contents `G` and the unscoped rest at `W` are the core's unscoped buffers at any
    valuation `W'` that has the arrays at `G` and agrees with `W` off them. -/
theorem leave1 (c : Dev nD) (W W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = W b) :
    iprop((dat1 V rowFn c).arrays G ∗ Pipeline.unscopedRest (Ix := Unit) (Name := ℕ) (U := UR sig nD τ) (Lvl := ℕ) spec1 c W)
      ⊢ (unscopedBufs c W' : sProp 𝕄) := by
  rw [Pipeline.unscopedBufs_split₀ cfgs 1 winFacts₀1.arr_unscoped c W']
  show iprop((dat1 V rowFn c).arrays G ∗ Pipeline.unscopedRest (Ix := Unit) (Name := ℕ) (U := UR sig nD τ) (Lvl := ℕ) spec1 c W)
    ⊢ iprop((Pipeline.arrBufs (Ix := Unit) (Name := ℕ) (U := UR sig nD τ) (Lvl := ℕ) spec1 c W' : sProp 𝕄)
      ∗ Pipeline.unscopedRest (Ix := Unit) (Name := ℕ) (U := UR sig nD τ) (Lvl := ℕ) spec1 c W')
  rw [arrBufs1_eq, arrays1_eq, hG 0, hG 1, hG 2, hG 3, hG 4]
  refine sep_mono ?_ (Entails.of_eq ?_)
  · iintro ⟨Hl, Hr, Hb, Hc, Hd⟩
    isplitl [Hl Hr]
    · iapply (pointsTo_share (PosShare.mem_left_op_right fullShare)).2
      isplitl [Hl]; · iexact Hl
      iexact Hr
    isplitl [Hb]; · iexact Hb
    isplitl [Hc]; · iexact Hc
    iexact Hd
  · unfold Pipeline.unscopedRest
    exact bigSep_congr fun b hb => by rw [hrest b (Finset.mem_sdiff.mp hb).2]

end Cert.KernelIdeal.Hand

end
-- ==== Proof.Run.lean ====
/-
  The whole program as a run of six segments: the first kernel region, two reshapes of the labels, the second kernel
  region, and three stretches of host operations (the mean of the row sums, the prototype losses, the final sum).

  The contents of every unscoped buffer are followed from the launch memory through each segment: a host stretch
  applies its operations; the first region leaves its two output arrays at what its eight write-backs make of them; the
  second leaves its one output array at what its thirty-two write-backs make of it.  Every execution ends with every
  unscoped buffer at the last of these valuations — from which both the frame (no segment writes an argument) and the
  result's value are read.  The second region's triple is a hypothesis; everything holds at every float instance.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.Gen.KernelIdeal.Regions
import proofs.«113247_j19061064860121_2_alg».proof.Proof.Region0
import proofs.«113247_j19061064860121_2_alg».proof.Proof.Region1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (rowFn : RowFn F)

/-! ## The buffers' contents at each segment boundary -/

/-- Core `c`'s buffers at launch: the first region's entry. -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arrays (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the two reshapes of the labels: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b

/-- After the second region: the row sums at what the pipeline leaves, every other buffer as entered (its four input
    arrays among them: it only reads them). -/
def W3 (c : Dev nD) : Valuation τ sig (Elt F) :=
  Function.update (W2 m c) (Proc.devRef .tc main_v3) ((dat1 (E2 m) rowFn c).arrAt 4 cfg1.N)
abbrev E3 : (c : Dev nD) → (b : Ref sig .tc) → Buf (Elt F) ((c : Thread nD τ).loc b) := fun c b => W3 m rowFn c b

theorem W3_rows (c : Dev nD) : W3 m rowFn c (Proc.devRef .tc main_v3) = (dat1 (E2 m) rowFn c).arrAt 4 cfg1.N := by
  unfold W3; exact Function.update_self ..
theorem W3_of_ne (c : Dev nD) (b : Ref sig .tc) (hb : b ≠ main_v3) : W3 m rowFn c (Proc.devRef .tc b) = W2 m c (Proc.devRef .tc b) := by
  unfold W3; exact Function.update_of_ne (StableHlo.devRef_ne_of_ne hb) ..

theorem exit1_arrays (c : Dev nD) (w : Fin cfg1.W) : (dat1 (E2 m) rowFn c).arrAt w cfg1.N = E3 m rowFn c (Pipeline.arrRef spec1 w) :=
  match w with
  | ⟨0, _⟩ => ((dat1 (E2 m) rowFn c).arrAt_in 0 rfl _).trans ((dat1_A (E2 m) rowFn c 0).trans (W3_of_ne m rowFn c main_v0_1 (by decide)).symm)
  | ⟨1, _⟩ => ((dat1 (E2 m) rowFn c).arrAt_in 1 rfl _).trans ((dat1_A (E2 m) rowFn c 1).trans (W3_of_ne m rowFn c main_v0_1 (by decide)).symm)
  | ⟨2, _⟩ => ((dat1 (E2 m) rowFn c).arrAt_in 2 rfl _).trans ((dat1_A (E2 m) rowFn c 2).trans (W3_of_ne m rowFn c main_v1 (by decide)).symm)
  | ⟨3, _⟩ => ((dat1 (E2 m) rowFn c).arrAt_in 3 rfl _).trans ((dat1_A (E2 m) rowFn c 3).trans (W3_of_ne m rowFn c main_v2 (by decide)).symm)
  | ⟨4, _⟩ => (W3_rows m rowFn c).symm
theorem exit1_rest (c : Dev nD) : ∀ b, b ∉ Finset.univ.image (Pipeline.arrRef spec1) → E3 m rowFn c b = E2 m c b :=
  fun b hb => W3_of_ne m rowFn c b fun e => hb (e ▸ Finset.mem_image.mpr ⟨4, Finset.mem_univ _, rfl⟩)

/-- After the mean of the row sums and the first part of the prototype losses, -/
abbrev W4 : Dev nD → Valuation τ sig (Elt F) := fun c => StableHlo.after hostOps2 (W3 m rowFn c)
/-- after the masked exponentials, -/
abbrev W5 : Dev nD → Valuation τ sig (Elt F) := fun c => StableHlo.after hostOps2_1 (W4 m rowFn c)
/-- and at the end. -/
abbrev W6 : Dev nD → Valuation τ sig (Elt F) := fun c => StableHlo.after hostOps2_2 (W5 m rowFn c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) rowFn c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues. -/
abbrev Tₙ (c : Dev nD) : sProp 𝕄 := iprop(StableHlo.held (c : Thread nD τ) (Pipeline.ucRefs τ sig) (W6 m rowFn c) ∗ ∃ r, prngReg c r)

/-! ## The regions as segments -/

set_option backward.isDefEq.respectTransparency.types false in
/-- The first region: entered from every unscoped buffer at `W0`, left at `W1`. -/
def reg0 : Pipeline.RegionSeg (pcfgs (F := F)) adm (pdats m rowFn) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m rowFn) launch0.win launch0.arr_whole c
      ((pdats m rowFn 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m rowFn 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m rowFn 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m rowFn) ((pdats m rowFn 0 c).share_full fun _ => rfl)
      (E0 m c) (E1 m c) ((pdats m rowFn 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`.  Two of its windows read one array:
    the buffer is split in halves at the entry and joined at the exit. -/
def reg1 (htriple : CallTriple rowFn) : Pipeline.RegionSeg (pcfgs (F := F)) adm (pdats m rowFn) () defs₀ 𝒱₀ L lv 1 where
  win := winFacts₀1
  block_pos := block_pos1
  stage_whole := stage_whole1
  K := PEmpty
  osem k := k.elim
  ho := Pipeline.OwnSemFacts.none _
  hbody c := (body_obligation1 (E2 m) rowFn htriple c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m rowFn c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m rowFn 1 c).arrays ((pdats m rowFn 1 c).arrAt · 0)
            ∗ Pipeline.unscopedRest (Ix := Unit) (Name := ℕ) (U := UR sig nD τ) (Lvl := ℕ) spec1 c (E2 m c)) := by
      rw [Pipeline.unscopedBufs_split₀ cfgs 1 winFacts₀1.arr_unscoped c (E2 m c)]
      exact sep_mono (enter1 (E2 m) rowFn c (E2 m c) _ (fun w => dat1_A (E2 m) rowFn c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m rowFn 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m rowFn 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 (E2 m) rowFn c (E2 m c) (E3 m rowFn c) ((pdats m rowFn 1 c).arrAt · cfg1.N)
      (exit1_arrays m rowFn c) (exit1_rest m rowFn c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The six segments in order. -/
abbrev segs (htriple : CallTriple rowFn) : List (Pipeline.Seg (pcfgs (F := F)) adm (pdats m rowFn) () defs₀ 𝒱₀ L lv) :=
  [ .region (reg0 m rowFn),
    .host (hseg hostOps1 hostOps1_sub hostOps1_fresh (W1 m)),
    .region (reg1 m rowFn htriple),
    .host (hseg hostOps2 hostOps2_sub hostOps2_fresh (W3 m rowFn)),
    .host (hseg hostOps2_1 hostOps2_1_sub hostOps2_1_fresh (W4 m rowFn)),
    .host (hseg hostOps2_2 hostOps2_2_sub hostOps2_2_fresh (W5 m rowFn)) ]

/-- The program is the run of the segments. -/
theorem main_run (htriple : CallTriple rowFn) (c : Dev nD) : main (F := F) c = Pipeline.Seg.run (segs m rowFn htriple) :=
  (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final state has every unscoped buffer of every core at the last valuation. -/
theorem run_all (htriple : CallTriple rowFn) :
    θ_run defs (onTc (τ := τ) (main (F := F))) ⟨m, fun _ => 0, ρ⟩ (fun r => ∀ c : Dev nD,
      ∀ b ∈ Pipeline.ucRefs τ sig, r.2.mem (((c : Thread nD τ)).1, b) = W6 m rowFn c b) :=
  Pipeline.θ_run_regions_kit (pcfgs (F := F)) adm (pdats m rowFn) () cellOf_inj emb₁ defs₀ 𝒱₀ L lv m ρ main (segs m rowFn htriple)
    (fun c Q => by rw [main_run m rowFn htriple c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m rowFn)
    (hch := ⟨fun _ => .rfl, fun _ => .rfl, fun _ => .rfl, fun _ => .rfl, fun _ => .rfl, fun _ => .rfl, fun c =>
      show iprop(StableHlo.held (c : Thread nD τ) (Pipeline.ucRefs τ sig) (W6 m rowFn c) ∗ R c)
        ⊢ iprop(Tₙ m rowFn c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m rowFn c b)
    (hfin := fun c s' => by
      iintro ⟨⟨Hh, -⟩, HSI⟩
      unfold StableHlo.held
      imodintro
      iapply (pointsTo_read_all (Pipeline.ucRefs τ sig) (fun b => (((c : Thread nD τ)).1, b)) (W6 m rowFn c) s')
      isplitl [Hh] <;> iassumption)
    (hQ := fun s h c => h c)

end Cert.KernelIdeal.Hand

end
-- ==== Proof.RunFrame.lean ====
/-
  No segment writes an argument: the frame.

  Reading an argument's buffer off the last valuation walks back through the six segments — the three closing host
  stretches and the two reshapes write other buffers; the second region changes only its row sums; the first region
  changes only its two outputs (it reads three of the arguments through input windows, which are never written back) —
  to the launch memory.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (rowFn : RowFn F)

/-- A buffer that neither a host stretch nor the second region writes holds at the end what the first region left. -/
theorem W6_eq_W1 (c : Dev nD) (r : Ref sig .tc) (h22 : r ∉ hostOps2_2_W) (h21 : r ∉ hostOps2_1_W) (h2 : r ∉ hostOps2_W)
    (h3 : r ≠ main_v3) (h1 : r ∉ hostOps1_W) : W6 m rowFn c r = W1 m c r :=
  (StableHlo.after_of_writes_sub hostOps2_2 _ hostOps2_2_writes h22).trans <|
    (StableHlo.after_of_writes_sub hostOps2_1 _ hostOps2_1_writes h21).trans <|
    (StableHlo.after_of_writes_sub hostOps2 _ hostOps2_writes h2).trans <|
    (W3_of_ne m rowFn c r h3).trans <|
    (StableHlo.after_of_writes_sub hostOps1 _ hostOps1_writes h1)

/-- An input array of the first region is left as entered. -/
theorem W1_input (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (dat0_A (E0 m) c w))

theorem W6_main_arg0 (c : Dev nD) : W6 m rowFn c main_arg0 = m ((c : Thread nD τ).loc main_arg0) :=
  (W6_eq_W1 m rowFn c main_arg0 (by decide) (by decide) (by decide) (by decide) (by decide)).trans (W1_input m c 0 rfl)
theorem W6_main_arg1 (c : Dev nD) : W6 m rowFn c main_arg1 = m ((c : Thread nD τ).loc main_arg1) :=
  (W6_eq_W1 m rowFn c main_arg1 (by decide) (by decide) (by decide) (by decide) (by decide)).trans (W1_of_ne m c main_arg1 (by decide))
theorem W6_main_arg2 (c : Dev nD) : W6 m rowFn c main_arg2 = m ((c : Thread nD τ).loc main_arg2) :=
  (W6_eq_W1 m rowFn c main_arg2 (by decide) (by decide) (by decide) (by decide) (by decide)).trans (W1_input m c 1 rfl)
theorem W6_main_arg3 (c : Dev nD) : W6 m rowFn c main_arg3 = m ((c : Thread nD τ).loc main_arg3) :=
  (W6_eq_W1 m rowFn c main_arg3 (by decide) (by decide) (by decide) (by decide) (by decide)).trans (W1_input m c 2 rfl)
theorem W6_main_arg4 (c : Dev nD) : W6 m rowFn c main_arg4 = m ((c : Thread nD τ).loc main_arg4) :=
  (W6_eq_W1 m rowFn c main_arg4 (by decide) (by decide) (by decide) (by decide) (by decide)).trans (W1_of_ne m c main_arg4 (by decide))

/-- The final state's reading of the five arguments and of any one further unscoped buffer `res`: the arguments as
    launched, `res` at the last valuation. -/
theorem run_with (htriple : CallTriple rowFn) (res : Ref sig .tc) (hres : ¬ (Proc.devRef .tc res : DevRef τ sig).isScoped) :
    θ_run defs (onTc (τ := τ) (main (F := F))) ⟨m, fun _ => 0, ρ⟩ (fun r => ∀ c : Dev nD,
      r.2.mem ((c.tc : Thread nD τ).loc res) = W6 m rowFn c res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc res hres),
     (h c _ (mem_uc main_arg0 (by decide))).trans (W6_main_arg0 m rowFn c),
     (h c _ (mem_uc main_arg1 (by decide))).trans (W6_main_arg1 m rowFn c),
     (h c _ (mem_uc main_arg2 (by decide))).trans (W6_main_arg2 m rowFn c),
     (h c _ (mem_uc main_arg3 (by decide))).trans (W6_main_arg3 m rowFn c),
     (h c _ (mem_uc main_arg4 (by decide))).trans (W6_main_arg4 m rowFn c)⟩) (run_all m ρ rowFn htriple)

/-- THE FRAME: every execution terminates, nothing faulting, with the five argument arrays as launched. -/
theorem frame (htriple : CallTriple rowFn) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_with m ρ rowFn htriple main_v83 (by decide))

end Cert.KernelIdeal.Hand

end
-- ==== Proof.Body1Defs.lean ====
/-
  The second kernel region, one call: the values it computes, named.

  A call reads its block of 256 rows `en_i` (bf16), the full 8192×256 matrix `en` (bf16), the rows' labels (256×1) and
  all labels (1×8192).  In a first sweep over the eight column chunks of 1024 it forms `C = en_i · en_jᵀ` and `exp C`,
  keeps both in two 256×8192 strips, and accumulates, per row, the sum of `exp C` over the columns of a different
  label.  In a second sweep it reads the kept chunks back and accumulates, per row, the sum over the off-diagonal
  columns of `-pos + log (negsum + where (same, exp C, 1))`.  The 256 row sums are the call's one output.

  This module names every value of that computation as a function of the four inputs, each the body's own payload at
  what the body loads: an input through a literal rectangle, or a kept chunk product, which is the payload that was
  stored in that chunk of the strip.  It holds at every float instance.
-/
import proofs.«113247_j19061064860121_2_alg».proof.Proof.Gen.KernelIdeal.Skeleton
import Idealize.ShloMosaic.Lib.Pipeline.FrameBody

-- membership in a rectangle of the kernel's extents recurses once per coordinate of the long axes
set_option maxRecDepth 16384

noncomputable section

namespace Cert.KernelIdeal.Hand

open Cert.KernelIdeal Cert.KernelIdeal.Gen
open Idealize.ShloMosaic

variable {F : FTy → Type} [FloatOps F]

/-! ## The rectangles the body reads and writes through -/

/-- The whole 256×256 block of rows this call works on. -/
abbrev rowsRect : Rect S256x256 := Rect.unit (s := S256x256) ![0, 0] S256x256.size inb_S256x256_S256x256_0_0
/-- The whole 256×1 column: the rows' labels on input, the rows' sums on output. -/
abbrev colRect : Rect S256x1 := Rect.unit (s := S256x1) ![0, 0] S256x1.size inb_S256x1_S256x1_0_0
/-- Rows `0 … 1023` of the full 8192×256 matrix: column chunk 0. -/
abbrev chunkRect0 : Rect S8192x256 := Rect.unit (s := S8192x256) ![0, 0] S1024x256.size inb_S8192x256_S1024x256_0_0
/-- Rows `1024 … 2047` of the full 8192×256 matrix: column chunk 1. -/
abbrev chunkRect1 : Rect S8192x256 := Rect.unit (s := S8192x256) ![1024, 0] S1024x256.size inb_S8192x256_S1024x256_1024_0
/-- Rows `2048 … 3071` of the full 8192×256 matrix: column chunk 2. -/
abbrev chunkRect2 : Rect S8192x256 := Rect.unit (s := S8192x256) ![2048, 0] S1024x256.size inb_S8192x256_S1024x256_2048_0
/-- Rows `3072 … 4095` of the full 8192×256 matrix: column chunk 3. -/
abbrev chunkRect3 : Rect S8192x256 := Rect.unit (s := S8192x256) ![3072, 0] S1024x256.size inb_S8192x256_S1024x256_3072_0
/-- Rows `4096 … 5119` of the full 8192×256 matrix: column chunk 4. -/
abbrev chunkRect4 : Rect S8192x256 := Rect.unit (s := S8192x256) ![4096, 0] S1024x256.size inb_S8192x256_S1024x256_4096_0
/-- Rows `5120 … 6143` of the full 8192×256 matrix: column chunk 5. -/
abbrev chunkRect5 : Rect S8192x256 := Rect.unit (s := S8192x256) ![5120, 0] S1024x256.size inb_S8192x256_S1024x256_5120_0
/-- Rows `6144 … 7167` of the full 8192×256 matrix: column chunk 6. -/
abbrev chunkRect6 : Rect S8192x256 := Rect.unit (s := S8192x256) ![6144, 0] S1024x256.size inb_S8192x256_S1024x256_6144_0
/-- Rows `7168 … 8191` of the full 8192×256 matrix: column chunk 7. -/
abbrev chunkRect7 : Rect S8192x256 := Rect.unit (s := S8192x256) ![7168, 0] S1024x256.size inb_S8192x256_S1024x256_7168_0
/-- Entries `0 … 1023` of the 1×8192 label row: the labels of column chunk 0. -/
abbrev chunkLabRect0 : Rect S1x8192 := Rect.unit (s := S1x8192) ![0, 0] S1x1024.size inb_S1x8192_S1x1024_0_0
/-- Entries `1024 … 2047` of the 1×8192 label row: the labels of column chunk 1. -/
abbrev chunkLabRect1 : Rect S1x8192 := Rect.unit (s := S1x8192) ![0, 1024] S1x1024.size inb_S1x8192_S1x1024_0_1024
/-- Entries `2048 … 3071` of the 1×8192 label row: the labels of column chunk 2. -/
abbrev chunkLabRect2 : Rect S1x8192 := Rect.unit (s := S1x8192) ![0, 2048] S1x1024.size inb_S1x8192_S1x1024_0_2048
/-- Entries `3072 … 4095` of the 1×8192 label row: the labels of column chunk 3. -/
abbrev chunkLabRect3 : Rect S1x8192 := Rect.unit (s := S1x8192) ![0, 3072] S1x1024.size inb_S1x8192_S1x1024_0_3072
/-- Entries `4096 … 5119` of the 1×8192 label row: the labels of column chunk 4. -/
abbrev chunkLabRect4 : Rect S1x8192 := Rect.unit (s := S1x8192) ![0, 4096] S1x1024.size inb_S1x8192_S1x1024_0_4096
/-- Entries `5120 … 6143` of the 1×8192 label row: the labels of column chunk 5. -/
abbrev chunkLabRect5 : Rect S1x8192 := Rect.unit (s := S1x8192) ![0, 5120] S1x1024.size inb_S1x8192_S1x1024_0_5120
/-- Entries `6144 … 7167` of the 1×8192 label row: the labels of column chunk 6. -/
abbrev chunkLabRect6 : Rect S1x8192 := Rect.unit (s := S1x8192) ![0, 6144] S1x1024.size inb_S1x8192_S1x1024_0_6144
/-- Entries `7168 … 8191` of the 1×8192 label row: the labels of column chunk 7. -/
abbrev chunkLabRect7 : Rect S1x8192 := Rect.unit (s := S1x8192) ![0, 7168] S1x1024.size inb_S1x8192_S1x1024_0_7168
/-- Columns `0 … 1023` of a 256×8192 strip: where column chunk 0's products are kept. -/
abbrev stripRect0 : Rect S256x8192 := Rect.unit (s := S256x8192) ![0, 0] S256x1024.size inb_S256x8192_S256x1024_0_0
/-- Columns `1024 … 2047` of a 256×8192 strip: where column chunk 1's products are kept. -/
abbrev stripRect1 : Rect S256x8192 := Rect.unit (s := S256x8192) ![0, 1024] S256x1024.size inb_S256x8192_S256x1024_0_1024
/-- Columns `2048 … 3071` of a 256×8192 strip: where column chunk 2's products are kept. -/
abbrev stripRect2 : Rect S256x8192 := Rect.unit (s := S256x8192) ![0, 2048] S256x1024.size inb_S256x8192_S256x1024_0_2048
/-- Columns `3072 … 4095` of a 256×8192 strip: where column chunk 3's products are kept. -/
abbrev stripRect3 : Rect S256x8192 := Rect.unit (s := S256x8192) ![0, 3072] S256x1024.size inb_S256x8192_S256x1024_0_3072
/-- Columns `4096 … 5119` of a 256×8192 strip: where column chunk 4's products are kept. -/
abbrev stripRect4 : Rect S256x8192 := Rect.unit (s := S256x8192) ![0, 4096] S256x1024.size inb_S256x8192_S256x1024_0_4096
/-- Columns `5120 … 6143` of a 256×8192 strip: where column chunk 5's products are kept. -/
abbrev stripRect5 : Rect S256x8192 := Rect.unit (s := S256x8192) ![0, 5120] S256x1024.size inb_S256x8192_S256x1024_0_5120
/-- Columns `6144 … 7167` of a 256×8192 strip: where column chunk 6's products are kept. -/
abbrev stripRect6 : Rect S256x8192 := Rect.unit (s := S256x8192) ![0, 6144] S256x1024.size inb_S256x8192_S256x1024_0_6144
/-- Columns `7168 … 8191` of a 256×8192 strip: where column chunk 7's products are kept. -/
abbrev stripRect7 : Rect S256x8192 := Rect.unit (s := S256x8192) ![0, 7168] S256x1024.size inb_S256x8192_S256x1024_0_7168

/-! ## The values of one call, from the four inputs

`x0` is the block of rows, `x1` the full matrix, `x2` the rows' labels, `x3` all labels.  Each value is the body's own
payload at what the body loads: an input through one of the rectangles above, or a kept chunk product, which is the
payload that was stored in that chunk of the strip. -/

/-- The block of rows as the body uses it from the second chunk on. -/
def rowsI (x0 : Vec F S256x256 .bf16) : FVec F S256x256 .bf16 := k1_pay2 (View.ld x0 rowsRect)

/-- The rows' labels as words. -/
def labI (x2 : Vec F S256x1 .i32) : IVec S256x1 32 := k1_pay3 (View.ld x2 colRect)

/-- The index of the block's first row among all rows: `256 · i`. -/
def rowBase (i : grid1.Coords) : BitVec 32 := Scalar.muli (BitVec.ofNat 32 (i 0).val) 256#32

/-- Column chunk 3 of the full matrix as the body uses it. -/
def chunk3 (x1 : Vec F S8192x256 .bf16) : FVec F S1024x256 .bf16 := k1_pay19 (View.ld x1 chunkRect3)

/-! ### The products kept in the first strip: `C = en_i · en_jᵀ`, chunk by chunk -/

def prod0 (x0 : Vec F S256x256 .bf16) (x1 : Vec F S8192x256 .bf16) : Vec F S256x1024 .f32 := k1_pay7 (View.ld x0 rowsRect) (View.ld x1 chunkRect0)
def prod1 (x0 : Vec F S256x256 .bf16) (x1 : Vec F S8192x256 .bf16) : Vec F S256x1024 .f32 := k1_pay12 (k1_pay9 (View.ld x0 rowsRect) (View.ld x1 chunkRect1))
def prod2 (x0 : Vec F S256x256 .bf16) (x1 : Vec F S8192x256 .bf16) : Vec F S256x1024 .f32 := k1_pay17 (rowsI x0) (View.ld x1 chunkRect2)
def prod3 (x0 : Vec F S256x256 .bf16) (x1 : Vec F S8192x256 .bf16) : Vec F S256x1024 .f32 := k1_pay22 (rowsI x0) (chunk3 x1)
def prod4 (x0 : Vec F S256x256 .bf16) (x1 : Vec F S8192x256 .bf16) : Vec F S256x1024 .f32 := k1_pay27 (rowsI x0) (View.ld x1 chunkRect4)
def prod5 (x0 : Vec F S256x256 .bf16) (x1 : Vec F S8192x256 .bf16) : Vec F S256x1024 .f32 := k1_pay31 (rowsI x0) (View.ld x1 chunkRect5)
def prod6 (x0 : Vec F S256x256 .bf16) (x1 : Vec F S8192x256 .bf16) : Vec F S256x1024 .f32 := k1_pay36 (k1_pay33 (rowsI x0) (View.ld x1 chunkRect6))
def prod7 (x0 : Vec F S256x256 .bf16) (x1 : Vec F S8192x256 .bf16) : Vec F S256x1024 .f32 := k1_pay41 (rowsI x0) (View.ld x1 chunkRect7)

/-! ### Their exponentials, kept in the second strip -/

def expProd0 (x0 : Vec F S256x256 .bf16) (x1 : Vec F S8192x256 .bf16) : Vec F S256x1024 .f32 := k1_pay8 (View.ld x0 rowsRect) (View.ld x1 chunkRect0)
/-- Chunk 1's exponential before it is stored: the first sweep also adds it into the running sum. -/
def expProd1' (x0 : Vec F S256x256 .bf16) (x1 : Vec F S8192x256 .bf16) : FVec F S256x1024 .f32 := k1_pay10 (View.ld x0 rowsRect) (View.ld x1 chunkRect1)
def expProd1 (x0 : Vec F S256x256 .bf16) (x1 : Vec F S8192x256 .bf16) : Vec F S256x1024 .f32 := k1_pay13 (expProd1' x0 x1)
def expProd2 (x0 : Vec F S256x256 .bf16) (x1 : Vec F S8192x256 .bf16) : Vec F S256x1024 .f32 := k1_pay18 (rowsI x0) (View.ld x1 chunkRect2)
def expProd3 (x0 : Vec F S256x256 .bf16) (x1 : Vec F S8192x256 .bf16) : Vec F S256x1024 .f32 := k1_pay23 (rowsI x0) (chunk3 x1)
def expProd4 (x0 : Vec F S256x256 .bf16) (x1 : Vec F S8192x256 .bf16) : Vec F S256x1024 .f32 := k1_pay28 (rowsI x0) (View.ld x1 chunkRect4)
def expProd5 (x0 : Vec F S256x256 .bf16) (x1 : Vec F S8192x256 .bf16) : Vec F S256x1024 .f32 := k1_pay32 (rowsI x0) (View.ld x1 chunkRect5)
def expProd6 (x0 : Vec F S256x256 .bf16) (x1 : Vec F S8192x256 .bf16) : Vec F S256x1024 .f32 := k1_pay37 (k1_pay34 (rowsI x0) (View.ld x1 chunkRect6))
def expProd7 (x0 : Vec F S256x256 .bf16) (x1 : Vec F S8192x256 .bf16) : Vec F S256x1024 .f32 := k1_pay42 (rowsI x0) (View.ld x1 chunkRect7)

/-! ### The first sweep: per row, the sum of `exp C` over the columns of a different label -/

/-- after chunk 0; -/
def negsum0 (x0 : Vec F S256x256 .bf16) (x1 : Vec F S8192x256 .bf16) (x2 : Vec F S256x1 .i32) (x3 : Vec F S1x8192 .i32) : FVec F S256x1 .f32 :=
  k1_pay6 (View.ld x0 rowsRect) (View.ld x2 colRect) (View.ld x1 chunkRect0) (View.ld x3 chunkLabRect0)
/-- after chunks 0 … 2; -/
def negsum2 (x0 : Vec F S256x256 .bf16) (x1 : Vec F S8192x256 .bf16) (x2 : Vec F S256x1 .i32) (x3 : Vec F S1x8192 .i32) : FVec F S256x1 .f32 :=
  k1_pay16 (rowsI x0) (labI x2) (negsum0 x0 x1 x2 x3) (expProd1' x0 x1) (k1_pay11 (View.ld x2 colRect) (View.ld x3 chunkLabRect1))
    (View.ld x1 chunkRect2) (View.ld x3 chunkLabRect2)
/-- after chunks 0 … 4; -/
def negsum4 (x0 : Vec F S256x256 .bf16) (x1 : Vec F S8192x256 .bf16) (x2 : Vec F S256x1 .i32) (x3 : Vec F S1x8192 .i32) : FVec F S256x1 .f32 :=
  k1_pay26 (rowsI x0) (labI x2) (negsum2 x0 x1 x2 x3) (chunk3 x1) (View.ld x3 chunkLabRect3) (View.ld x1 chunkRect4) (View.ld x3 chunkLabRect4)
/-- after chunks 0 … 6; -/
def negsum6 (x0 : Vec F S256x256 .bf16) (x1 : Vec F S8192x256 .bf16) (x2 : Vec F S256x1 .i32) (x3 : Vec F S1x8192 .i32) : FVec F S256x1 .f32 :=
  k1_pay35 (rowsI x0) (labI x2) (negsum4 x0 x1 x2 x3) (View.ld x1 chunkRect5) (View.ld x3 chunkLabRect5) (View.ld x1 chunkRect6) (View.ld x3 chunkLabRect6)
/-- over all eight chunks. -/
def negsum (x0 : Vec F S256x256 .bf16) (x1 : Vec F S8192x256 .bf16) (x2 : Vec F S256x1 .i32) (x3 : Vec F S1x8192 .i32) : FVec F S256x1 .f32 :=
  k1_pay40 (rowsI x0) (labI x2) (negsum6 x0 x1 x2 x3) (View.ld x1 chunkRect7) (View.ld x3 chunkLabRect7)

/-! ### The second sweep: per row, the sum of the terms over the off-diagonal columns -/

/-- after chunk 0; -/
def rowsum0 (i : grid1.Coords) (x0 : Vec F S256x256 .bf16) (x1 : Vec F S8192x256 .bf16) (x2 : Vec F S256x1 .i32) (x3 : Vec F S1x8192 .i32) : FVec F S256x1 .f32 :=
  k1_pay45 (negsum x0 x1 x2 x3) (rowBase i) (k1_pay43 (F := F)) (prod0 x0 x1) (expProd0 x0 x1) (k1_pay44 (labI x2) (View.ld x3 chunkLabRect0))
/-- after chunks 0 … 2; -/
def rowsum2 (i : grid1.Coords) (x0 : Vec F S256x256 .bf16) (x1 : Vec F S8192x256 .bf16) (x2 : Vec F S256x1 .i32) (x3 : Vec F S1x8192 .i32) : FVec F S256x1 .f32 :=
  k1_pay50 (labI x2) (negsum x0 x1 x2 x3) (rowBase i) (rowsum0 i x0 x1 x2 x3) (expProd1 x0 x1) (k1_pay46 (rowBase i))
    (k1_pay47 (labI x2) (rowBase i) (View.ld x3 chunkLabRect1)) (k1_pay48 (labI x2) (rowBase i) (prod1 x0 x1) (View.ld x3 chunkLabRect1))
    (k1_pay49 (F := F)) (prod2 x0 x1) (expProd2 x0 x1) (View.ld x3 chunkLabRect2)
/-- after chunks 0 … 3; -/
def rowsum3 (i : grid1.Coords) (x0 : Vec F S256x256 .bf16) (x1 : Vec F S8192x256 .bf16) (x2 : Vec F S256x1 .i32) (x3 : Vec F S1x8192 .i32) : FVec F S256x1 .f32 :=
  k1_pay51 (labI x2) (negsum x0 x1 x2 x3) (rowBase i) (rowsum2 i x0 x1 x2 x3) (prod3 x0 x1) (expProd3 x0 x1) (View.ld x3 chunkLabRect3)
/-- after chunks 0 … 4; -/
def rowsum4 (i : grid1.Coords) (x0 : Vec F S256x256 .bf16) (x1 : Vec F S8192x256 .bf16) (x2 : Vec F S256x1 .i32) (x3 : Vec F S1x8192 .i32) : FVec F S256x1 .f32 :=
  k1_pay54 (negsum x0 x1 x2 x3) (rowsum3 i x0 x1 x2 x3) (prod4 x0 x1) (expProd4 x0 x1) (k1_pay52 (labI x2) (View.ld x3 chunkLabRect4))
    (k1_pay53 (rowBase i)) (iota .tc S256x1024 32 [1] iota_S256x1024_d1_w32)
/-- after chunks 0 … 6. -/
def rowsum6 (i : grid1.Coords) (x0 : Vec F S256x256 .bf16) (x1 : Vec F S8192x256 .bf16) (x2 : Vec F S256x1 .i32) (x3 : Vec F S1x8192 .i32) : FVec F S256x1 .f32 :=
  k1_pay59 (labI x2) (negsum x0 x1 x2 x3) (rowBase i) (rowsum4 i x0 x1 x2 x3) (k1_pay55 (rowBase i))
    (k1_pay57 (labI x2) (rowBase i) (expProd5 x0 x1) (View.ld x3 chunkLabRect5)) (k1_pay58 (labI x2) (rowBase i) (prod5 x0 x1) (View.ld x3 chunkLabRect5))
    (prod6 x0 x1) (expProd6 x0 x1) (View.ld x3 chunkLabRect6)

/-- The row sums over all eight chunks: what the body stores. -/
def rowsum (i : grid1.Coords) (x0 : Vec F S256x256 .bf16) (x1 : Vec F S8192x256 .bf16) (x2 : Vec F S256x1 .i32) (x3 : Vec F S1x8192 .i32) : FVec F S256x1 .f32 :=
  k1_pay1 (labI x2) (negsum x0 x1 x2 x3) (rowBase i) (rowsum6 i x0 x1 x2 x3) (prod7 x0 x1) (expProd7 x0 x1) (View.ld x3 chunkLabRect7)

/-! ## What one call leaves in its output buffer -/

/-- The output buffer after the call: its one store, of the row sums. -/
def out1_4 (i : grid1.Coords) (x0 : Vec F S256x256 .bf16) (x1 : Vec F S8192x256 .bf16) (x2 : Vec F S256x1 .i32) (x3 : Vec F S1x8192 .i32) : Vec F S256x1 .f32 :=
  View.canon [⟨colRect, rowsum i x0 x1 x2 x3⟩]

/-- One store through the whole column covers it. -/
theorem cover_col (p0 : Vec F S256x1 .f32) (y : S256x1.Idx) :
    ∃ pc ∈ ([⟨colRect, p0⟩] : List (View.Piece (Elt F) S256x1 .f32)), y ∈ pc.1.set :=
  View.cover_of_tiled [⟨colRect, p0⟩] S256x1.size (by rfl) y

end Cert.KernelIdeal.Hand

end
-- ==== Proof.Region1Value.lean ====
/-
  The second region from blocks to arrays.

  Point `t` of the grid works on rows `256·t … 256·t + 255`: its first window's block is those rows of the unit-length
  rows, its third window's block those rows of the label column, its output block those rows of the row sums; the second
  and fourth windows hold all rows and all labels at every point.  The 32 output blocks tile the 8192 row sums, so the
  array the region leaves is any function `G` that agrees, row by row, with what the kernel function leaves at each point.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.Region1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))
variable (rowFn : RowFn F)

/-- The grid has 32 points. -/
theorem point_lt (t : Fin cfg1.N) : t.val < 32 := lt_of_lt_of_eq t.isLt (show cfg1.N = 32 from N_1)

/-- Row `p` of point `t`'s block among all 8192 rows. -/
def rowAt1 (t : Fin cfg1.N) (p : Fin 256) : Fin 8192 := ⟨256 * t.val + p.val, by have := point_lt t; omega⟩

theorem rowAt1_val (t : Fin cfg1.N) (p : Fin 256) : (rowAt1 t p).val = 256 * t.val + p.val := rfl

/-- The printed index maps, decided over the grid: the row-blocked windows are at block `t`, the whole ones at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Where each block's entries sit in its array -/

theorem emb1_0 (t : Fin cfg1.N) (p : Fin 256) (k : Fin 256) :
    ((cfg1.win 0).blk t).view.emb (ix2 p k : S256x256.Idx) = (ix2 (rowAt1 t p) k : S8192x256.Idx) := by
  obtain ⟨e0, e1, -⟩ := index_facts1 t
  funext a; apply Fin.ext
  match a with
  | ⟨0, _⟩ => show win1_0.index t (0 : Fin 2) * 256 + 1 * p.val = 256 * t.val + p.val; omega
  | ⟨1, _⟩ => show win1_0.index t (1 : Fin 2) * 256 + 1 * k.val = k.val; omega

theorem emb1_1 (t : Fin cfg1.N) (j : Fin 8192) (k : Fin 256) :
    ((cfg1.win 1).blk t).view.emb (ix2 j k : S8192x256.Idx) = (ix2 j k : S8192x256.Idx) := by
  obtain ⟨-, -, e2, e3, -⟩ := index_facts1 t
  funext a; apply Fin.ext
  match a with
  | ⟨0, _⟩ => show win1_1.index t (0 : Fin 2) * 8192 + 1 * j.val = j.val; omega
  | ⟨1, _⟩ => show win1_1.index t (1 : Fin 2) * 256 + 1 * k.val = k.val; omega

theorem emb1_2 (t : Fin cfg1.N) (p : Fin 256) (z : Fin 1) :
    ((cfg1.win 2).blk t).view.emb (ix2 p z : S256x1.Idx) = (ix2 (rowAt1 t p) z : S8192x1.Idx) := by
  obtain ⟨-, -, -, -, e4, e5, -⟩ := index_facts1 t
  funext a; apply Fin.ext
  match a with
  | ⟨0, _⟩ => show win1_2.index t (0 : Fin 2) * 256 + 1 * p.val = 256 * t.val + p.val; omega
  | ⟨1, _⟩ => show win1_2.index t (1 : Fin 2) * 1 + 1 * z.val = z.val; omega

theorem emb1_3 (t : Fin cfg1.N) (z : Fin 1) (j : Fin 8192) :
    ((cfg1.win 3).blk t).view.emb (ix2 z j : S1x8192.Idx) = (ix2 z j : S1x8192.Idx) := by
  obtain ⟨-, -, -, -, -, -, e6, e7, -⟩ := index_facts1 t
  funext a; apply Fin.ext
  match a with
  | ⟨0, _⟩ => show win1_3.index t (0 : Fin 2) * 1 + 1 * z.val = z.val; omega
  | ⟨1, _⟩ => show win1_3.index t (1 : Fin 2) * 8192 + 1 * j.val = j.val; omega

theorem emb1_4 (t : Fin cfg1.N) (p : Fin 256) (z : Fin 1) :
    ((cfg1.win 4).blk t).view.emb (ix2 p z : S256x1.Idx) = (ix2 (rowAt1 t p) z : S8192x1.Idx) := by
  obtain ⟨-, -, -, -, -, -, -, -, e8, e9⟩ := index_facts1 t
  funext a; apply Fin.ext
  match a with
  | ⟨0, _⟩ => show win1_4.index t (0 : Fin 2) * 256 + 1 * p.val = 256 * t.val + p.val; omega
  | ⟨1, _⟩ => show win1_4.index t (1 : Fin 2) * 1 + 1 * z.val = z.val; omega

/-! ## The input blocks, read where they sit -/

/-- Row `p` of the point's block of rows is row `256·t + p` of all rows. -/
theorem inBlock1_0_apply (c : Dev nD) (t : Fin cfg1.N) (p : Fin 256) (k : Fin 256) :
    inBlock1 V c 0 t (ix2 p k : S256x256.Idx) = V c main_v0_1 (ix2 (rowAt1 t p) k : S8192x256.Idx) := by
  show V c main_v0_1 (((cfg1.win 0).blk t).view.emb (ix2 p k : S256x256.Idx)) = _
  rw [emb1_0]

/-- The second window holds all rows. -/
theorem inBlock1_1_apply (c : Dev nD) (t : Fin cfg1.N) (j : Fin 8192) (k : Fin 256) :
    inBlock1 V c 1 t (ix2 j k : S8192x256.Idx) = V c main_v0_1 (ix2 j k : S8192x256.Idx) := by
  show V c main_v0_1 (((cfg1.win 1).blk t).view.emb (ix2 j k : S8192x256.Idx)) = _
  rw [emb1_1]

/-- Entry `p` of the point's block of the label column is entry `256·t + p` of the column. -/
theorem inBlock1_2_apply (c : Dev nD) (t : Fin cfg1.N) (p : Fin 256) (z : Fin 1) :
    inBlock1 V c 2 t (ix2 p z : S256x1.Idx) = V c main_v1 (ix2 (rowAt1 t p) z : S8192x1.Idx) := by
  show V c main_v1 (((cfg1.win 2).blk t).view.emb (ix2 p z : S256x1.Idx)) = _
  rw [emb1_2]

/-- The fourth window holds the whole label row. -/
theorem inBlock1_3_apply (c : Dev nD) (t : Fin cfg1.N) (z : Fin 1) (j : Fin 8192) :
    inBlock1 V c 3 t (ix2 z j : S1x8192.Idx) = V c main_v2 (ix2 z j : S1x8192.Idx) := by
  show V c main_v2 (((cfg1.win 3).blk t).view.emb (ix2 z j : S1x8192.Idx)) = _
  rw [emb1_3]

/-! ## The output blocks tile the row sums -/

/-- A row sum's index is in point `t`'s block iff each coordinate is in the block's range on its axis. -/
theorem mem_outBlock1 (t : Fin cfg1.N) (i : S8192x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v3).slice (win1_4.rect t)).set ↔ _
  rw [View.set_slice_whole, Rect.mem_set_unit]
  exact Iff.rfl

/-- THE ROW SUMS after the region: any `G` that, at every point and every row of its block, is what the kernel function
    leaves there. -/
theorem rows_final (c : Dev nD) (G : S8192x1.Idx → Elt F .f32)
    (hpoint : ∀ (t : Fin cfg1.N) (p : Fin 256) (z : Fin 1),
      rowFn (grid1.coords t) (inBlock1 V c 0 t) (inBlock1 V c 1 t) (inBlock1 V c 2 t) (inBlock1 V c 3 t) (ix2 p z : S256x1.Idx)
        = G (ix2 (rowAt1 t p) z : S8192x1.Idx)) :
    (dat1 V rowFn c).arrAt 4 cfg1.N = G := by
  refine (dat1 V rowFn c).arrAt_eq_of_cover 4 G (fun t _ => ?_) (fun i => ?_)
  · show (cfg1.win 4).cut (grid1.coords t) ((dat1 V rowFn c).after 4 t) = _
    rw [dat1_after_4]
    funext y
    obtain ⟨p, z, rfl⟩ : ∃ (p : Fin 256) (z : Fin 1), y = (ix2 p z : S256x1.Idx) := ⟨y 0, y 1, eq_ix2 y⟩
    show rowFn (grid1.coords t) (inBlock1 V c 0 t) (inBlock1 V c 1 t) (inBlock1 V c 2 t) (inBlock1 V c 3 t) (ix2 p z : S256x1.Idx)
      = G (((cfg1.win 4).blk t).view.emb (ix2 p z : S256x1.Idx))
    rw [emb1_4]
    exact hpoint t p z
  · have hi0 : (i 0).val < 8192 := (i 0).isLt
    have hi1 : (i 1).val < 1 := (i 1).isLt
    have hN : cfg1.N = 32 := N_1
    let t : Fin cfg1.N := ⟨(i 0).val / 256, by rw [hN]; omega⟩
    have ht : t.val = (i 0).val / 256 := rfl
    refine ⟨t, flush1_4 t, ?_⟩
    rw [mem_outBlock1]
    obtain ⟨-, -, -, -, -, -, -, -, e8, e9⟩ := index_facts1 t
    intro a
    match a with
    | ⟨0, _⟩ => show win1_4.index t (0 : Fin 2) * 256 ≤ (i 0).val ∧ (i 0).val < win1_4.index t (0 : Fin 2) * 256 + 256; omega
    | ⟨1, _⟩ => show win1_4.index t (1 : Fin 2) * 1 ≤ (i 1).val ∧ (i 1).val < win1_4.index t (1 : Fin 2) * 1 + 1; omega

end Cert.KernelIdeal.Hand

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Region0ValuePayload.lean ====
/-
  The first kernel region's arithmetic at one element, on the extended reals.

  One call of the kernel function takes a block `x0` of 1024 embedding rows, the weight matrix `x1` and the bias `x2`,
  forms the affine layer `e = x0 · x1ᵀ + x2` (the product accumulated into zero; on the extended reals a contraction is
  the exact sum whatever precision it is asked at), takes each row's length `√(∑ e²)`, clamps it below by a small
  positive constant, and divides the row by it. This module reads that chain at the element `(p, q)`: the matrix
  product as a sum over the contraction coordinate, the transposed weight at swapped coordinates, the bias repeated down
  the rows, the lane sum as a sum over the columns, and the per-row length carried to every lane of its row through an
  `a × 1` column. The narrowed output is the same extended real: a format change moves no value there.
-/
import proofs.«113247_j19061064860121_2_alg».proof.Proof.Gen.KernelIdeal.Skeleton
import proofs.«113247_j19061064860121_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The matrix product at an element -/

/-- The left operand's row coordinate is the result's row coordinate. -/
theorem prod_lhs_row (i : S1024x256.Idx) (k : dot_S1024x1024_S1024x256_S1024x256_1_0_0_1_n_n.contr.Idx) :
    (dot_S1024x1024_S1024x256_S1024x256_1_0_0_1_n_n.lhsIdx i k 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

/-- The right operand's column coordinate is the result's column coordinate. -/
theorem prod_rhs_col (i : S1024x256.Idx) (k : dot_S1024x1024_S1024x256_S1024x256_1_0_0_1_n_n.contr.Idx) :
    (dot_S1024x1024_S1024x256_S1024x256_1_0_0_1_n_n.rhsIdx i k 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The product `[1024, 1024] × [1024, 256]` into the zero matrix, at `(p, q)`: the sum over `k` of
    `lhs (p, k) · rhs (k, q)`, at any requested precision. -/
theorem prod_apply (prec : Option ContractPrecision) (lhs : FVec Ideal S1024x1024 .f32) (rhs : FVec Ideal S1024x256 .f32)
    (p : Fin 1024) (q : Fin 256) :
    FloatOps.matmul dot_S1024x1024_S1024x256_S1024x256_1_0_0_1_n_n prec lhs rhs (constant (F := Ideal) S1024x256 .f32 0x00000000#32) (ix2 p q)
      = ∑ k : Fin 1024, lhs (ix2 p k) * rhs (ix2 k q) := by
  rw [Ideal.matmul_constant_zero_apply,
    ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q)
      ((contrEquiv1 dot_S1024x1024_S1024x256_S1024x256_1_0_0_1_n_n 1024 rfl rfl).symm k) = ix2 p k :=
    funext fun a => Fin.ext (by
      match a with
      | ⟨0, _⟩ => exact prod_lhs_row _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 p q)
      ((contrEquiv1 dot_S1024x1024_S1024x256_S1024x256_1_0_0_1_n_n 1024 rfl rfl).symm k) = ix2 k q :=
    funext fun a => Fin.ext (by
      match a with
      | ⟨0, _⟩ => exact (dot_S1024x1024_S1024x256_S1024x256_1_0_0_1_n_n.rhsIdx_val_of_single rfl _ _).trans hk
      | ⟨1, _⟩ => exact prod_rhs_col _ _)
  rw [el, er]

/-! ## The lane sum at a row -/

/-- The sum over the lanes of a `1024 × 256` matrix, at row `p`: the sum over the columns `q` of the entry `(p, q)`. -/
theorem lane_sum_apply (src : FVec Ideal S1024x256 .f32) (p : Fin 1024) :
    multiReduction (F := Ideal) .add [1] S1024 src 0x00000000#32 reduces_S1024x256_S1024 (.inl rfl) rfl (ix1 p)
      = ∑ q : Fin 256, src (ix2 p q) := by
  refine (Ideal.multiReduction_add_single src 0x00000000#32 reduces_S1024x256_S1024 (.inl rfl) rfl (ix1 p)).trans ?_
  refine Finset.sum_congr rfl fun q _ => congrArg src (funext fun a => Fin.ext ?_)
  match a with
  | ⟨0, _⟩ => rfl
  | ⟨1, _⟩ => rfl

/-! ## The affine layer at an element -/

/-- Entry `(p, q)` of `x0 · x1ᵀ + x2`: `∑ₖ x0 (p, k) · x1 (q, k) + x2 q`. -/
def affineAt (x0 : Vec Ideal S1024x1024 .f32) (x1 : Vec Ideal S256x1024 .f32) (x2 : Vec Ideal S256 .f32)
    (p : Fin 1024) (q : Fin 256) : EReal :=
  (∑ k : Fin 1024, x0 (ix2 p k) * x1 (ix2 q k)) + x2 (ix1 q)

/-- The kernel's affine layer — the product with the transposed weight, plus the bias as a row repeated down the
    rows — at `(p, q)`. -/
theorem affine_apply (x0 : Vec Ideal S1024x1024 .f32) (x1 : Vec Ideal S256x1024 .f32) (x2 : Vec Ideal S256 .f32)
    (p : Fin 1024) (q : Fin 256) :
    addf (φ := .f32) (matmul (φ₁ := .f32) (φ₂ := .f32) dot_S1024x1024_S1024x256_S1024x256_1_0_0_1_n_n (some .fp32) x0
        (transpose S1024x256 [1, 0] x1 transposes_S256x1024_p1_0_S1024x256) (constant (F := Ideal) S1024x256 .f32 0x00000000#32))
      (broadcastTo S1024x256 (shapeCast S1x256 x2 shapeCasts_S256_S1x256) broadcasts_S1x256_S1024x256) (ix2 p q)
      = affineAt x0 x1 x2 p q := by
  unfold affineAt
  rw [addf_apply, broadcastTo_1b_ab_apply, shapeCast_a_1a_apply]
  refine congrArg (· + x2 (ix1 q)) ?_
  refine (prod_apply _ _ _ p q).trans (Finset.sum_congr rfl fun k _ => ?_)
  rw [transpose_ix2_apply]

/-! ## The unit-length rows at an element -/

/-- A square root taken entry by entry reads, at an index, the extended reals' square root of the entry. -/
theorem sqrt_apply {s : Shape} {φ : FTy} (a : FVec Ideal s φ) (i : s.Idx) : sqrt a i = Ideal.sqrt (a i) := rfl

/-- THE F32 OUTPUT OF ONE CALL at `(p, q)`: the affine layer's entry divided by its row's clamped length. -/
theorem k0_pay1_apply (x0 : Vec Ideal S1024x1024 .f32) (x1 : Vec Ideal S256x1024 .f32) (x2 : Vec Ideal S256 .f32)
    (p : Fin 1024) (q : Fin 256) :
    k0_pay1 (F := Ideal) x0 x1 x2 (ix2 p q)
      = Ideal.div (affineAt x0 x1 x2 p q)
          (max (Ideal.sqrt (∑ q' : Fin 256, affineAt x0 x1 x2 p q' * affineAt x0 x1 x2 p q'))
            (Ideal.ofBits .f32 0x322BCC77#32)) := by
  unfold k0_pay1
  dsimp only
  rw [divf_apply, affine_apply, KeepdimsColumn.broadcastTo_a1_ab_apply, maximumf_apply, broadcast_apply, sqrt_apply,
    KeepdimsColumn.shapeCast_a_a1_apply, lane_sum_apply]
  refine congrArg (fun s => Ideal.div (affineAt x0 x1 x2 p q) (max (Ideal.sqrt s) (Ideal.ofBits .f32 0x322BCC77#32)))
    (Finset.sum_congr rfl fun q' _ => ?_)
  rw [mulf_apply, affine_apply]

/-- THE BF16 OUTPUT OF ONE CALL at `(p, q)`: the same extended real (narrowing the format moves no value). -/
theorem k0_pay2_apply (x0 : Vec Ideal S1024x1024 .f32) (x1 : Vec Ideal S256x1024 .f32) (x2 : Vec Ideal S256 .f32)
    (p : Fin 1024) (q : Fin 256) :
    k0_pay2 (F := Ideal) x0 x1 x2 (ix2 p q)
      = Ideal.div (affineAt x0 x1 x2 p q)
          (max (Ideal.sqrt (∑ q' : Fin 256, affineAt x0 x1 x2 p q' * affineAt x0 x1 x2 p q'))
            (Ideal.ofBits .f32 0x322BCC77#32)) := by
  unfold k0_pay2
  rw [truncf_apply, k0_pay1_apply]

end Cert.KernelIdeal.Hand

end
-- ==== Proof.Spec.lean ====
/-
  The value of this kernel, index by index, on the extended reals.

  Rows of the embedding are mapped by an affine layer and scaled to unit length (with the length
  clamped below by a small positive constant); the pairwise loss of a row is then a sum, over all
  the OTHER rows, of a log-sum-exp term built from the cosines of that row with every row.
  Nothing here mentions a program: these are plain functions of the argument arrays.
-/
import proofs.«113247_j19061064860121_2_alg».proof.KernelIdeal
import Idealize.ShloMosaic.PureOps.Ideal.Laws
import Idealize.ShloMosaic.Lib.ValueIdx

noncomputable section

open scoped BigOperators

namespace Cert.RefValue

open Idealize.ShloMosaic Idealize.ShloMosaic.ValueIdx
open Cert.KernelIdeal (S8192x1024 S256x1024 S256 S8192x256 S8192 S8192x1)

/-! ## The normalized rows -/

/-- The affine layer: entry `(r, c)` of `emb · Wᵀ + b`, that is `∑ₖ emb r k · W c k + b c`. -/
def eAt (emb : FVec Ideal S8192x1024 .f32) (W : FVec Ideal S256x1024 .f32) (b : FVec Ideal S256 .f32)
    (r : Fin 8192) (c : Fin 256) : EReal :=
  (∑ k : Fin 1024, emb (ix2 r k) * W (ix2 c k)) + b (ix1 c)

/-- The clamped length of row `r` of the affine layer: `max (√(∑_c e r c · e r c)) ε`, with `ε` the value of the
    word `0x322BCC77` (the single-precision number nearest `1e-8`), which is never evaluated. -/
def normAt (emb : FVec Ideal S8192x1024 .f32) (W : FVec Ideal S256x1024 .f32) (b : FVec Ideal S256 .f32)
    (r : Fin 8192) : EReal :=
  max (Ideal.sqrt (∑ c : Fin 256, eAt emb W b r c * eAt emb W b r c)) (Ideal.ofBits .f32 0x322BCC77#32)

/-- The normalized rows: entry `(r, c)` is `e r c / max (√(∑_c' e r c'²)) ε`, the quotient being the extended reals'
    (`Ideal.div`). -/
def enSpec (emb : FVec Ideal S8192x1024 .f32) (W : FVec Ideal S256x1024 .f32) (b : FVec Ideal S256 .f32) :
    FVec Ideal S8192x256 .f32 :=
  fun i => Ideal.div (eAt emb W b (i 0) (i 1)) (normAt emb W b (i 0))

theorem enSpec_apply (emb : FVec Ideal S8192x1024 .f32) (W : FVec Ideal S256x1024 .f32) (b : FVec Ideal S256 .f32)
    (r : Fin 8192) (c : Fin 256) :
    enSpec emb W b (ix2 r c) = Ideal.div (eAt emb W b r c) (normAt emb W b r) := rfl

/-! ## The pairwise loss of one row -/

/-- The cosine of rows `r` and `j`: `∑ₖ en r k · en j k`. -/
def cosAt (en : FVec Ideal S8192x256 .f32) (r j : Fin 8192) : EReal :=
  ∑ k : Fin 256, en (ix2 r k) * en (ix2 j k)

/-- Row `r`'s sum of `exp` of its cosines with the rows of a DIFFERENT label (a row of the same label, `r` itself
    among them, contributes `0`). -/
def negsumAt (en : FVec Ideal S8192x256 .f32) (labels : IVec S8192 32) (r : Fin 8192) : EReal :=
  ∑ j : Fin 8192, if labels (ix1 r) = labels (ix1 j) then 0 else Ideal.exp (cosAt en r j)

/-- The term of the pair `(r, j)`: `0` on the diagonal, and off it `-pos + log (negsum r + expPos)`, where for a pair
    of the same label (and `r ≠ j`) `pos` is the cosine and `expPos` its exponential, and for a pair of different labels
    `pos = 0` and `expPos = 1`. -/
def termAt (en : FVec Ideal S8192x256 .f32) (labels : IVec S8192 32) (r j : Fin 8192) : EReal :=
  if r = j then 0
  else -(if labels (ix1 r) = labels (ix1 j) ∧ r ≠ j then cosAt en r j else 0)
    + Ideal.log (negsumAt en labels r
        + (if labels (ix1 r) = labels (ix1 j) ∧ r ≠ j then Ideal.exp (cosAt en r j) else 1))

/-- The pairwise loss, one number per row: entry `(r, 0)` is `∑ⱼ termAt r j`, ONE sum over all 8192 columns `j` in
    their natural order as a `Finset` sum over `Fin 8192` (no chunking, no leading zero: on the extended reals a sum
    may be regrouped freely, so any blocked evaluation of the same terms equals it). -/
def rowsumSpec (en : FVec Ideal S8192x256 .f32) (labels : IVec S8192 32) : FVec Ideal S8192x1 .f32 :=
  fun i => ∑ j : Fin 8192, termAt en labels (i 0) j

theorem rowsumSpec_apply (en : FVec Ideal S8192x256 .f32) (labels : IVec S8192 32) (r : Fin 8192) (z : Fin 1) :
    rowsumSpec en labels (ix2 r z) = ∑ j : Fin 8192, termAt en labels r j := rfl

end Cert.RefValue

end
-- ==== Proof.Region0ValueBlocks.lean ====
/-
  The first kernel region's input blocks, read off the arrays the region is entered with.

  At grid point `t` the embedding window holds rows `1024·t … 1024·t + 1023` of the embedding array, and the weight and
  bias windows hold their whole arrays: an element of a window's block sits in the array, on each axis, at the block's
  index times the block's extent plus its own coordinate, and the printed index maps give the block indices `(t, 0)`,
  `(0, 0)` and `(0)`. So the affine layer of the three blocks at `(p, q)` is the affine layer of the three arrays at
  row `1024·t + p`, column `q`. The two output windows move with the embedding window: block `(t, 0)` too.
-/
import proofs.«113247_j19061064860121_2_alg».proof.Proof.Region0
import proofs.«113247_j19061064860121_2_alg».proof.Proof.Region0ValuePayload
import proofs.«113247_j19061064860121_2_alg».proof.Proof.Spec
import Idealize.ShloMosaic.Lib.Pipeline.Value
import Idealize.ShloMosaic.Lib.ValueIdx
import Idealize.ShloMosaic.PureOps.Ideal.Laws

-- membership in a rectangle of the kernel's extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RefValue (eAt normAt enSpec enSpec_apply)

variable {F : FTy → Type} [FloatOps F]

-- the unscoped buffers' contents when the region is entered: a parameter, instantiated by the run
variable (V : (c : Dev nD) → (b : Ref sig .tc) → Buf (Elt F) ((c : Thread nD τ).loc b))

/-! ## The printed index maps over the grid -/

/-- The block indices of the five windows at every grid point, decided once: the embedding window and the two output
    windows are on block `(t, 0)`, the weight and the bias windows on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array row that row `p` of the block at point `t` is: `1024·t + p`. -/
def rowOf (t : Fin cfg0.N) (p : Fin 1024) : Fin 8192 :=
  ⟨t.val * 1024 + p.val, by have := t.isLt; have hN : cfg0.N = 8 := N_0; omega⟩

theorem rowOf_val (t : Fin cfg0.N) (p : Fin 1024) : (rowOf t p).val = t.val * 1024 + p.val := rfl

/-! ## The three input blocks at an element -/

/-- The embedding block at point `t`, at `(p, k)`: the embedding array at row `1024·t + p`, column `k`. -/
theorem inBlock0_emb (c : Dev nD) (t : Fin cfg0.N) (p k : Fin 1024) :
    (inBlock0 V c 0 t : Vec F S1024x1024 .f32) (ix2 p k)
      = (V c main_arg0 : S8192x1024.Idx → Elt F .f32) (ix2 (rowOf t p) k) := by
  obtain ⟨e0, e1, -⟩ := idx_facts0 t
  unfold inBlock0
  rw [View.read_apply]
  show V c main_arg0 _ = V c main_arg0 _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The weight block at any point, at `(q, k)`: the weight array there. -/
theorem inBlock0_weight (c : Dev nD) (t : Fin cfg0.N) (q : Fin 256) (k : Fin 1024) :
    (inBlock0 V c 1 t : Vec F S256x1024 .f32) (ix2 q k)
      = (V c main_arg2 : S256x1024.Idx → Elt F .f32) (ix2 q k) := by
  obtain ⟨-, -, e0, e1, -⟩ := idx_facts0 t
  unfold inBlock0
  rw [View.read_apply]
  show V c main_arg2 _ = V c main_arg2 _
  refine congrArg _ (funext fun a => Fin.ext ?_)
  match a with
  | ⟨0, _⟩ => show win0_1.index t (0 : Fin 2) * 256 + 1 * q.val = q.val; omega
  | ⟨1, _⟩ => show win0_1.index t (1 : Fin 2) * 1024 + 1 * k.val = k.val; omega

/-- The bias block at any point, at `q`: the bias array there. -/
theorem inBlock0_bias (c : Dev nD) (t : Fin cfg0.N) (q : Fin 256) :
    (inBlock0 V c 2 t : Vec F S256 .f32) (ix1 q) = (V c main_arg3 : S256.Idx → Elt F .f32) (ix1 q) := by
  obtain ⟨-, -, -, -, e0, -⟩ := idx_facts0 t
  unfold inBlock0
  rw [View.read_apply]
  show V c main_arg3 _ = V c main_arg3 _
  refine congrArg _ (funext fun a => Fin.ext ?_)
  match a with
  | ⟨0, _⟩ => show win0_2.index t (0 : Fin 1) * 256 + 1 * q.val = q.val; omega

/-! ## The affine layer of the blocks is the affine layer of the arrays -/

/-- On the extended reals: the affine layer of the three blocks at point `t`, at `(p, q)`, is the arrays' affine layer at
    row `1024·t + p`, column `q`. -/
theorem affineAt_blocks (V : (c : Dev nD) → (b : Ref sig .tc) → Buf (Elt Ideal) ((c : Thread nD τ).loc b))
    (c : Dev nD) (t : Fin cfg0.N) (p : Fin 1024) (q : Fin 256) :
    affineAt (inBlock0 V c 0 t) (inBlock0 V c 1 t) (inBlock0 V c 2 t) p q
      = eAt (V c main_arg0) (V c main_arg2) (V c main_arg3) (rowOf t p) q := by
  unfold affineAt eAt
  refine congrArg₂ (· + ·) (Finset.sum_congr rfl fun k _ => ?_) (inBlock0_bias V c t q)
  exact congrArg₂ (· * ·) (inBlock0_emb V c t p k) (inBlock0_weight V c t q k)

end Cert.KernelIdeal.Hand

end
-- ==== Proof.Region0Value.lean ====
/-
  The first kernel region's two output arrays after its eight grid points, on the extended reals.

  Point `t` writes back, into rows `1024·t … 1024·t + 1023` of each output array, the unit-length rows computed from its
  three input blocks: the one store of the call, through the whole block, leaves its payload, and the payload at
  `(p, q)` is the affine layer of the blocks there divided by its row's clamped length. The blocks' affine layer is the
  arrays' at row `1024·t + p`, so what point `t` writes back is block `t` of ONE function of the arrays the region was
  entered with — the normalized rows `enSpec` —, and the eight blocks cover the 8192 rows: the point covering row `r` is
  `r / 1024`. Hence each output array ends holding `enSpec` of the embedding, weight and bias arrays (the narrowed
  output too: narrowing moves no extended real).
-/
import proofs.«113247_j19061064860121_2_alg».proof.Proof.Region0
import proofs.«113247_j19061064860121_2_alg».proof.Proof.Region0ValuePayload
import proofs.«113247_j19061064860121_2_alg».proof.Proof.Region0ValueBlocks
import proofs.«113247_j19061064860121_2_alg».proof.Proof.Spec
import Idealize.ShloMosaic.Lib.Pipeline.Value
import Idealize.ShloMosaic.Lib.ValueIdx
import Idealize.ShloMosaic.PureOps.Ideal.Laws

-- membership in a rectangle of the kernel's extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RefValue (eAt normAt enSpec enSpec_apply)

-- the unscoped buffers' contents when the region is entered: a parameter, instantiated by the run
variable (V : (c : Dev nD) → (b : Ref sig .tc) → Buf (Elt Ideal) ((c : Thread nD τ).loc b))

/-! ## One call's two output blocks at an element -/

theorem zeros2 : (![0, 0] : Fin 2 → Nat) = fun _ => 0 := funext fun a => by fin_cases a <;> rfl
theorem zeros1 : (![0] : Fin 1 → Nat) = fun _ => 0 := funext fun a => by fin_cases a <;> rfl

/-- The quotient both outputs hold at `(p, q)`: the affine layer's entry over its row's clamped length. -/
def unitAt (x0 : Vec Ideal S1024x1024 .f32) (x1 : Vec Ideal S256x1024 .f32) (x2 : Vec Ideal S256 .f32)
    (p : Fin 1024) (q : Fin 256) : EReal :=
  Ideal.div (affineAt x0 x1 x2 p q)
    (max (Ideal.sqrt (∑ q' : Fin 256, affineAt x0 x1 x2 p q' * affineAt x0 x1 x2 p q')) (Ideal.ofBits .f32 0x322BCC77#32))

/-- The f32 output block of one call at `(p, q)`. -/
theorem unitRows_apply (x0 : Vec Ideal S1024x1024 .f32) (x1 : Vec Ideal S256x1024 .f32) (x2 : Vec Ideal S256 .f32)
    (p : Fin 1024) (q : Fin 256) : unitRows (F := Ideal) x0 x1 x2 (ix2 p q) = unitAt x0 x1 x2 p q := by
  unfold unitRows
  rw [View.canon_unit_zero zeros2]
  simp only [View.ld_unit_zero (S := S1024x1024) zeros2, View.ld_unit_zero (S := S256x1024) zeros2,
    View.ld_unit_zero (S := S256) zeros1]
  exact k0_pay1_apply x0 x1 x2 p q

/-- The bf16 output block of one call at `(p, q)`: the same extended real. -/
theorem unitRowsNarrow_apply (x0 : Vec Ideal S1024x1024 .f32) (x1 : Vec Ideal S256x1024 .f32) (x2 : Vec Ideal S256 .f32)
    (p : Fin 1024) (q : Fin 256) : unitRowsNarrow (F := Ideal) x0 x1 x2 (ix2 p q) = unitAt x0 x1 x2 p q := by
  unfold unitRowsNarrow
  rw [View.canon_unit_zero zeros2]
  simp only [View.ld_unit_zero (S := S1024x1024) zeros2, View.ld_unit_zero (S := S256x1024) zeros2,
    View.ld_unit_zero (S := S256) zeros1]
  exact k0_pay2_apply x0 x1 x2 p q

/-- At point `t`'s blocks the quotient is the normalized rows of the arrays at row `1024·t + p`. -/
theorem unitAt_blocks (c : Dev nD) (t : Fin cfg0.N) (p : Fin 1024) (q : Fin 256) :
    unitAt (inBlock0 V c 0 t) (inBlock0 V c 1 t) (inBlock0 V c 2 t) p q
      = enSpec (V c main_arg0) (V c main_arg2) (V c main_arg3) (ix2 (rowOf t p) q) := by
  rw [enSpec_apply]
  unfold unitAt normAt
  rw [affineAt_blocks]
  refine congrArg (fun s => Ideal.div _ (max (Ideal.sqrt s) _)) (Finset.sum_congr rfl fun q' _ => ?_)
  rw [affineAt_blocks]

/-! ## What a point writes back -/

/-- An element of point `t`'s block of the f32 output sits in the array at row `1024·t + p`, column `q`. -/
theorem emb_rows (t : Fin cfg0.N) (p : Fin 1024) (q : Fin 256) :
    ((cfg0.win 3).blk t).view.emb (ix2 p q) = (ix2 (rowOf t p) q : S8192x256.Idx) := by
  obtain ⟨-, -, -, -, -, e0, e1, -⟩ := idx_facts0 t
  refine funext fun a => Fin.ext ?_
  match a with
  | ⟨0, _⟩ => show win0_3.index t (0 : Fin 2) * 1024 + 1 * p.val = t.val * 1024 + p.val; omega
  | ⟨1, _⟩ => show win0_3.index t (1 : Fin 2) * 256 + 1 * q.val = q.val; omega

/-- The same for the bf16 output. -/
theorem emb_rows_narrow (t : Fin cfg0.N) (p : Fin 1024) (q : Fin 256) :
    ((cfg0.win 4).blk t).view.emb (ix2 p q) = (ix2 (rowOf t p) q : S8192x256.Idx) := by
  obtain ⟨-, -, -, -, -, -, -, e0, e1⟩ := idx_facts0 t
  refine funext fun a => Fin.ext ?_
  match a with
  | ⟨0, _⟩ => show win0_4.index t (0 : Fin 2) * 1024 + 1 * p.val = t.val * 1024 + p.val; omega
  | ⟨1, _⟩ => show win0_4.index t (1 : Fin 2) * 256 + 1 * q.val = q.val; omega

/-- WHAT POINT `t` WRITES BACK to the f32 output is block `t` of the normalized rows of the arrays as entered. -/
theorem flushed_rows (c : Dev nD) (t : Fin cfg0.N) :
    (dat0 V c).flushed 3 t
      = ((cfg0.win 3).blk t).view.read (Elt Ideal) (enSpec (V c main_arg0) (V c main_arg2) (V c main_arg3)) := by
  show (cfg0.win 3).cut (grid0.coords t) ((dat0 V c).after 3 t) = _
  rw [dat0_after_3]
  funext j
  obtain ⟨p, q, rfl⟩ : ∃ (p : Fin 1024) (q : Fin 256), j = ix2 p q := ⟨j 0, j 1, eq_ix2 j⟩
  show unitRows (inBlock0 V c 0 t) (inBlock0 V c 1 t) (inBlock0 V c 2 t) (ix2 p q)
    = enSpec (V c main_arg0) (V c main_arg2) (V c main_arg3) (((cfg0.win 3).blk t).view.emb (ix2 p q))
  rw [emb_rows, unitRows_apply, unitAt_blocks]

/-- And to the bf16 output likewise. -/
theorem flushed_rows_narrow (c : Dev nD) (t : Fin cfg0.N) :
    (dat0 V c).flushed 4 t
      = ((cfg0.win 4).blk t).view.read (Elt Ideal) (enSpec (V c main_arg0) (V c main_arg2) (V c main_arg3)) := by
  show (cfg0.win 4).cut (grid0.coords t) ((dat0 V c).after 4 t) = _
  rw [dat0_after_4]
  funext j
  obtain ⟨p, q, rfl⟩ : ∃ (p : Fin 1024) (q : Fin 256), j = ix2 p q := ⟨j 0, j 1, eq_ix2 j⟩
  show unitRowsNarrow (inBlock0 V c 0 t) (inBlock0 V c 1 t) (inBlock0 V c 2 t) (ix2 p q)
    = enSpec (V c main_arg0) (V c main_arg2) (V c main_arg3) (((cfg0.win 4).blk t).view.emb (ix2 p q))
  rw [emb_rows_narrow, unitRowsNarrow_apply, unitAt_blocks]

/-! ## The eight blocks cover the rows -/

/-- An index of the f32 output array is in point `t`'s block iff each coordinate is in the block's range on its axis. -/
theorem mem_blk_rows (t : Fin cfg0.N) (i : S8192x256.Idx) :
    i ∈ ((cfg0.win 3).blk t).view.set
      ↔ ∀ a : Fin 2, win0_3.index t a * S1024x256.size a ≤ (i a).val
          ∧ (i a).val < win0_3.index t a * S1024x256.size a + S1024x256.size a := by
  show i ∈ ((View.whole main_v0_0).slice (win0_3.rect t)).set ↔ _
  rw [View.set_slice_whole, Rect.mem_set_unit]
  exact Iff.rfl

theorem mem_blk_rows_narrow (t : Fin cfg0.N) (i : S8192x256.Idx) :
    i ∈ ((cfg0.win 4).blk t).view.set
      ↔ ∀ a : Fin 2, win0_4.index t a * S1024x256.size a ≤ (i a).val
          ∧ (i a).val < win0_4.index t a * S1024x256.size a + S1024x256.size a := by
  show i ∈ ((View.whole main_v0_1).slice (win0_4.rect t)).set ↔ _
  rw [View.set_slice_whole, Rect.mem_set_unit]
  exact Iff.rfl

/-- The point whose block holds row `r`: `r / 1024`. -/
def pointOf (i : S8192x256.Idx) : Fin cfg0.N :=
  ⟨(i 0).val / 1024, by have h0 : (i 0).val < 8192 := (i 0).isLt; have hN : cfg0.N = 8 := N_0; omega⟩

theorem pointOf_val (i : S8192x256.Idx) : (pointOf i).val = (i 0).val / 1024 := rfl

/-- Every index of the f32 output array is in the block of a point that writes back. -/
theorem cover_rows_arr (i : S8192x256.Idx) :
    ∃ t : Fin cfg0.N, (cfg0.win 3).flush t = true ∧ i ∈ ((cfg0.win 3).blk t).view.set := by
  have h0 : (i 0).val < 8192 := (i 0).isLt
  have h1 : (i 1).val < 256 := (i 1).isLt
  have hv := pointOf_val i
  obtain ⟨-, -, -, -, -, e0, e1, -⟩ := idx_facts0 (pointOf i)
  refine ⟨pointOf i, flush0_3 _, ?_⟩
  rw [mem_blk_rows]
  intro a
  match a with
  | ⟨0, _⟩ =>
    show win0_3.index (pointOf i) (0 : Fin 2) * 1024 ≤ (i 0).val
      ∧ (i 0).val < win0_3.index (pointOf i) (0 : Fin 2) * 1024 + 1024
    omega
  | ⟨1, _⟩ =>
    show win0_3.index (pointOf i) (1 : Fin 2) * 256 ≤ (i 1).val
      ∧ (i 1).val < win0_3.index (pointOf i) (1 : Fin 2) * 256 + 256
    omega

theorem cover_rows_arr_narrow (i : S8192x256.Idx) :
    ∃ t : Fin cfg0.N, (cfg0.win 4).flush t = true ∧ i ∈ ((cfg0.win 4).blk t).view.set := by
  have h0 : (i 0).val < 8192 := (i 0).isLt
  have h1 : (i 1).val < 256 := (i 1).isLt
  have hv := pointOf_val i
  obtain ⟨-, -, -, -, -, -, -, e0, e1⟩ := idx_facts0 (pointOf i)
  refine ⟨pointOf i, flush0_4 _, ?_⟩
  rw [mem_blk_rows_narrow]
  intro a
  match a with
  | ⟨0, _⟩ =>
    show win0_4.index (pointOf i) (0 : Fin 2) * 1024 ≤ (i 0).val
      ∧ (i 0).val < win0_4.index (pointOf i) (0 : Fin 2) * 1024 + 1024
    omega
  | ⟨1, _⟩ =>
    show win0_4.index (pointOf i) (1 : Fin 2) * 256 ≤ (i 1).val
      ∧ (i 1).val < win0_4.index (pointOf i) (1 : Fin 2) * 256 + 256
    omega

/-! ## The two output arrays after the region -/

/-- THE F32 OUTPUT ARRAY after the eight points: the normalized rows of the embedding, weight and bias arrays as the
    region found them. -/
theorem region0_rows (c : Dev nD) :
    ((dat0 V c).arrAt 3 cfg0.N : S8192x256.Idx → EReal)
      = enSpec (V c main_arg0) (V c main_arg2) (V c main_arg3) :=
  (dat0 V c).arrAt_eq_of_cover 3 (enSpec (V c main_arg0) (V c main_arg2) (V c main_arg3))
    (fun t _ => flushed_rows V c t) cover_rows_arr

/-- THE BF16 OUTPUT ARRAY after the eight points: the same function (a bf16 element is an extended real too). -/
theorem region0_rows_narrow (c : Dev nD) :
    ((dat0 V c).arrAt 4 cfg0.N : S8192x256.Idx → EReal)
      = enSpec (V c main_arg0) (V c main_arg2) (V c main_arg3) :=
  (dat0 V c).arrAt_eq_of_cover 4 (enSpec (V c main_arg0) (V c main_arg2) (V c main_arg3))
    (fun t _ => flushed_rows_narrow V c t) cover_rows_arr_narrow

end Cert.KernelIdeal.Hand

end
-- ==== Proof.HostTail.lean ====
/-
  What the program does, on the host, with the normalized rows and the per-row pairwise sums once both
  are known: the mean of the pairwise sums over all 8192 · 8192 pairs, the two prototype losses of the
  normalized rows against the normalized label prototypes, and their half-and-half combination.

  The prototype losses are the same function of the normalized rows on every side of the comparison,
  so they are stated ONCE here (`protoLosses`) and never opened afterwards.
-/
import proofs.«113247_j19061064860121_2_alg».proof.Proof.Gen.KernelIdeal
import Idealize.ShloMosaic.PureOps.Ideal

noncomputable section

namespace Cert.RefValue

open Idealize.ShloMosaic
open Cert.KernelIdeal Cert.KernelIdeal.Gen

/-! ## The prototype losses -/

/-- The label prototypes scaled to unit length: each row of `labelEmb` divided by `max (√(∑ x²)) ε`. -/
def protoUnit (labelEmb : FVec Ideal S10x256 .f32) : FVec Ideal S10x256 .f32 :=
  Host.divf (F := Ideal) labelEmb
    (broadcastInDim S10x256 ![0, 1] bcast_S10x1_S10x256_0_1
      (maximumf
        (Host.sqrt (F := Ideal)
          (broadcastInDim S10x1 ![0] bcast_S10_S10x1_0
            (Host.reduceAdd (F := Ideal) (mulf labelEmb labelEmb) (constant (F := Ideal) S_ .f32 0x00000000#32)
              reducesTo_S10x256_S10_d1 h_S_)))
        (broadcastInDim S10x1 ![] bcast_S_S10x1 (constant (F := Ideal) S_ .f32 0x322BCC77#32))))

/-- The cosines of every row with every prototype: `en · (protoUnit labelEmb)ᵀ`. -/
def protoCos (en : FVec Ideal S8192x256 .f32) (labelEmb : FVec Ideal S10x256 .f32) : FVec Ideal S8192x10 .f32 :=
  Host.dotGeneral (F := Ideal) dot_S8192x256_S256x10_S8192x10_1_0_0_1_n_n none en
    (transpose S256x10 [1, 0] (protoUnit labelEmb) transposes_S10x256_S256x10_1_0)

/-- The row numbers `0 … 8191`, each with the negative-index wrap of an array index (a no-op on them). -/
def rowIndex : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The labels with the negative-index wrap of an array index into an axis of extent 10. -/
def labelIndex (labels : IVec S8192 32) : IVec S8192 32 :=
  select (cmpi .slt labels (broadcastInDim S8192 ![] bcast_S_S8192 (constantI S_ 32 0#32)))
    (addi labels (broadcastInDim S8192 ![] bcast_S_S8192 (constantI S_ 32 10#32)))
    labels

/-- The pairs `(row, label of the row)` a gather of each row's own prototype column reads at. -/
def ownIndex (labels : IVec S8192 32) : IVec S8192x2 32 :=
  concatenate S8192x2 1
    [⟨S8192x1, broadcastInDim S8192x1 ![0] bcast_S8192_S8192x1_0 rowIndex⟩,
     ⟨S8192x1, broadcastInDim S8192x1 ![0] bcast_S8192_S8192x1_0 (labelIndex labels)⟩]
    concatenates_S8192x1_S8192x1_S8192x2_d1

/-- Where a prototype is NOT the row's own: `labels r ≠ l`. -/
def notOwn (labels : IVec S8192 32) : IVec S8192x10 1 :=
  cmpi .ne
    (broadcastInDim S8192x10 ![0, 1] bcast_S8192x1_S8192x10_0_1 (broadcastInDim S8192x1 ![0] bcast_S8192_S8192x1_0 labels))
    (broadcastInDim S8192x10 ![0, 1] bcast_S1x10_S8192x10_0_1 (broadcastInDim S1x10 ![1] bcast_S10_S1x10_1 (iotaInDim S10 32 0)))

/-- One prototype loss: the mean over the rows of `-P + log (neg + exp P)`, `P` each row's cosine with its own
    prototype and `neg` the given per-row sum. -/
def protoMean (P neg : FVec Ideal S8192 .f32) : FVec Ideal S_ .f32 :=
  Host.divf (F := Ideal)
    (Host.reduceAdd (F := Ideal)
      (addf (Host.negf (F := Ideal) P) (Host.log (F := Ideal) (addf neg (Host.exp (F := Ideal) P))))
      (constant (F := Ideal) S_ .f32 0x00000000#32) reducesTo_S8192_S_d0 h_S_)
    (constant (F := Ideal) S_ .f32 0x46000000#32)

/-- The sum of the two prototype losses of the normalized rows `en`: with `S = protoCos`, `E = exp S`,
    `P r = S r (labels r)`: the first loss has `neg r = ∑_{l ≠ labels r} E r l`, the second
    `neg r = (∑_j E j l - ∑_{j : labels j = l} E j (labels j))` at `l = labels r` (the column total less the
    segment sum of the own entries). Carried as one opaque function. -/
def protoLosses (en : FVec Ideal S8192x256 .f32) (labels : IVec S8192 32) (labelEmb : FVec Ideal S10x256 .f32) :
    FVec Ideal S_ .f32 :=
  addf
    (protoMean
      (Host.gather gather_S8192x10_S8192x2_S8192_n_01_n_n_01_1_11 (protoCos en labelEmb) (ownIndex labels))
      (Host.reduceAdd (F := Ideal)
        (select (notOwn labels) (Host.exp (F := Ideal) (protoCos en labelEmb))
          (broadcastInDim S8192x10 ![] bcast_S_S8192x10 (id (constant (F := Ideal) S_ .f32 0x00000000#32))))
        (constant (F := Ideal) S_ .f32 0x00000000#32) reducesTo_S8192x10_S8192_d1 h_S_))
    (protoMean
      (Host.gather gather_S8192x10_S8192x2_S8192_n_01_n_n_01_1_11 (protoCos en labelEmb) (ownIndex labels))
      (Host.gather gather_S10_S8192x1_S8192_n_0_n_n_0_1_1
        (subf
          (Host.reduceAdd (F := Ideal) (Host.exp (F := Ideal) (protoCos en labelEmb))
            (constant (F := Ideal) S_ .f32 0x00000000#32) reducesTo_S8192x10_S10_d0 h_S_)
          (Host.scatterAdd (F := Ideal) scatter_S10_S8192x1_S8192_n_0_0_1
            (broadcastInDim S10 ![] bcast_S_S10 (constant (F := Ideal) S_ .f32 0x00000000#32))
            (broadcastInDim S8192x1 ![0] bcast_S8192_S8192x1_0 labels)
            (Host.gather gather_S8192x10_S8192x2_S8192_n_01_n_n_01_1_11 (Host.exp (F := Ideal) (protoCos en labelEmb))
              (ownIndex labels))))
        (broadcastInDim S8192x1 ![0] bcast_S8192_S8192x1_0 (labelIndex labels))))

/-! ## The whole host tail -/

/-- The mean of the per-row pairwise sums over all `2^26` pairs: their total (from `0`) divided by the value of the
    word `0x4C800000`. -/
def interMean (rowsum : FVec Ideal S8192x1 .f32) : FVec Ideal S_ .f32 :=
  Host.divf (F := Ideal)
    (Host.reduceAdd (F := Ideal) rowsum (constant (F := Ideal) S_ .f32 0x00000000#32) reducesTo_S8192x1_S_d0_1 h_S_)
    (constant (F := Ideal) S_ .f32 0x4C800000#32)

/-- The result: `½ · interMean rowsum + ½ · protoLosses en labels labelEmb`, the halves being the word `0x3F000000`. -/
def hostTail (en : FVec Ideal S8192x256 .f32) (rowsum : FVec Ideal S8192x1 .f32) (labels : IVec S8192 32)
    (labelEmb : FVec Ideal S10x256 .f32) : FVec Ideal S_ .f32 :=
  addf (mulf (constant (F := Ideal) S_ .f32 0x3F000000#32) (interMean rowsum))
    (mulf (constant (F := Ideal) S_ .f32 0x3F000000#32) (protoLosses en labels labelEmb))

end Cert.RefValue

end
-- ==== Proof.KernelTail.lean ====
/-
  The kernel program's host operations, read back over an arbitrary valuation of its buffers.

  After the second region the program only adds, divides and compares whole arrays: from the normalized rows, the
  per-row pairwise sums, the labels and the label prototypes it forms exactly `hostTail`.
-/
import proofs.«113247_j19061064860121_2_alg».proof.Proof.Gen.KernelIdeal.Regions
import proofs.«113247_j19061064860121_2_alg».proof.Proof.HostTail
import Idealize.ShloMosaic.Lib.StableHlo.Run

noncomputable section

namespace Cert.RefValue

open Idealize.ShloMosaic Idealize.ShloMosaic.StableHlo
open Cert.KernelIdeal Cert.KernelIdeal.Gen

/-! ## After the second region -/

set_option maxHeartbeats 8000000 in
/-- The three host stretches after the second region, run from any valuation `Wv`, leave in the result buffer
    `hostTail` of `Wv`'s normalized rows, per-row sums, labels and label prototypes. -/
theorem tail_result (Wv : Valuation τ sig (Elt Ideal)) :
    (StableHlo.after (hostOps2_2 (F := Ideal)) (StableHlo.after (hostOps2_1 (F := Ideal))
        (StableHlo.after (hostOps2 (F := Ideal)) Wv)) (Proc.devRef .tc main_v83) : S_.Idx → EReal)
      = hostTail (Wv (Proc.devRef .tc main_v0_0)) (Wv (Proc.devRef .tc main_v3)) (Wv (Proc.devRef .tc main_arg1))
          (Wv (Proc.devRef .tc main_arg4)) := by
  after_results_simp
  rfl

end Cert.RefValue

end
-- ==== Proof.KernelLabels.lean ====
/-
  The kernel program's host operations between its two regions, read back over an arbitrary valuation of its
  buffers: they only re-lay the labels as a column and as a row — entry `(r, 0)` of the column and entry `(0, j)` of
  the row are the labels at `r` and at `j` — and touch nothing else.
-/
import proofs.«113247_j19061064860121_2_alg».proof.Proof.Gen.KernelIdeal.Regions
import Idealize.ShloMosaic.Lib.StableHlo.Run
import Idealize.ShloMosaic.Lib.Pipeline.Value
import Idealize.ShloMosaic.Lib.ValueIdx

noncomputable section

namespace Cert.RefValue

open Idealize.ShloMosaic Idealize.ShloMosaic.StableHlo Idealize.ShloMosaic.ValueIdx
open Cert.KernelIdeal Cert.KernelIdeal.Gen

/-! ## Between the regions: the labels as a column and as a row -/

/-- The labels re-laid as a column: entry `(r, 0)` is the label of row `r`. -/
theorem labels_col_apply (Wv : Valuation τ sig (Elt Ideal)) (r : Fin 8192) (z : Fin 1) :
    (StableHlo.after (hostOps1 (F := Ideal)) Wv (Proc.devRef .tc main_v1) : S8192x1.Idx → BitVec 32) (ix2 r z)
      = (Wv (Proc.devRef .tc main_arg1) : S8192.Idx → BitVec 32) (ix1 r) := by
  after_results
  refine shapeCast_apply _ _ _ _ ?_
  show ((⟨1, ![8192]⟩ : Shape).rowMajor (ix1 r)).val = ((⟨2, ![8192, 1]⟩ : Shape).rowMajor (ix2 r z)).val
  rw [Shape.rowMajor_val_two, Shape.rowMajor_val_one]
  show r.val = r.val * 1 + z.val
  omega

/-- The labels re-laid as a row: entry `(0, j)` is the label of row `j`. -/
theorem labels_row_apply (Wv : Valuation τ sig (Elt Ideal)) (u : Fin 1) (j : Fin 8192) :
    (StableHlo.after (hostOps1 (F := Ideal)) Wv (Proc.devRef .tc main_v2) : S1x8192.Idx → BitVec 32) (ix2 u j)
      = (Wv (Proc.devRef .tc main_arg1) : S8192.Idx → BitVec 32) (ix1 j) := by
  after_results
  refine shapeCast_apply _ _ _ _ ?_
  show ((⟨1, ![8192]⟩ : Shape).rowMajor (ix1 j)).val = ((⟨2, ![1, 8192]⟩ : Shape).rowMajor (ix2 u j)).val
  rw [Shape.rowMajor_val_two, Shape.rowMajor_val_one]
  show j.val = u.val * 8192 + j.val
  omega

/-- The re-laying writes the column and the row and nothing else. -/
theorem hostOps1_keeps (Wv : Valuation τ sig (Elt Ideal)) (r : Ref sig .tc) (h : r ∉ hostOps1_W) :
    StableHlo.after (hostOps1 (F := Ideal)) Wv (Proc.devRef .tc r) = Wv (Proc.devRef .tc r) :=
  StableHlo.after_of_writes_sub hostOps1 Wv hostOps1_writes h

theorem hostOps1_main_v0_0 (Wv : Valuation τ sig (Elt Ideal)) :
    StableHlo.after (hostOps1 (F := Ideal)) Wv (Proc.devRef .tc main_v0_0) = Wv (Proc.devRef .tc main_v0_0) :=
  hostOps1_keeps Wv main_v0_0 (by decide)
theorem hostOps1_main_v0_1 (Wv : Valuation τ sig (Elt Ideal)) :
    StableHlo.after (hostOps1 (F := Ideal)) Wv (Proc.devRef .tc main_v0_1) = Wv (Proc.devRef .tc main_v0_1) :=
  hostOps1_keeps Wv main_v0_1 (by decide)
theorem hostOps1_main_arg0 (Wv : Valuation τ sig (Elt Ideal)) :
    StableHlo.after (hostOps1 (F := Ideal)) Wv (Proc.devRef .tc main_arg0) = Wv (Proc.devRef .tc main_arg0) :=
  hostOps1_keeps Wv main_arg0 (by decide)
theorem hostOps1_main_arg1 (Wv : Valuation τ sig (Elt Ideal)) :
    StableHlo.after (hostOps1 (F := Ideal)) Wv (Proc.devRef .tc main_arg1) = Wv (Proc.devRef .tc main_arg1) :=
  hostOps1_keeps Wv main_arg1 (by decide)
theorem hostOps1_main_arg2 (Wv : Valuation τ sig (Elt Ideal)) :
    StableHlo.after (hostOps1 (F := Ideal)) Wv (Proc.devRef .tc main_arg2) = Wv (Proc.devRef .tc main_arg2) :=
  hostOps1_keeps Wv main_arg2 (by decide)
theorem hostOps1_main_arg3 (Wv : Valuation τ sig (Elt Ideal)) :
    StableHlo.after (hostOps1 (F := Ideal)) Wv (Proc.devRef .tc main_arg3) = Wv (Proc.devRef .tc main_arg3) :=
  hostOps1_keeps Wv main_arg3 (by decide)
theorem hostOps1_main_arg4 (Wv : Valuation τ sig (Elt Ideal)) :
    StableHlo.after (hostOps1 (F := Ideal)) Wv (Proc.devRef .tc main_arg4) = Wv (Proc.devRef .tc main_arg4) :=
  hostOps1_keeps Wv main_arg4 (by decide)

end Cert.RefValue

end
-- ==== Proof.KernelValue.lean ====
/-
  The idealized kernel program's result as a closed term of its arguments.

  On the extended reals: the first region leaves, in both of its outputs, the unit-length rows of `embedding · Wᵀ + b`;
  the two reshapes lay the labels out as a column and as a row; the second region leaves, row by row, the sum over all
  columns of the pairwise loss terms of those rows and labels; the closing host operations are applied to these and to
  the labels and the prototype matrix as launched.  The second kernel's value at one grid point is a hypothesis here
  (`PointRows`), supplied by the module that computes it.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.RunFrame
import proofs.«113247_j19061064860121_2_alg».proof.Proof.Region1Value
import proofs.«113247_j19061064860121_2_alg».proof.Proof.Region0Value
import proofs.«113247_j19061064860121_2_alg».proof.Proof.KernelTail
import proofs.«113247_j19061064860121_2_alg».proof.Proof.KernelLabels
import proofs.«113247_j19061064860121_2_alg».proof.Proof.Spec
import proofs.«113247_j19061064860121_2_alg».proof.Proof.HostTail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.RefValue

/-- The second kernel's value at a grid point: whenever the region's input arrays hold rows `en` (narrowed), the labels
    `lab` as a column and `lab` as a row, the call at point `t` leaves in row `p` of its block the row sum of global row
    `256·t + p`. -/
def PointRows (rowFn : RowFn Ideal) : Prop :=
  ∀ (V : (c : Dev nD) → (b : Ref sig .tc) → Buf (Elt Ideal) ((c : Thread nD τ).loc b)) (c : Dev nD)
    (en : FVec Ideal S8192x256 .f32) (lab : IVec S8192 32)
    (hen : ∀ (j : Fin 8192) (k : Fin 256), (V c main_v0_1 : S8192x256.Idx → EReal) (ix2 j k) = en (ix2 j k))
    (hcol : ∀ (r : Fin 8192) (z : Fin 1), (V c main_v1 : S8192x1.Idx → BitVec 32) (ix2 r z) = lab (ix1 r))
    (hrow : ∀ (u : Fin 1) (j : Fin 8192), (V c main_v2 : S1x8192.Idx → BitVec 32) (ix2 u j) = lab (ix1 j))
    (t : Fin cfg1.N) (p : Fin 256) (z : Fin 1),
    rowFn (grid1.coords t) (inBlock1 V c 0 t) (inBlock1 V c 1 t) (inBlock1 V c 2 t) (inBlock1 V c 3 t) (ix2 p z : S256x1.Idx)
      = rowsumSpec en lab (ix2 (rowAt1 t p) z : S8192x1.Idx)

variable (m : (ℓ : Loc nD τ sig) → Buf (Elt Ideal) ℓ)
variable (rowFn : RowFn Ideal)

/-- The unit-length rows of core `c`'s arguments. -/
abbrev rowsOf (c : Dev nD) : FVec Ideal S8192x256 .f32 :=
  enSpec (m ((c : Thread nD τ).loc main_arg0)) (m ((c : Thread nD τ).loc main_arg2)) (m ((c : Thread nD τ).loc main_arg3))

/-! ## After the first region -/

theorem after0_rows (c : Dev nD) : (W1 m c (Proc.devRef .tc main_v0_0) : S8192x256.Idx → EReal) = rowsOf m c :=
  (W1_arr m c 3).trans (region0_rows (E0 m) c)

theorem after0_rows_narrow (c : Dev nD) : (W1 m c (Proc.devRef .tc main_v0_1) : S8192x256.Idx → EReal) = rowsOf m c :=
  (W1_arr m c 4).trans (region0_rows_narrow (E0 m) c)

theorem after0_labels (c : Dev nD) : W1 m c (Proc.devRef .tc main_arg1) = m ((c : Thread nD τ).loc main_arg1) :=
  W1_of_ne m c main_arg1 (by decide)

theorem after0_protos (c : Dev nD) : W1 m c (Proc.devRef .tc main_arg4) = m ((c : Thread nD τ).loc main_arg4) :=
  W1_of_ne m c main_arg4 (by decide)

/-! ## The second region's entry -/

theorem entry1_rows (c : Dev nD) (j : Fin 8192) (k : Fin 256) :
    (E2 m c main_v0_1 : S8192x256.Idx → EReal) (ix2 j k) = rowsOf m c (ix2 j k) := by
  show (StableHlo.after (hostOps1 (F := Ideal)) (W1 m c) (Proc.devRef .tc main_v0_1) : S8192x256.Idx → EReal) (ix2 j k) = _
  rw [hostOps1_main_v0_1, after0_rows_narrow]

theorem entry1_col (c : Dev nD) (r : Fin 8192) (z : Fin 1) :
    (E2 m c main_v1 : S8192x1.Idx → BitVec 32) (ix2 r z) = (m ((c : Thread nD τ).loc main_arg1) : S8192.Idx → BitVec 32) (ix1 r) := by
  show (StableHlo.after (hostOps1 (F := Ideal)) (W1 m c) (Proc.devRef .tc main_v1) : S8192x1.Idx → BitVec 32) (ix2 r z) = _
  rw [labels_col_apply, after0_labels]

theorem entry1_row (c : Dev nD) (u : Fin 1) (j : Fin 8192) :
    (E2 m c main_v2 : S1x8192.Idx → BitVec 32) (ix2 u j) = (m ((c : Thread nD τ).loc main_arg1) : S8192.Idx → BitVec 32) (ix1 j) := by
  show (StableHlo.after (hostOps1 (F := Ideal)) (W1 m c) (Proc.devRef .tc main_v2) : S1x8192.Idx → BitVec 32) (ix2 u j) = _
  rw [labels_row_apply, after0_labels]

/-! ## After the second region -/

theorem after1_sums (hpoint : PointRows rowFn) (c : Dev nD) :
    (W3 m rowFn c (Proc.devRef .tc main_v3) : S8192x1.Idx → EReal) = rowsumSpec (rowsOf m c) (m ((c : Thread nD τ).loc main_arg1)) :=
  (W3_rows m rowFn c).trans <|
    rows_final (E2 m) rowFn c (rowsumSpec (rowsOf m c) (m ((c : Thread nD τ).loc main_arg1))) fun t p z =>
      hpoint (E2 m) c (rowsOf m c) (m ((c : Thread nD τ).loc main_arg1)) (entry1_rows m c) (entry1_col m c) (entry1_row m c) t p z

theorem after1_rows (c : Dev nD) : (W3 m rowFn c (Proc.devRef .tc main_v0_0) : S8192x256.Idx → EReal) = rowsOf m c := by
  rw [W3_of_ne m rowFn c main_v0_0 (by decide)]
  show (StableHlo.after (hostOps1 (F := Ideal)) (W1 m c) (Proc.devRef .tc main_v0_0) : S8192x256.Idx → EReal) = _
  rw [hostOps1_main_v0_0, after0_rows]

theorem after1_labels (c : Dev nD) : W3 m rowFn c (Proc.devRef .tc main_arg1) = m ((c : Thread nD τ).loc main_arg1) := by
  rw [W3_of_ne m rowFn c main_arg1 (by decide)]
  show StableHlo.after (hostOps1 (F := Ideal)) (W1 m c) (Proc.devRef .tc main_arg1) = _
  rw [hostOps1_main_arg1, after0_labels]

theorem after1_protos (c : Dev nD) : W3 m rowFn c (Proc.devRef .tc main_arg4) = m ((c : Thread nD τ).loc main_arg4) := by
  rw [W3_of_ne m rowFn c main_arg4 (by decide)]
  show StableHlo.after (hostOps1 (F := Ideal)) (W1 m c) (Proc.devRef .tc main_arg4) = _
  rw [hostOps1_main_arg4, after0_protos]

/-! ## The result -/

/-- THE RESULT of the idealized kernel program on core `c`: the closing host operations of the unit-length rows, their row
    sums, the labels and the prototypes. -/
theorem kernel_value (hpoint : PointRows rowFn) (c : Dev nD) :
    (W6 m rowFn c (Proc.devRef .tc main_v83) : S_.Idx → EReal)
      = hostTail (rowsOf m c) (rowsumSpec (rowsOf m c) (m ((c : Thread nD τ).loc main_arg1)))
          (m ((c : Thread nD τ).loc main_arg1)) (m ((c : Thread nD τ).loc main_arg4)) := by
  show (StableHlo.after (hostOps2_2 (F := Ideal)) (StableHlo.after (hostOps2_1 (F := Ideal)) (StableHlo.after (hostOps2 (F := Ideal)) (W3 m rowFn c)))
    (Proc.devRef .tc main_v83) : S_.Idx → EReal) = _
  rw [tail_result, after1_rows, after1_sums m rowFn hpoint, after1_labels, after1_protos]

end Cert.KernelIdeal.Hand

end
-- ==== Proof.SpecChunks.lean ====
/-
  A sum over the 8192 columns, taken eight blocks of 1024 columns at a time: on a commutative monoid the blocked
  sum is the whole sum (column `j` is `1024 · ch + q` for exactly one block `ch` and offset `q`), and so is the
  running total that starts at zero and adds the blocks' sums one after the other.
-/
import proofs.«113247_j19061064860121_2_alg».proof.Proof.Spec

noncomputable section

open scoped BigOperators

namespace Cert.RefValue

open Idealize.ShloMosaic Idealize.ShloMosaic.ValueIdx
open Cert.KernelIdeal (S8192x256 S8192)

/-- Column `1024 · ch + q`, for a block `ch < 8` and an offset `q < 1024`. -/
def colAt (ch : Fin 8) (q : Fin 1024) : Fin 8192 := ⟨1024 * ch.val + q.val, by omega⟩

theorem colAt_val (ch : Fin 8) (q : Fin 1024) : (colAt ch q).val = 1024 * ch.val + q.val := rfl

/-- The columns are the pairs (block, offset). -/
def colEquiv : Fin 8 × Fin 1024 ≃ Fin 8192 where
  toFun p := colAt p.1 p.2
  invFun j := (⟨j.val / 1024, by omega⟩, ⟨j.val % 1024, by omega⟩)
  left_inv p := by
    obtain ⟨a, q⟩ := p
    refine Prod.ext (Fin.ext ?_) (Fin.ext ?_)
    · show (1024 * a.val + q.val) / 1024 = a.val
      omega
    · show (1024 * a.val + q.val) % 1024 = q.val
      omega
  right_inv j := Fin.ext (by
    show 1024 * (j.val / 1024) + j.val % 1024 = j.val
    omega)

/-- A sum over all columns is the sum, over the eight blocks, of each block's sum. -/
theorem sum_cols {M : Type*} [AddCommMonoid M] (f : Fin 8192 → M) :
    ∑ j : Fin 8192, f j = ∑ ch : Fin 8, ∑ q : Fin 1024, f (colAt ch q) :=
  ((Equiv.sum_comp colEquiv f).symm.trans (Fintype.sum_prod_type _))

/-- … and as a running total: from zero, the eight block sums added one after the other. -/
theorem sum_cols_fold {M : Type*} [AddCommMonoid M] (f : Fin 8192 → M) :
    ∑ j : Fin 8192, f j
      = 0 + (∑ q : Fin 1024, f (colAt 0 q)) + (∑ q : Fin 1024, f (colAt 1 q)) + (∑ q : Fin 1024, f (colAt 2 q))
        + (∑ q : Fin 1024, f (colAt 3 q)) + (∑ q : Fin 1024, f (colAt 4 q)) + (∑ q : Fin 1024, f (colAt 5 q))
        + (∑ q : Fin 1024, f (colAt 6 q)) + (∑ q : Fin 1024, f (colAt 7 q)) := by
  rw [sum_cols, Fin.sum_univ_eight, zero_add]

/-- Row `r`'s sum of `exp` over the rows of a different label, block by block. -/
theorem negsumAt_chunks (en : FVec Ideal S8192x256 .f32) (labels : IVec S8192 32) (r : Fin 8192) :
    negsumAt en labels r
      = ∑ ch : Fin 8, ∑ q : Fin 1024,
          if labels (ix1 r) = labels (ix1 (colAt ch q)) then 0 else Ideal.exp (cosAt en r (colAt ch q)) :=
  sum_cols _

/-- The same as the running total from zero. -/
theorem negsumAt_fold (en : FVec Ideal S8192x256 .f32) (labels : IVec S8192 32) (r : Fin 8192) :
    negsumAt en labels r
      = 0 + (∑ q : Fin 1024, if labels (ix1 r) = labels (ix1 (colAt 0 q)) then 0 else Ideal.exp (cosAt en r (colAt 0 q)))
        + (∑ q : Fin 1024, if labels (ix1 r) = labels (ix1 (colAt 1 q)) then 0 else Ideal.exp (cosAt en r (colAt 1 q)))
        + (∑ q : Fin 1024, if labels (ix1 r) = labels (ix1 (colAt 2 q)) then 0 else Ideal.exp (cosAt en r (colAt 2 q)))
        + (∑ q : Fin 1024, if labels (ix1 r) = labels (ix1 (colAt 3 q)) then 0 else Ideal.exp (cosAt en r (colAt 3 q)))
        + (∑ q : Fin 1024, if labels (ix1 r) = labels (ix1 (colAt 4 q)) then 0 else Ideal.exp (cosAt en r (colAt 4 q)))
        + (∑ q : Fin 1024, if labels (ix1 r) = labels (ix1 (colAt 5 q)) then 0 else Ideal.exp (cosAt en r (colAt 5 q)))
        + (∑ q : Fin 1024, if labels (ix1 r) = labels (ix1 (colAt 6 q)) then 0 else Ideal.exp (cosAt en r (colAt 6 q)))
        + (∑ q : Fin 1024, if labels (ix1 r) = labels (ix1 (colAt 7 q)) then 0 else Ideal.exp (cosAt en r (colAt 7 q))) :=
  sum_cols_fold _

/-- Row `r`'s pairwise loss, block by block. -/
theorem rowsumSpec_chunks (en : FVec Ideal S8192x256 .f32) (labels : IVec S8192 32) (r : Fin 8192) (z : Fin 1) :
    rowsumSpec en labels (ix2 r z) = ∑ ch : Fin 8, ∑ q : Fin 1024, termAt en labels r (colAt ch q) :=
  sum_cols _

/-- The same as the running total from zero. -/
theorem rowsumSpec_fold (en : FVec Ideal S8192x256 .f32) (labels : IVec S8192 32) (r : Fin 8192) (z : Fin 1) :
    rowsumSpec en labels (ix2 r z)
      = 0 + (∑ q : Fin 1024, termAt en labels r (colAt 0 q)) + (∑ q : Fin 1024, termAt en labels r (colAt 1 q))
        + (∑ q : Fin 1024, termAt en labels r (colAt 2 q)) + (∑ q : Fin 1024, termAt en labels r (colAt 3 q))
        + (∑ q : Fin 1024, termAt en labels r (colAt 4 q)) + (∑ q : Fin 1024, termAt en labels r (colAt 5 q))
        + (∑ q : Fin 1024, termAt en labels r (colAt 6 q)) + (∑ q : Fin 1024, termAt en labels r (colAt 7 q)) :=
  sum_cols_fold _

end Cert.RefValue

end
-- ==== Proof.Region1PointLib.lean ====
/-
  The second kernel region's arithmetic, one step at a time, read at an element on the extended reals.

  Every chunk of 1024 columns goes through the same few steps: the label comparison of the block's rows with the
  chunk's columns; the comparison of the global row number with the global column number (the diagonal); the sum over
  the chunk's lanes of a masked exponential, added to a running per-row total (first sweep); and the sum over the
  chunk's lanes of the pair terms, added to a second running total (second sweep). Each step is stated here over
  abstract operands and read at the element `(p, q)` of the chunk or at the row `p` of a running total.
-/
import proofs.«113247_j19061064860121_2_alg».proof.Proof.Gen.KernelIdeal.Skeleton
import proofs.«113247_j19061064860121_2_alg».proof.Proof.LibKeepdimsColumn
import proofs.«113247_j19061064860121_2_alg».proof.Proof.SpecChunks
import Idealize.ShloMosaic.Lib.Pipeline.Value
import Idealize.ShloMosaic.Lib.ValueIdx
import Idealize.ShloMosaic.Lib.ValueLayout
import Idealize.ShloMosaic.Lib.WordArith
import Idealize.ShloMosaic.Lib.IdealHost
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx
open Cert.RefValue (colAt colAt_val)

/-! ## One-bit words -/

theorem sel_ofBool {α : Type} (b : Bool) (x y : α) : Scalar.select (BitVec.ofBool b) x y = if b then x else y := by
  cases b
  · exact select_zero x y
  · exact select_one x y

theorem xori_ofBool_one (b : Bool) : IntOp.xori (BitVec.ofBool b) 1#1 = BitVec.ofBool (!b) := by cases b <;> decide

/-! ## The masks -/

/-- Where the block's row and the chunk's column carry the same label. -/
def sameMask (lab : IVec S256x1 32) (v : Vec Ideal S1x1024 .i32) : IVec S256x1024 1 :=
  cmpi .eq (broadcastTo S256x1024 lab broadcasts_S256x1_S256x1024)
    (broadcastTo S256x1024 (shapeCast S1x1024 v shapeCasts_S1x1024_S1x1024) broadcasts_S1x1024_S256x1024)

/-- The global row number of each entry of a chunk: the block's first row plus the row inside the block. -/
def rowIdx (base : BitVec 32) : IVec S256x1024 32 :=
  addi (broadcast S256x1024 base) (iota .tc S256x1024 32 [0] iota_S256x1024_d0_w32)

/-- The global column number of each entry of a chunk: the chunk's first column plus the column inside the chunk. -/
def colIdx (off : BitVec 32) : IVec S256x1024 32 :=
  addi (broadcast S256x1024 off) (iota .tc S256x1024 32 [1] iota_S256x1024_d1_w32)

/-- Where an entry of a chunk lies on the diagonal of the whole square array. -/
def eyeMask (base off : BitVec 32) : IVec S256x1024 1 := cmpi .eq (rowIdx base) (colIdx off)

theorem sameMask_apply (lab : IVec S256x1 32) (v : Vec Ideal S1x1024 .i32) (p : Fin 256) (q : Fin 1024) :
    sameMask lab v (ix2 p q) = BitVec.ofBool (lab (ix2 p (0 : Fin 1)) == v (ix2 (0 : Fin 1) q)) := by
  show IntOp.cmpi .eq (broadcastTo S256x1024 lab broadcasts_S256x1_S256x1024 (ix2 p q))
      (broadcastTo S256x1024 (shapeCast S1x1024 v shapeCasts_S1x1024_S1x1024) broadcasts_S1x1024_S256x1024 (ix2 p q)) = _
  rw [KeepdimsColumn.broadcastTo_a1_ab_apply, broadcastTo_1b_ab_apply, shapeCast_self]
  rfl

theorem eyeMask_apply (base off : BitVec 32) (p : Fin 256) (q : Fin 1024) :
    eyeMask base off (ix2 p q) = BitVec.ofBool (base + BitVec.ofNat 32 p.val == off + BitVec.ofNat 32 q.val) := by
  show BitVec.ofBool (base + BitVec.ofNat 32 (0 * 256 + p.val) == off + BitVec.ofNat 32 (0 * 1024 + q.val)) = _
  simp only [Nat.zero_mul, Nat.zero_add]

/-- Global row `256 · b + p` of block `b < 32`. -/
def rowG (b : Fin 32) (p : Fin 256) : Fin 8192 := ⟨256 * b.val + p.val, by omega⟩

/-- The diagonal word decides the equation of the global row with the global column: all the numbers are below
    `8192`, far from where 32-bit arithmetic wraps. -/
theorem eye_decide (b : Fin 32) (ch : Fin 8) (p : Fin 256) (q : Fin 1024) (off : ℕ) (hoff : off = 1024 * ch.val) :
    (Scalar.muli (BitVec.ofNat 32 b.val) 256#32 + BitVec.ofNat 32 p.val == BitVec.ofNat 32 off + BitVec.ofNat 32 q.val)
      = decide (rowG b p = colAt ch q) := by
  have hb := b.isLt
  have hc := ch.isLt
  have hp := p.isLt
  have hq := q.isLt
  subst hoff
  have hl : (Scalar.muli (BitVec.ofNat 32 b.val) 256#32 + BitVec.ofNat 32 p.val).toNat = 256 * b.val + p.val := by
    show (BitVec.ofNat 32 b.val * 256#32 + BitVec.ofNat 32 p.val).toNat = _
    rw [BitVec.toNat_add, BitVec.toNat_mul, BitVec.toNat_ofNat, BitVec.toNat_ofNat, BitVec.toNat_ofNat]
    omega
  have hr : (BitVec.ofNat 32 (1024 * ch.val) + BitVec.ofNat 32 q.val).toNat = 1024 * ch.val + q.val := by
    rw [BitVec.toNat_add, BitVec.toNat_ofNat, BitVec.toNat_ofNat]
    omega
  by_cases h : rowG b p = colAt ch q
  · rw [decide_eq_true h]
    refine beq_iff_eq.mpr (BitVec.eq_of_toNat_eq ?_)
    rw [hl, hr]
    exact congrArg Fin.val h
  · rw [decide_eq_false h]
    refine beq_eq_false_iff_ne.mpr fun he => h (Fin.ext ?_)
    have := congrArg BitVec.toNat he
    rw [hl, hr] at this
    exact this

/-! ## The sum over a chunk's lanes, kept as a column -/

/-- Per row, the sum over the 1024 lanes of a chunk, as a `256 × 1` column. -/
def laneCol (v : FVec Ideal S256x1024 .f32) : FVec Ideal S256x1 .f32 :=
  shapeCast S256x1 (multiReduction .add [1] S256 v 0x00000000#32 reduces_S256x1024_S256 (.inl rfl) rfl)
    shapeCasts_S256_S256x1

theorem laneCol_apply (v : FVec Ideal S256x1024 .f32) (p : Fin 256) (z : Fin 1) :
    laneCol v (ix2 p z) = ∑ q : Fin 1024, v (ix2 p q) := by
  unfold laneCol
  rw [KeepdimsColumn.shapeCast_a_a1_apply]
  refine (Ideal.multiReduction_add_single v 0x00000000#32 reduces_S256x1024_S256 (.inl rfl) rfl (ix1 p)).trans ?_
  refine Finset.sum_congr rfl fun q _ => congrArg v (funext fun a => Fin.ext ?_)
  match a with
  | ⟨0, _⟩ => rfl
  | ⟨1, _⟩ => rfl

/-! ## One step of each sweep -/

/-- First sweep: the running total plus, per row, the chunk's sum of `E` over the lanes of a different label. -/
def negStep (acc : FVec Ideal S256x1 .f32) (same : IVec S256x1024 1) (E : FVec Ideal S256x1024 .f32) :
    FVec Ideal S256x1 .f32 :=
  addf acc (laneCol (select same (broadcast S256x1024 (Scalar.ofBits (F := Ideal) .f32 0x00000000#32)) E))

/-- Second sweep: the running total plus, per row, the chunk's sum of the pair terms off the diagonal. -/
def termStep (acc neg : FVec Ideal S256x1 .f32) (same eye : IVec S256x1024 1) (C E : FVec Ideal S256x1024 .f32) :
    FVec Ideal S256x1 .f32 :=
  addf acc (laneCol
    (select eye (broadcast S256x1024 (Scalar.ofBits (F := Ideal) .f32 0x00000000#32))
      (addf
        (subf (broadcast S256x1024 (Scalar.ofBits (F := Ideal) .f32 0x00000000#32))
          (select (andi same (xori eye (constantI S256x1024 1 1#1))) C
            (broadcast S256x1024 (Scalar.ofBits (F := Ideal) .f32 0x00000000#32))))
        (log (addf (broadcastTo S256x1024 neg broadcasts_S256x1_S256x1024)
          (select (andi same (xori eye (constantI S256x1024 1 1#1))) E
            (broadcast S256x1024 (Scalar.ofBits (F := Ideal) .f32 0x3F800000#32))))))))

theorem negStep_apply (acc : FVec Ideal S256x1 .f32) (same : IVec S256x1024 1) (E : FVec Ideal S256x1024 .f32)
    (p : Fin 256) (z : Fin 1) (s : Fin 1024 → Bool) (hs : ∀ q, same (ix2 p q) = BitVec.ofBool (s q)) :
    negStep acc same E (ix2 p z) = acc (ix2 p z) + ∑ q : Fin 1024, if s q then 0 else E (ix2 p q) := by
  unfold negStep
  rw [addf_apply, laneCol_apply]
  refine congrArg (acc (ix2 p z) + ·) (Finset.sum_congr rfl fun q _ => ?_)
  show Scalar.select (same (ix2 p q)) (Ideal.ofBits .f32 0x00000000#32) (E (ix2 p q)) = _
  rw [hs q, sel_ofBool, Ideal.ofBits_zero_f32]

theorem termStep_apply (acc neg : FVec Ideal S256x1 .f32) (same eye : IVec S256x1024 1)
    (C E : FVec Ideal S256x1024 .f32) (p : Fin 256) (z : Fin 1) (s e : Fin 1024 → Bool)
    (hs : ∀ q, same (ix2 p q) = BitVec.ofBool (s q)) (he : ∀ q, eye (ix2 p q) = BitVec.ofBool (e q)) :
    termStep acc neg same eye C E (ix2 p z)
      = acc (ix2 p z) + ∑ q : Fin 1024,
          if e q then 0
          else -(if (s q && !e q) then C (ix2 p q) else 0)
            + Ideal.log (neg (ix2 p (0 : Fin 1)) + (if (s q && !e q) then E (ix2 p q) else 1)) := by
  unfold termStep
  rw [addf_apply, laneCol_apply]
  refine congrArg (acc (ix2 p z) + ·) (Finset.sum_congr rfl fun q _ => ?_)
  show Scalar.select (eye (ix2 p q)) (Ideal.ofBits .f32 0x00000000#32)
      ((Ideal.ofBits .f32 0x00000000#32
          - Scalar.select (IntOp.andi (same (ix2 p q)) (IntOp.xori (eye (ix2 p q)) 1#1)) (C (ix2 p q))
              (Ideal.ofBits .f32 0x00000000#32))
        + Ideal.log (broadcastTo S256x1024 neg broadcasts_S256x1_S256x1024 (ix2 p q)
            + Scalar.select (IntOp.andi (same (ix2 p q)) (IntOp.xori (eye (ix2 p q)) 1#1)) (E (ix2 p q))
                (Ideal.ofBits .f32 0x3F800000#32))) = _
  rw [KeepdimsColumn.broadcastTo_a1_ab_apply, hs q, he q, xori_ofBool_one, WordArith.andi_ofBool, sel_ofBool,
    sel_ofBool, sel_ofBool, Ideal.ofBits_zero_f32, Ideal.ofBits_one_f32, zero_sub]

end Cert.KernelIdeal.Hand

end
-- ==== Proof.Region1PointProducts.lean ====
/-
  The second kernel region's chunk products at one element, on the extended reals.

  For each of the eight column chunks of 1024 rows of the full matrix `x1`, a call forms `C = x0 · chunkᵀ` (the chunk
  transposed, the product accumulated into zero) and its exponential. On the extended reals a bf16 element is an extended
  real and a contraction is the exact sum, a cast to the same shape moves nothing, and a load through the unit-stride
  rectangle of chunk `K` reads row `1024·K + q` of the full matrix. So entry `(p, q)` of chunk `K`'s product is the sum
  over `k` of `x0 (p, k) · x1 (1024·K + q, k)`, and entry `(p, q)` of its exponential is the exponential of that sum.
-/
import proofs.«113247_j19061064860121_2_alg».proof.Proof.Body1Defs
import proofs.«113247_j19061064860121_2_alg».proof.Proof.SpecChunks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx
open Cert.RefValue (colAt colAt_val)

/-! ## The product `[256, 256] × [256, 1024]` at an element -/

/-- The left operand's row coordinate is the result's row coordinate. -/
theorem cprod_lhs_row (i : S256x1024.Idx) (k : dot_S256x256_S256x1024_S256x1024_1_0_0_1_n_n.contr.Idx) :
    (dot_S256x256_S256x1024_S256x1024_1_0_0_1_n_n.lhsIdx i k 0).val = (i 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl

/-- The right operand's column coordinate is the result's column coordinate. -/
theorem cprod_rhs_col (i : S256x1024.Idx) (k : dot_S256x256_S256x1024_S256x1024_1_0_0_1_n_n.contr.Idx) :
    (dot_S256x256_S256x1024_S256x1024_1_0_0_1_n_n.rhsIdx i k 1).val = (i 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- The product into the zero matrix, at `(p, q)`: the sum over `k` of `lhs (p, k) · rhs (k, q)`, whatever the operands'
    formats and the requested precision. -/
theorem cprod_apply {φ₁ φ₂ : FTy} (prec : Option ContractPrecision) (lhs : FVec Ideal S256x256 φ₁) (rhs : FVec Ideal S256x1024 φ₂)
    (p : Fin 256) (q : Fin 1024) :
    FloatOps.matmul dot_S256x256_S256x1024_S256x1024_1_0_0_1_n_n prec lhs rhs (constant (F := Ideal) S256x1024 .f32 0x00000000#32) (ix2 p q)
      = ∑ k : Fin 256, lhs (ix2 p k) * rhs (ix2 k q) := by
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p q) ((contrEquiv1 dot_S256x256_S256x1024_S256x1024_1_0_0_1_n_n 256 rfl rfl).symm k) = ix2 p k :=
    funext fun a => Fin.ext (by
      match a with
      | ⟨0, _⟩ => exact cprod_lhs_row _ _
      | ⟨1, _⟩ => exact (dot_S256x256_S256x1024_S256x1024_1_0_0_1_n_n.lhsIdx_val_of_single rfl _ _).trans hk)
  have er : dot_S256x256_S256x1024_S256x1024_1_0_0_1_n_n.rhsIdx (ix2 p q) ((contrEquiv1 dot_S256x256_S256x1024_S256x1024_1_0_0_1_n_n 256 rfl rfl).symm k) = ix2 k q :=
    funext fun a => Fin.ext (by
      match a with
      | ⟨0, _⟩ => exact (dot_S256x256_S256x1024_S256x1024_1_0_0_1_n_n.rhsIdx_val_of_single rfl _ _).trans hk
      | ⟨1, _⟩ => exact cprod_rhs_col _ _)
  rw [el, er]

/-- Against a transposed `1024 × 256` chunk: the sum over `k` of `v (p, k) · y (q, k)`. -/
theorem cprod_transposed_apply (v : FVec Ideal S256x256 .bf16) (y : FVec Ideal S1024x256 .bf16) (p : Fin 256) (q : Fin 1024) :
    matmul (φ₁ := .bf16) (φ₂ := .bf16) dot_S256x256_S256x1024_S256x1024_1_0_0_1_n_n none v
        (transpose S256x1024 [1, 0] y transposes_S1024x256_p1_0_S256x1024) (constant (F := Ideal) S256x1024 .f32 0x00000000#32) (ix2 p q)
      = ∑ k : Fin 256, v (ix2 p k) * y (ix2 q k) := by
  refine (cprod_apply none v (transpose S256x1024 [1, 0] y transposes_S1024x256_p1_0_S256x1024) p q).trans
    (Finset.sum_congr rfl fun k _ => ?_)
  rw [transpose_ix2_apply]

/-! ## The loads -/

theorem offs2_zero : (![0, 0] : Fin 2 → Nat) = fun _ => 0 := funext fun a => by fin_cases a <;> rfl

/-- The block of rows as the body uses it is the block of rows. -/
theorem rowsI_eq (x0 : Vec Ideal S256x256 .bf16) : rowsI (F := Ideal) x0 = x0 := by
  unfold rowsI k1_pay2
  simp only [shapeCast_self, View.ld_unit_zero (S := S256x256) offs2_zero]

/-- A load through the unit-stride rectangle of `1024 × 256` at row offset `1024·K` reads, at `(q, k)`, row
    `1024·K + q` of the full matrix, column `k`. -/
theorem ld_chunk_apply (x1 : Vec Ideal S8192x256 .bf16) (off : Fin 2 → Nat)
    (inb : ∀ a, off a + S1024x256.size a ≤ S8192x256.size a) (K : Fin 8) (h0 : off 0 = 1024 * K.val) (h1 : off 1 = 0)
    (q : Fin 1024) (k : Fin 256) :
    View.ld x1 (Rect.unit (s := S8192x256) off S1024x256.size inb) (ix2 q k) = x1 (ix2 (colAt K q) k) := by
  refine congrArg x1 (funext fun a => Fin.ext ?_)
  match a with
  | ⟨0, _⟩ => show off 0 + 1 * q.val = 1024 * K.val + q.val; omega
  | ⟨1, _⟩ => show off 1 + 1 * k.val = k.val; omega

/-! ## The eight matrix products the body forms, each at an element of its two operands -/

theorem k1_pay4_apply (v : Vec Ideal S256x256 .bf16) (y : Vec Ideal S1024x256 .bf16) (p : Fin 256) (q : Fin 1024) :
    k1_pay4 (F := Ideal) v y (ix2 p q) = ∑ k : Fin 256, v (ix2 p k) * y (ix2 q k) := by
  unfold k1_pay4 k1_pay2
  simp only [shapeCast_self]
  exact cprod_transposed_apply v y p q

theorem k1_pay9_apply (v : Vec Ideal S256x256 .bf16) (y : Vec Ideal S1024x256 .bf16) (p : Fin 256) (q : Fin 1024) :
    k1_pay9 (F := Ideal) v y (ix2 p q) = ∑ k : Fin 256, v (ix2 p k) * y (ix2 q k) := by
  unfold k1_pay9 k1_pay2
  simp only [shapeCast_self]
  exact cprod_transposed_apply v y p q

theorem k1_pay14_apply (v : FVec Ideal S256x256 .bf16) (y : Vec Ideal S1024x256 .bf16) (p : Fin 256) (q : Fin 1024) :
    k1_pay14 (F := Ideal) v y (ix2 p q) = ∑ k : Fin 256, v (ix2 p k) * y (ix2 q k) := by
  unfold k1_pay14
  simp only [shapeCast_self]
  exact cprod_transposed_apply v y p q

theorem k1_pay20_apply (v : FVec Ideal S256x256 .bf16) (y : FVec Ideal S1024x256 .bf16) (p : Fin 256) (q : Fin 1024) :
    k1_pay20 (F := Ideal) v y (ix2 p q) = ∑ k : Fin 256, v (ix2 p k) * y (ix2 q k) := by
  unfold k1_pay20
  simp only [shapeCast_self]
  exact cprod_transposed_apply v y p q

theorem k1_pay24_apply (v : FVec Ideal S256x256 .bf16) (y : Vec Ideal S1024x256 .bf16) (p : Fin 256) (q : Fin 1024) :
    k1_pay24 (F := Ideal) v y (ix2 p q) = ∑ k : Fin 256, v (ix2 p k) * y (ix2 q k) := by
  unfold k1_pay24
  simp only [shapeCast_self]
  exact cprod_transposed_apply v y p q

theorem k1_pay29_apply (v : FVec Ideal S256x256 .bf16) (y : Vec Ideal S1024x256 .bf16) (p : Fin 256) (q : Fin 1024) :
    k1_pay29 (F := Ideal) v y (ix2 p q) = ∑ k : Fin 256, v (ix2 p k) * y (ix2 q k) := by
  unfold k1_pay29
  simp only [shapeCast_self]
  exact cprod_transposed_apply v y p q

theorem k1_pay33_apply (v : FVec Ideal S256x256 .bf16) (y : Vec Ideal S1024x256 .bf16) (p : Fin 256) (q : Fin 1024) :
    k1_pay33 (F := Ideal) v y (ix2 p q) = ∑ k : Fin 256, v (ix2 p k) * y (ix2 q k) := by
  unfold k1_pay33
  simp only [shapeCast_self]
  exact cprod_transposed_apply v y p q

theorem k1_pay38_apply (v : FVec Ideal S256x256 .bf16) (y : Vec Ideal S1024x256 .bf16) (p : Fin 256) (q : Fin 1024) :
    k1_pay38 (F := Ideal) v y (ix2 p q) = ∑ k : Fin 256, v (ix2 p k) * y (ix2 q k) := by
  unfold k1_pay38
  simp only [shapeCast_self]
  exact cprod_transposed_apply v y p q

/-! ## The chunk products and their exponentials -/

/-- Chunk 0's product at `(p, q)`: row `p` of the block against row `1024·0 + q` of the full matrix. -/
theorem prod0_apply (x0 : Vec Ideal S256x256 .bf16) (x1 : Vec Ideal S8192x256 .bf16) (p : Fin 256) (q : Fin 1024) :
    prod0 (F := Ideal) x0 x1 (ix2 p q) = ∑ k : Fin 256, x0 (ix2 p k) * x1 (ix2 (colAt 0 q) k) := by
  unfold prod0 k1_pay7
  simp only [shapeCast_self, rowsI_eq, View.ld_unit_zero (S := S256x256) offs2_zero]
  refine (k1_pay4_apply _ _ p q).trans (Finset.sum_congr rfl fun k _ => ?_)
  exact congrArg (x0 (ix2 p k) * ·) (ld_chunk_apply x1 _ _ 0 rfl rfl q k)

/-- Chunk 0's exponential at `(p, q)`. -/
theorem expProd0_apply (x0 : Vec Ideal S256x256 .bf16) (x1 : Vec Ideal S8192x256 .bf16) (p : Fin 256) (q : Fin 1024) :
    expProd0 (F := Ideal) x0 x1 (ix2 p q) = Ideal.exp (∑ k : Fin 256, x0 (ix2 p k) * x1 (ix2 (colAt 0 q) k)) := by
  unfold expProd0 k1_pay8 k1_pay5
  simp only [shapeCast_self, rowsI_eq, View.ld_unit_zero (S := S256x256) offs2_zero]
  refine (congrArg Ideal.exp (k1_pay4_apply _ _ p q)).trans (congrArg Ideal.exp (Finset.sum_congr rfl fun k _ => ?_))
  exact congrArg (x0 (ix2 p k) * ·) (ld_chunk_apply x1 _ _ 0 rfl rfl q k)

/-- Chunk 1's product at `(p, q)`: row `p` of the block against row `1024·1 + q` of the full matrix. -/
theorem prod1_apply (x0 : Vec Ideal S256x256 .bf16) (x1 : Vec Ideal S8192x256 .bf16) (p : Fin 256) (q : Fin 1024) :
    prod1 (F := Ideal) x0 x1 (ix2 p q) = ∑ k : Fin 256, x0 (ix2 p k) * x1 (ix2 (colAt 1 q) k) := by
  unfold prod1 k1_pay12
  simp only [shapeCast_self, rowsI_eq, View.ld_unit_zero (S := S256x256) offs2_zero]
  refine (k1_pay9_apply _ _ p q).trans (Finset.sum_congr rfl fun k _ => ?_)
  exact congrArg (x0 (ix2 p k) * ·) (ld_chunk_apply x1 _ _ 1 rfl rfl q k)

/-- Chunk 1's exponential at `(p, q)`. -/
theorem expProd1_apply (x0 : Vec Ideal S256x256 .bf16) (x1 : Vec Ideal S8192x256 .bf16) (p : Fin 256) (q : Fin 1024) :
    expProd1 (F := Ideal) x0 x1 (ix2 p q) = Ideal.exp (∑ k : Fin 256, x0 (ix2 p k) * x1 (ix2 (colAt 1 q) k)) := by
  unfold expProd1 expProd1' k1_pay13 k1_pay10
  simp only [shapeCast_self, rowsI_eq, View.ld_unit_zero (S := S256x256) offs2_zero]
  refine (congrArg Ideal.exp (k1_pay9_apply _ _ p q)).trans (congrArg Ideal.exp (Finset.sum_congr rfl fun k _ => ?_))
  exact congrArg (x0 (ix2 p k) * ·) (ld_chunk_apply x1 _ _ 1 rfl rfl q k)

/-- Chunk 2's product at `(p, q)`: row `p` of the block against row `1024·2 + q` of the full matrix. -/
theorem prod2_apply (x0 : Vec Ideal S256x256 .bf16) (x1 : Vec Ideal S8192x256 .bf16) (p : Fin 256) (q : Fin 1024) :
    prod2 (F := Ideal) x0 x1 (ix2 p q) = ∑ k : Fin 256, x0 (ix2 p k) * x1 (ix2 (colAt 2 q) k) := by
  unfold prod2 k1_pay17
  simp only [shapeCast_self, rowsI_eq, View.ld_unit_zero (S := S256x256) offs2_zero]
  refine (k1_pay14_apply _ _ p q).trans (Finset.sum_congr rfl fun k _ => ?_)
  exact congrArg (x0 (ix2 p k) * ·) (ld_chunk_apply x1 _ _ 2 rfl rfl q k)

/-- Chunk 2's exponential at `(p, q)`. -/
theorem expProd2_apply (x0 : Vec Ideal S256x256 .bf16) (x1 : Vec Ideal S8192x256 .bf16) (p : Fin 256) (q : Fin 1024) :
    expProd2 (F := Ideal) x0 x1 (ix2 p q) = Ideal.exp (∑ k : Fin 256, x0 (ix2 p k) * x1 (ix2 (colAt 2 q) k)) := by
  unfold expProd2 k1_pay18 k1_pay15
  simp only [shapeCast_self, rowsI_eq, View.ld_unit_zero (S := S256x256) offs2_zero]
  refine (congrArg Ideal.exp (k1_pay14_apply _ _ p q)).trans (congrArg Ideal.exp (Finset.sum_congr rfl fun k _ => ?_))
  exact congrArg (x0 (ix2 p k) * ·) (ld_chunk_apply x1 _ _ 2 rfl rfl q k)

/-- Chunk 3's product at `(p, q)`: row `p` of the block against row `1024·3 + q` of the full matrix. -/
theorem prod3_apply (x0 : Vec Ideal S256x256 .bf16) (x1 : Vec Ideal S8192x256 .bf16) (p : Fin 256) (q : Fin 1024) :
    prod3 (F := Ideal) x0 x1 (ix2 p q) = ∑ k : Fin 256, x0 (ix2 p k) * x1 (ix2 (colAt 3 q) k) := by
  unfold prod3 k1_pay22 chunk3 k1_pay19
  simp only [shapeCast_self, rowsI_eq, View.ld_unit_zero (S := S256x256) offs2_zero]
  refine (k1_pay20_apply _ _ p q).trans (Finset.sum_congr rfl fun k _ => ?_)
  exact congrArg (x0 (ix2 p k) * ·) (ld_chunk_apply x1 _ _ 3 rfl rfl q k)

/-- Chunk 3's exponential at `(p, q)`. -/
theorem expProd3_apply (x0 : Vec Ideal S256x256 .bf16) (x1 : Vec Ideal S8192x256 .bf16) (p : Fin 256) (q : Fin 1024) :
    expProd3 (F := Ideal) x0 x1 (ix2 p q) = Ideal.exp (∑ k : Fin 256, x0 (ix2 p k) * x1 (ix2 (colAt 3 q) k)) := by
  unfold expProd3 k1_pay23 k1_pay21 chunk3 k1_pay19
  simp only [shapeCast_self, rowsI_eq, View.ld_unit_zero (S := S256x256) offs2_zero]
  refine (congrArg Ideal.exp (k1_pay20_apply _ _ p q)).trans (congrArg Ideal.exp (Finset.sum_congr rfl fun k _ => ?_))
  exact congrArg (x0 (ix2 p k) * ·) (ld_chunk_apply x1 _ _ 3 rfl rfl q k)

/-- Chunk 4's product at `(p, q)`: row `p` of the block against row `1024·4 + q` of the full matrix. -/
theorem prod4_apply (x0 : Vec Ideal S256x256 .bf16) (x1 : Vec Ideal S8192x256 .bf16) (p : Fin 256) (q : Fin 1024) :
    prod4 (F := Ideal) x0 x1 (ix2 p q) = ∑ k : Fin 256, x0 (ix2 p k) * x1 (ix2 (colAt 4 q) k) := by
  unfold prod4 k1_pay27
  simp only [shapeCast_self, rowsI_eq, View.ld_unit_zero (S := S256x256) offs2_zero]
  refine (k1_pay24_apply _ _ p q).trans (Finset.sum_congr rfl fun k _ => ?_)
  exact congrArg (x0 (ix2 p k) * ·) (ld_chunk_apply x1 _ _ 4 rfl rfl q k)

/-- Chunk 4's exponential at `(p, q)`. -/
theorem expProd4_apply (x0 : Vec Ideal S256x256 .bf16) (x1 : Vec Ideal S8192x256 .bf16) (p : Fin 256) (q : Fin 1024) :
    expProd4 (F := Ideal) x0 x1 (ix2 p q) = Ideal.exp (∑ k : Fin 256, x0 (ix2 p k) * x1 (ix2 (colAt 4 q) k)) := by
  unfold expProd4 k1_pay28 k1_pay25
  simp only [shapeCast_self, rowsI_eq, View.ld_unit_zero (S := S256x256) offs2_zero]
  refine (congrArg Ideal.exp (k1_pay24_apply _ _ p q)).trans (congrArg Ideal.exp (Finset.sum_congr rfl fun k _ => ?_))
  exact congrArg (x0 (ix2 p k) * ·) (ld_chunk_apply x1 _ _ 4 rfl rfl q k)

/-- Chunk 5's product at `(p, q)`: row `p` of the block against row `1024·5 + q` of the full matrix. -/
theorem prod5_apply (x0 : Vec Ideal S256x256 .bf16) (x1 : Vec Ideal S8192x256 .bf16) (p : Fin 256) (q : Fin 1024) :
    prod5 (F := Ideal) x0 x1 (ix2 p q) = ∑ k : Fin 256, x0 (ix2 p k) * x1 (ix2 (colAt 5 q) k) := by
  unfold prod5 k1_pay31
  simp only [shapeCast_self, rowsI_eq, View.ld_unit_zero (S := S256x256) offs2_zero]
  refine (k1_pay29_apply _ _ p q).trans (Finset.sum_congr rfl fun k _ => ?_)
  exact congrArg (x0 (ix2 p k) * ·) (ld_chunk_apply x1 _ _ 5 rfl rfl q k)

/-- Chunk 5's exponential at `(p, q)`. -/
theorem expProd5_apply (x0 : Vec Ideal S256x256 .bf16) (x1 : Vec Ideal S8192x256 .bf16) (p : Fin 256) (q : Fin 1024) :
    expProd5 (F := Ideal) x0 x1 (ix2 p q) = Ideal.exp (∑ k : Fin 256, x0 (ix2 p k) * x1 (ix2 (colAt 5 q) k)) := by
  unfold expProd5 k1_pay32 k1_pay30
  simp only [shapeCast_self, rowsI_eq, View.ld_unit_zero (S := S256x256) offs2_zero]
  refine (congrArg Ideal.exp (k1_pay29_apply _ _ p q)).trans (congrArg Ideal.exp (Finset.sum_congr rfl fun k _ => ?_))
  exact congrArg (x0 (ix2 p k) * ·) (ld_chunk_apply x1 _ _ 5 rfl rfl q k)

/-- Chunk 6's product at `(p, q)`: row `p` of the block against row `1024·6 + q` of the full matrix. -/
theorem prod6_apply (x0 : Vec Ideal S256x256 .bf16) (x1 : Vec Ideal S8192x256 .bf16) (p : Fin 256) (q : Fin 1024) :
    prod6 (F := Ideal) x0 x1 (ix2 p q) = ∑ k : Fin 256, x0 (ix2 p k) * x1 (ix2 (colAt 6 q) k) := by
  unfold prod6 k1_pay36
  simp only [shapeCast_self, rowsI_eq, View.ld_unit_zero (S := S256x256) offs2_zero]
  refine (k1_pay33_apply _ _ p q).trans (Finset.sum_congr rfl fun k _ => ?_)
  exact congrArg (x0 (ix2 p k) * ·) (ld_chunk_apply x1 _ _ 6 rfl rfl q k)

/-- Chunk 6's exponential at `(p, q)`. -/
theorem expProd6_apply (x0 : Vec Ideal S256x256 .bf16) (x1 : Vec Ideal S8192x256 .bf16) (p : Fin 256) (q : Fin 1024) :
    expProd6 (F := Ideal) x0 x1 (ix2 p q) = Ideal.exp (∑ k : Fin 256, x0 (ix2 p k) * x1 (ix2 (colAt 6 q) k)) := by
  unfold expProd6 k1_pay37 k1_pay34
  simp only [shapeCast_self, rowsI_eq, View.ld_unit_zero (S := S256x256) offs2_zero]
  refine (congrArg Ideal.exp (k1_pay33_apply _ _ p q)).trans (congrArg Ideal.exp (Finset.sum_congr rfl fun k _ => ?_))
  exact congrArg (x0 (ix2 p k) * ·) (ld_chunk_apply x1 _ _ 6 rfl rfl q k)

/-- Chunk 7's product at `(p, q)`: row `p` of the block against row `1024·7 + q` of the full matrix. -/
theorem prod7_apply (x0 : Vec Ideal S256x256 .bf16) (x1 : Vec Ideal S8192x256 .bf16) (p : Fin 256) (q : Fin 1024) :
    prod7 (F := Ideal) x0 x1 (ix2 p q) = ∑ k : Fin 256, x0 (ix2 p k) * x1 (ix2 (colAt 7 q) k) := by
  unfold prod7 k1_pay41
  simp only [shapeCast_self, rowsI_eq, View.ld_unit_zero (S := S256x256) offs2_zero]
  refine (k1_pay38_apply _ _ p q).trans (Finset.sum_congr rfl fun k _ => ?_)
  exact congrArg (x0 (ix2 p k) * ·) (ld_chunk_apply x1 _ _ 7 rfl rfl q k)

/-- Chunk 7's exponential at `(p, q)`. -/
theorem expProd7_apply (x0 : Vec Ideal S256x256 .bf16) (x1 : Vec Ideal S8192x256 .bf16) (p : Fin 256) (q : Fin 1024) :
    expProd7 (F := Ideal) x0 x1 (ix2 p q) = Ideal.exp (∑ k : Fin 256, x0 (ix2 p k) * x1 (ix2 (colAt 7 q) k)) := by
  unfold expProd7 k1_pay42 k1_pay39
  simp only [shapeCast_self, rowsI_eq, View.ld_unit_zero (S := S256x256) offs2_zero]
  refine (congrArg Ideal.exp (k1_pay38_apply _ _ p q)).trans (congrArg Ideal.exp (Finset.sum_congr rfl fun k _ => ?_))
  exact congrArg (x0 (ix2 p k) * ·) (ld_chunk_apply x1 _ _ 7 rfl rfl q k)

end Cert.KernelIdeal.Hand

end
-- ==== Proof.Region1Point.lean ====
/-
  The second kernel region at one grid point, on the extended reals: what one call leaves at row `p` of its output.

  The call's first sweep is eight steps of one kind (add, per row, the chunk's sum of the exponentials over the columns
  of a different label) and its second sweep eight steps of another (add, per row, the chunk's sum of the pair terms off
  the diagonal). Read at row `p` each step adds a sum over the chunk's 1024 columns, and the eight chunks' sums, added
  one after the other from zero, are the sum over all 8192 columns. With the chunk products read at an element this
  gives the row's output as ONE sum of pair terms over all the columns.
-/
import proofs.«113247_j19061064860121_2_alg».proof.Proof.Body1Defs
import proofs.«113247_j19061064860121_2_alg».proof.Proof.Region1PointLib
import proofs.«113247_j19061064860121_2_alg».proof.Proof.Region1PointProducts

set_option maxRecDepth 16384

noncomputable section

open scoped BigOperators

namespace Cert.KernelIdeal.Hand

open Cert.KernelIdeal Cert.KernelIdeal.Gen
open Idealize.ShloMosaic Idealize.ShloMosaic.ValueIdx
open Cert.RefValue (colAt colAt_val sum_cols_fold)

section
variable (x0 : Vec Ideal S256x256 .bf16) (x1 : Vec Ideal S8192x256 .bf16) (x2 : Vec Ideal S256x1 .i32)
  (x3 : Vec Ideal S1x8192 .i32)

/-! ## The values, from the call's four inputs -/

/-- The cosine of the block's row `p` with row `j` of the full matrix. -/
def cosL (p : Fin 256) (j : Fin 8192) : EReal := ∑ k : Fin 256, x0 (ix2 p k) * x1 (ix2 j k)

/-- Row `p`'s sum of `exp` of its cosines with the rows of a different label. -/
def negL (p : Fin 256) : EReal :=
  ∑ j : Fin 8192, if x2 (ix2 p (0 : Fin 1)) = x3 (ix2 (0 : Fin 1) j) then 0 else Ideal.exp (cosL x0 x1 p j)

/-- The term of the block's row `p`, whose global number is `r`, with column `j`. -/
def termL (r : Fin 8192) (p : Fin 256) (j : Fin 8192) : EReal :=
  if r = j then 0
  else -(if x2 (ix2 p (0 : Fin 1)) = x3 (ix2 (0 : Fin 1) j) ∧ r ≠ j then cosL x0 x1 p j else 0)
    + Ideal.log (negL x0 x1 x2 x3 p
        + (if x2 (ix2 p (0 : Fin 1)) = x3 (ix2 (0 : Fin 1) j) ∧ r ≠ j then Ideal.exp (cosL x0 x1 p j) else 1))

/-! ## The loads of the labels -/

theorem labI_apply (p : Fin 256) (z : Fin 1) : labI (F := Ideal) x2 (ix2 p z) = x2 (ix2 p z) := by
  unfold labI k1_pay3
  simp only [shapeCast_self, View.ld_unit_zero (S := S256x1) offs2_zero]

/-- A load through the unit-stride rectangle of `1 × 1024` at column offset `1024·K` reads, at `(0, q)`, the label of
    column `1024·K + q`. -/
theorem ld_lab_apply (off : Fin 2 → Nat) (inb : ∀ a, off a + S1x1024.size a ≤ S1x8192.size a) (K : Fin 8)
    (h0 : off 0 = 0) (h1 : off 1 = 1024 * K.val) (u : Fin 1) (q : Fin 1024) :
    View.ld x3 (Rect.unit (s := S1x8192) off S1x1024.size inb) (ix2 u q) = x3 (ix2 (0 : Fin 1) (colAt K q)) := by
  refine congrArg x3 (funext fun a => Fin.ext ?_)
  match a with
  | ⟨0, _⟩ => show off 0 + 1 * u.val = 0; omega
  | ⟨1, _⟩ => show off 1 + 1 * q.val = 1024 * K.val + q.val; omega

/-- The same-label word of chunk `K` at `(p, q)`. -/
theorem same_apply (off : Fin 2 → Nat) (inb : ∀ a, off a + S1x1024.size a ≤ S1x8192.size a) (K : Fin 8)
    (h0 : off 0 = 0) (h1 : off 1 = 1024 * K.val) (p : Fin 256) (q : Fin 1024) :
    sameMask (labI (F := Ideal) x2) (View.ld x3 (Rect.unit (s := S1x8192) off S1x1024.size inb)) (ix2 p q)
      = BitVec.ofBool (x2 (ix2 p (0 : Fin 1)) == x3 (ix2 (0 : Fin 1) (colAt K q))) := by
  rw [sameMask_apply, labI_apply, ld_lab_apply x3 off inb K h0 h1]

/-- The diagonal word of chunk `K` at `(p, q)`, for the block `b` the grid coordinate names. -/
theorem eye_apply (i : grid1.Coords) (b : Fin 32) (hb : (i 0).val = b.val) (K : Fin 8) (off : ℕ)
    (hoff : off = 1024 * K.val) (p : Fin 256) (q : Fin 1024) :
    eyeMask (rowBase i) (BitVec.ofNat 32 off) (ix2 p q) = BitVec.ofBool (decide (rowG b p = colAt K q)) := by
  rw [eyeMask_apply]
  unfold rowBase
  rw [hb, eye_decide b K p q off hoff]

/-! ## One chunk of each sweep at row `p` -/

theorem neg_chunk (p : Fin 256) (z : Fin 1) (acc : FVec Ideal S256x1 .f32) (same : IVec S256x1024 1)
    (E : FVec Ideal S256x1024 .f32) (K : Fin 8)
    (hs : ∀ q, same (ix2 p q) = BitVec.ofBool (x2 (ix2 p (0 : Fin 1)) == x3 (ix2 (0 : Fin 1) (colAt K q))))
    (hE : ∀ q, E (ix2 p q) = Ideal.exp (cosL x0 x1 p (colAt K q))) :
    negStep acc same E (ix2 p z)
      = acc (ix2 p z) + ∑ q : Fin 1024,
          if x2 (ix2 p (0 : Fin 1)) = x3 (ix2 (0 : Fin 1) (colAt K q)) then 0
          else Ideal.exp (cosL x0 x1 p (colAt K q)) := by
  rw [negStep_apply acc same E p z _ hs]
  refine congrArg (acc (ix2 p z) + ·) (Finset.sum_congr rfl fun q _ => ?_)
  rw [hE q]
  by_cases h : x2 (ix2 p (0 : Fin 1)) = x3 (ix2 (0 : Fin 1) (colAt K q))
  · simp [h]
  · simp [h]

theorem term_chunk (r : Fin 8192) (p : Fin 256) (z : Fin 1) (acc neg : FVec Ideal S256x1 .f32)
    (same eye : IVec S256x1024 1) (C E : FVec Ideal S256x1024 .f32) (K : Fin 8)
    (hs : ∀ q, same (ix2 p q) = BitVec.ofBool (x2 (ix2 p (0 : Fin 1)) == x3 (ix2 (0 : Fin 1) (colAt K q))))
    (he : ∀ q, eye (ix2 p q) = BitVec.ofBool (decide (r = colAt K q)))
    (hC : ∀ q, C (ix2 p q) = cosL x0 x1 p (colAt K q))
    (hE : ∀ q, E (ix2 p q) = Ideal.exp (cosL x0 x1 p (colAt K q)))
    (hneg : neg (ix2 p (0 : Fin 1)) = negL x0 x1 x2 x3 p) :
    termStep acc neg same eye C E (ix2 p z)
      = acc (ix2 p z) + ∑ q : Fin 1024, termL x0 x1 x2 x3 r p (colAt K q) := by
  rw [termStep_apply acc neg same eye C E p z _ _ hs he]
  refine congrArg (acc (ix2 p z) + ·) (Finset.sum_congr rfl fun q _ => ?_)
  rw [hC q, hE q, hneg]
  unfold termL
  by_cases h1 : r = colAt K q
  · simp [h1]
  · by_cases h2 : x2 (ix2 p (0 : Fin 1)) = x3 (ix2 (0 : Fin 1) (colAt K q))
    · simp [h1, h2]
    · simp [h1, h2]

/-! ## The exponentials the first sweep adds are the ones it keeps -/

theorem E0_eq : k1_pay5 (F := Ideal) (View.ld x0 rowsRect) (View.ld x1 chunkRect0) = expProd0 x0 x1 := by
  unfold expProd0 k1_pay8; rw [shapeCast_self]
theorem E1_eq : expProd1' (F := Ideal) x0 x1 = expProd1 x0 x1 := by
  unfold expProd1 k1_pay13; rw [shapeCast_self]
theorem E2_eq : k1_pay15 (F := Ideal) (rowsI x0) (View.ld x1 chunkRect2) = expProd2 x0 x1 := by
  unfold expProd2 k1_pay18; rw [shapeCast_self]
theorem E3_eq : k1_pay21 (F := Ideal) (rowsI x0) (chunk3 x1) = expProd3 x0 x1 := by
  unfold expProd3 k1_pay23; rw [shapeCast_self]
theorem E4_eq : k1_pay25 (F := Ideal) (rowsI x0) (View.ld x1 chunkRect4) = expProd4 x0 x1 := by
  unfold expProd4 k1_pay28; rw [shapeCast_self]
theorem E5_eq : k1_pay30 (F := Ideal) (rowsI x0) (View.ld x1 chunkRect5) = expProd5 x0 x1 := by
  unfold expProd5 k1_pay32; rw [shapeCast_self]
theorem E6_eq : k1_pay34 (F := Ideal) (rowsI x0) (View.ld x1 chunkRect6) = expProd6 x0 x1 := by
  unfold expProd6 k1_pay37; rw [shapeCast_self]
theorem E7_eq : k1_pay39 (F := Ideal) (rowsI x0) (View.ld x1 chunkRect7) = expProd7 x0 x1 := by
  unfold expProd7 k1_pay42; rw [shapeCast_self]

/-! ## The two sweeps as chains of steps -/

theorem negsum0_eq : negsum0 (F := Ideal) x0 x1 x2 x3
    = negStep (broadcast S256x1 (Scalar.ofBits (F := Ideal) .f32 0x00000000#32))
        (sameMask (labI x2) (View.ld x3 chunkLabRect0)) (k1_pay5 (View.ld x0 rowsRect) (View.ld x1 chunkRect0)) := rfl
theorem negsum2_eq : negsum2 (F := Ideal) x0 x1 x2 x3
    = negStep (negStep (negsum0 x0 x1 x2 x3) (sameMask (labI x2) (View.ld x3 chunkLabRect1)) (expProd1' x0 x1))
        (sameMask (labI x2) (View.ld x3 chunkLabRect2)) (k1_pay15 (rowsI x0) (View.ld x1 chunkRect2)) := rfl
theorem negsum4_eq : negsum4 (F := Ideal) x0 x1 x2 x3
    = negStep (negStep (negsum2 x0 x1 x2 x3) (sameMask (labI x2) (View.ld x3 chunkLabRect3)) (k1_pay21 (rowsI x0) (chunk3 x1)))
        (sameMask (labI x2) (View.ld x3 chunkLabRect4)) (k1_pay25 (rowsI x0) (View.ld x1 chunkRect4)) := rfl
theorem negsum6_eq : negsum6 (F := Ideal) x0 x1 x2 x3
    = negStep (negStep (negsum4 x0 x1 x2 x3) (sameMask (labI x2) (View.ld x3 chunkLabRect5)) (k1_pay30 (rowsI x0) (View.ld x1 chunkRect5)))
        (sameMask (labI x2) (View.ld x3 chunkLabRect6)) (k1_pay34 (rowsI x0) (View.ld x1 chunkRect6)) := rfl
theorem negsum_eq : negsum (F := Ideal) x0 x1 x2 x3
    = negStep (negsum6 x0 x1 x2 x3) (sameMask (labI x2) (View.ld x3 chunkLabRect7)) (k1_pay39 (rowsI x0) (View.ld x1 chunkRect7)) := rfl

/-! ## The second sweep as a chain of steps -/

theorem rowsum0_eq (i : grid1.Coords) : rowsum0 (F := Ideal) i x0 x1 x2 x3
    = termStep (k1_pay43 (F := Ideal)) (negsum x0 x1 x2 x3) (sameMask (labI x2) (View.ld x3 chunkLabRect0))
        (eyeMask (rowBase i) 0#32) (prod0 x0 x1) (expProd0 x0 x1) := rfl
theorem rowsum2_eq (i : grid1.Coords) : rowsum2 (F := Ideal) i x0 x1 x2 x3
    = termStep
        (termStep (rowsum0 i x0 x1 x2 x3) (negsum x0 x1 x2 x3) (sameMask (labI x2) (View.ld x3 chunkLabRect1))
          (eyeMask (rowBase i) 1024#32) (prod1 x0 x1) (expProd1 x0 x1))
        (negsum x0 x1 x2 x3) (sameMask (labI x2) (View.ld x3 chunkLabRect2)) (eyeMask (rowBase i) 2048#32)
        (prod2 x0 x1) (expProd2 x0 x1) := rfl
theorem rowsum3_eq (i : grid1.Coords) : rowsum3 (F := Ideal) i x0 x1 x2 x3
    = termStep (rowsum2 i x0 x1 x2 x3) (negsum x0 x1 x2 x3) (sameMask (labI x2) (View.ld x3 chunkLabRect3))
        (eyeMask (rowBase i) 3072#32) (prod3 x0 x1) (expProd3 x0 x1) := rfl
theorem rowsum4_eq (i : grid1.Coords) : rowsum4 (F := Ideal) i x0 x1 x2 x3
    = termStep (rowsum3 i x0 x1 x2 x3) (negsum x0 x1 x2 x3) (sameMask (labI x2) (View.ld x3 chunkLabRect4))
        (eyeMask (rowBase i) 4096#32) (prod4 x0 x1) (expProd4 x0 x1) := rfl
theorem rowsum6_eq (i : grid1.Coords) : rowsum6 (F := Ideal) i x0 x1 x2 x3
    = termStep
        (termStep (rowsum4 i x0 x1 x2 x3) (negsum x0 x1 x2 x3) (sameMask (labI x2) (View.ld x3 chunkLabRect5))
          (eyeMask (rowBase i) 5120#32) (prod5 x0 x1) (expProd5 x0 x1))
        (negsum x0 x1 x2 x3) (sameMask (labI x2) (View.ld x3 chunkLabRect6)) (eyeMask (rowBase i) 6144#32)
        (prod6 x0 x1) (expProd6 x0 x1) := rfl
theorem rowsum_eq (i : grid1.Coords) : rowsum (F := Ideal) i x0 x1 x2 x3
    = termStep (rowsum6 i x0 x1 x2 x3) (negsum x0 x1 x2 x3) (sameMask (labI x2) (View.ld x3 chunkLabRect7))
        (eyeMask (rowBase i) 7168#32) (prod7 x0 x1) (expProd7 x0 x1) := rfl

/-! ## Each chunk's operands at `(p, q)` -/

theorem same0 (p : Fin 256) (q : Fin 1024) :
    sameMask (labI (F := Ideal) x2) (View.ld x3 chunkLabRect0) (ix2 p q)
      = BitVec.ofBool (x2 (ix2 p (0 : Fin 1)) == x3 (ix2 (0 : Fin 1) (colAt 0 q))) :=
  same_apply x2 x3 _ _ 0 rfl rfl p q
theorem eye0 (i : grid1.Coords) (b : Fin 32) (hb : (i 0).val = b.val) (p : Fin 256) (q : Fin 1024) :
    eyeMask (rowBase i) 0#32 (ix2 p q) = BitVec.ofBool (decide (rowG b p = colAt 0 q)) :=
  eye_apply i b hb 0 0 rfl p q
theorem rawE0 (p : Fin 256) (q : Fin 1024) :
    k1_pay5 (F := Ideal) (View.ld x0 rowsRect) (View.ld x1 chunkRect0) (ix2 p q) = Ideal.exp (cosL x0 x1 p (colAt 0 q)) := by
  rw [E0_eq, expProd0_apply]; rfl
theorem keptE0 (p : Fin 256) (q : Fin 1024) :
    expProd0 (F := Ideal) x0 x1 (ix2 p q) = Ideal.exp (cosL x0 x1 p (colAt 0 q)) := expProd0_apply x0 x1 p q
theorem keptC0 (p : Fin 256) (q : Fin 1024) :
    prod0 (F := Ideal) x0 x1 (ix2 p q) = cosL x0 x1 p (colAt 0 q) := prod0_apply x0 x1 p q

theorem same1 (p : Fin 256) (q : Fin 1024) :
    sameMask (labI (F := Ideal) x2) (View.ld x3 chunkLabRect1) (ix2 p q)
      = BitVec.ofBool (x2 (ix2 p (0 : Fin 1)) == x3 (ix2 (0 : Fin 1) (colAt 1 q))) :=
  same_apply x2 x3 _ _ 1 rfl rfl p q
theorem eye1 (i : grid1.Coords) (b : Fin 32) (hb : (i 0).val = b.val) (p : Fin 256) (q : Fin 1024) :
    eyeMask (rowBase i) 1024#32 (ix2 p q) = BitVec.ofBool (decide (rowG b p = colAt 1 q)) :=
  eye_apply i b hb 1 1024 rfl p q
theorem rawE1 (p : Fin 256) (q : Fin 1024) :
    expProd1' (F := Ideal) x0 x1 (ix2 p q) = Ideal.exp (cosL x0 x1 p (colAt 1 q)) := by
  rw [E1_eq, expProd1_apply]; rfl
theorem keptE1 (p : Fin 256) (q : Fin 1024) :
    expProd1 (F := Ideal) x0 x1 (ix2 p q) = Ideal.exp (cosL x0 x1 p (colAt 1 q)) := expProd1_apply x0 x1 p q
theorem keptC1 (p : Fin 256) (q : Fin 1024) :
    prod1 (F := Ideal) x0 x1 (ix2 p q) = cosL x0 x1 p (colAt 1 q) := prod1_apply x0 x1 p q

theorem same2 (p : Fin 256) (q : Fin 1024) :
    sameMask (labI (F := Ideal) x2) (View.ld x3 chunkLabRect2) (ix2 p q)
      = BitVec.ofBool (x2 (ix2 p (0 : Fin 1)) == x3 (ix2 (0 : Fin 1) (colAt 2 q))) :=
  same_apply x2 x3 _ _ 2 rfl rfl p q
theorem eye2 (i : grid1.Coords) (b : Fin 32) (hb : (i 0).val = b.val) (p : Fin 256) (q : Fin 1024) :
    eyeMask (rowBase i) 2048#32 (ix2 p q) = BitVec.ofBool (decide (rowG b p = colAt 2 q)) :=
  eye_apply i b hb 2 2048 rfl p q
theorem rawE2 (p : Fin 256) (q : Fin 1024) :
    k1_pay15 (F := Ideal) (rowsI x0) (View.ld x1 chunkRect2) (ix2 p q) = Ideal.exp (cosL x0 x1 p (colAt 2 q)) := by
  rw [E2_eq, expProd2_apply]; rfl
theorem keptE2 (p : Fin 256) (q : Fin 1024) :
    expProd2 (F := Ideal) x0 x1 (ix2 p q) = Ideal.exp (cosL x0 x1 p (colAt 2 q)) := expProd2_apply x0 x1 p q
theorem keptC2 (p : Fin 256) (q : Fin 1024) :
    prod2 (F := Ideal) x0 x1 (ix2 p q) = cosL x0 x1 p (colAt 2 q) := prod2_apply x0 x1 p q

theorem same3 (p : Fin 256) (q : Fin 1024) :
    sameMask (labI (F := Ideal) x2) (View.ld x3 chunkLabRect3) (ix2 p q)
      = BitVec.ofBool (x2 (ix2 p (0 : Fin 1)) == x3 (ix2 (0 : Fin 1) (colAt 3 q))) :=
  same_apply x2 x3 _ _ 3 rfl rfl p q
theorem eye3 (i : grid1.Coords) (b : Fin 32) (hb : (i 0).val = b.val) (p : Fin 256) (q : Fin 1024) :
    eyeMask (rowBase i) 3072#32 (ix2 p q) = BitVec.ofBool (decide (rowG b p = colAt 3 q)) :=
  eye_apply i b hb 3 3072 rfl p q
theorem rawE3 (p : Fin 256) (q : Fin 1024) :
    k1_pay21 (F := Ideal) (rowsI x0) (chunk3 x1) (ix2 p q) = Ideal.exp (cosL x0 x1 p (colAt 3 q)) := by
  rw [E3_eq, expProd3_apply]; rfl
theorem keptE3 (p : Fin 256) (q : Fin 1024) :
    expProd3 (F := Ideal) x0 x1 (ix2 p q) = Ideal.exp (cosL x0 x1 p (colAt 3 q)) := expProd3_apply x0 x1 p q
theorem keptC3 (p : Fin 256) (q : Fin 1024) :
    prod3 (F := Ideal) x0 x1 (ix2 p q) = cosL x0 x1 p (colAt 3 q) := prod3_apply x0 x1 p q

theorem same4 (p : Fin 256) (q : Fin 1024) :
    sameMask (labI (F := Ideal) x2) (View.ld x3 chunkLabRect4) (ix2 p q)
      = BitVec.ofBool (x2 (ix2 p (0 : Fin 1)) == x3 (ix2 (0 : Fin 1) (colAt 4 q))) :=
  same_apply x2 x3 _ _ 4 rfl rfl p q
theorem eye4 (i : grid1.Coords) (b : Fin 32) (hb : (i 0).val = b.val) (p : Fin 256) (q : Fin 1024) :
    eyeMask (rowBase i) 4096#32 (ix2 p q) = BitVec.ofBool (decide (rowG b p = colAt 4 q)) :=
  eye_apply i b hb 4 4096 rfl p q
theorem rawE4 (p : Fin 256) (q : Fin 1024) :
    k1_pay25 (F := Ideal) (rowsI x0) (View.ld x1 chunkRect4) (ix2 p q) = Ideal.exp (cosL x0 x1 p (colAt 4 q)) := by
  rw [E4_eq, expProd4_apply]; rfl
theorem keptE4 (p : Fin 256) (q : Fin 1024) :
    expProd4 (F := Ideal) x0 x1 (ix2 p q) = Ideal.exp (cosL x0 x1 p (colAt 4 q)) := expProd4_apply x0 x1 p q
theorem keptC4 (p : Fin 256) (q : Fin 1024) :
    prod4 (F := Ideal) x0 x1 (ix2 p q) = cosL x0 x1 p (colAt 4 q) := prod4_apply x0 x1 p q

theorem same5 (p : Fin 256) (q : Fin 1024) :
    sameMask (labI (F := Ideal) x2) (View.ld x3 chunkLabRect5) (ix2 p q)
      = BitVec.ofBool (x2 (ix2 p (0 : Fin 1)) == x3 (ix2 (0 : Fin 1) (colAt 5 q))) :=
  same_apply x2 x3 _ _ 5 rfl rfl p q
theorem eye5 (i : grid1.Coords) (b : Fin 32) (hb : (i 0).val = b.val) (p : Fin 256) (q : Fin 1024) :
    eyeMask (rowBase i) 5120#32 (ix2 p q) = BitVec.ofBool (decide (rowG b p = colAt 5 q)) :=
  eye_apply i b hb 5 5120 rfl p q
theorem rawE5 (p : Fin 256) (q : Fin 1024) :
    k1_pay30 (F := Ideal) (rowsI x0) (View.ld x1 chunkRect5) (ix2 p q) = Ideal.exp (cosL x0 x1 p (colAt 5 q)) := by
  rw [E5_eq, expProd5_apply]; rfl
theorem keptE5 (p : Fin 256) (q : Fin 1024) :
    expProd5 (F := Ideal) x0 x1 (ix2 p q) = Ideal.exp (cosL x0 x1 p (colAt 5 q)) := expProd5_apply x0 x1 p q
theorem keptC5 (p : Fin 256) (q : Fin 1024) :
    prod5 (F := Ideal) x0 x1 (ix2 p q) = cosL x0 x1 p (colAt 5 q) := prod5_apply x0 x1 p q

theorem same6 (p : Fin 256) (q : Fin 1024) :
    sameMask (labI (F := Ideal) x2) (View.ld x3 chunkLabRect6) (ix2 p q)
      = BitVec.ofBool (x2 (ix2 p (0 : Fin 1)) == x3 (ix2 (0 : Fin 1) (colAt 6 q))) :=
  same_apply x2 x3 _ _ 6 rfl rfl p q
theorem eye6 (i : grid1.Coords) (b : Fin 32) (hb : (i 0).val = b.val) (p : Fin 256) (q : Fin 1024) :
    eyeMask (rowBase i) 6144#32 (ix2 p q) = BitVec.ofBool (decide (rowG b p = colAt 6 q)) :=
  eye_apply i b hb 6 6144 rfl p q
theorem rawE6 (p : Fin 256) (q : Fin 1024) :
    k1_pay34 (F := Ideal) (rowsI x0) (View.ld x1 chunkRect6) (ix2 p q) = Ideal.exp (cosL x0 x1 p (colAt 6 q)) := by
  rw [E6_eq, expProd6_apply]; rfl
theorem keptE6 (p : Fin 256) (q : Fin 1024) :
    expProd6 (F := Ideal) x0 x1 (ix2 p q) = Ideal.exp (cosL x0 x1 p (colAt 6 q)) := expProd6_apply x0 x1 p q
theorem keptC6 (p : Fin 256) (q : Fin 1024) :
    prod6 (F := Ideal) x0 x1 (ix2 p q) = cosL x0 x1 p (colAt 6 q) := prod6_apply x0 x1 p q

theorem same7 (p : Fin 256) (q : Fin 1024) :
    sameMask (labI (F := Ideal) x2) (View.ld x3 chunkLabRect7) (ix2 p q)
      = BitVec.ofBool (x2 (ix2 p (0 : Fin 1)) == x3 (ix2 (0 : Fin 1) (colAt 7 q))) :=
  same_apply x2 x3 _ _ 7 rfl rfl p q
theorem eye7 (i : grid1.Coords) (b : Fin 32) (hb : (i 0).val = b.val) (p : Fin 256) (q : Fin 1024) :
    eyeMask (rowBase i) 7168#32 (ix2 p q) = BitVec.ofBool (decide (rowG b p = colAt 7 q)) :=
  eye_apply i b hb 7 7168 rfl p q
theorem rawE7 (p : Fin 256) (q : Fin 1024) :
    k1_pay39 (F := Ideal) (rowsI x0) (View.ld x1 chunkRect7) (ix2 p q) = Ideal.exp (cosL x0 x1 p (colAt 7 q)) := by
  rw [E7_eq, expProd7_apply]; rfl
theorem keptE7 (p : Fin 256) (q : Fin 1024) :
    expProd7 (F := Ideal) x0 x1 (ix2 p q) = Ideal.exp (cosL x0 x1 p (colAt 7 q)) := expProd7_apply x0 x1 p q
theorem keptC7 (p : Fin 256) (q : Fin 1024) :
    prod7 (F := Ideal) x0 x1 (ix2 p q) = cosL x0 x1 p (colAt 7 q) := prod7_apply x0 x1 p q

/-! ## The two sweeps at row `p` -/

theorem bcast0_apply (y : S256x1.Idx) :
    (broadcast S256x1 (Scalar.ofBits (F := Ideal) .f32 0x00000000#32) : FVec Ideal S256x1 .f32) y = 0 :=
  Ideal.ofBits_zero_f32

theorem k1_pay43_apply (y : S256x1.Idx) : k1_pay43 (F := Ideal) y = 0 := Ideal.ofBits_zero_f32

/-- The first sweep's total at row `p`: the sum over ALL columns of a different label of the exponential of the
    cosine. -/
theorem negsum_apply (p : Fin 256) (z : Fin 1) : negsum (F := Ideal) x0 x1 x2 x3 (ix2 p z) = negL x0 x1 x2 x3 p := by
  rw [negsum_eq, neg_chunk x0 x1 x2 x3 p z _ _ _ 7 (same7 x2 x3 p) (rawE7 x0 x1 p),
    negsum6_eq, neg_chunk x0 x1 x2 x3 p z _ _ _ 6 (same6 x2 x3 p) (rawE6 x0 x1 p),
    neg_chunk x0 x1 x2 x3 p z _ _ _ 5 (same5 x2 x3 p) (rawE5 x0 x1 p),
    negsum4_eq, neg_chunk x0 x1 x2 x3 p z _ _ _ 4 (same4 x2 x3 p) (rawE4 x0 x1 p),
    neg_chunk x0 x1 x2 x3 p z _ _ _ 3 (same3 x2 x3 p) (rawE3 x0 x1 p),
    negsum2_eq, neg_chunk x0 x1 x2 x3 p z _ _ _ 2 (same2 x2 x3 p) (rawE2 x0 x1 p),
    neg_chunk x0 x1 x2 x3 p z _ _ _ 1 (same1 x2 x3 p) (rawE1 x0 x1 p),
    negsum0_eq, neg_chunk x0 x1 x2 x3 p z _ _ _ 0 (same0 x2 x3 p) (rawE0 x0 x1 p), bcast0_apply]
  unfold negL
  rw [sum_cols_fold (fun j : Fin 8192 =>
    if x2 (ix2 p (0 : Fin 1)) = x3 (ix2 (0 : Fin 1) j) then 0 else Ideal.exp (cosL x0 x1 p j))]

/-- The second sweep's total at row `p` of block `b`: the sum over ALL columns of the pair terms. -/
theorem rowsum_apply (i : grid1.Coords) (b : Fin 32) (hb : (i 0).val = b.val) (p : Fin 256) (z : Fin 1) :
    rowsum (F := Ideal) i x0 x1 x2 x3 (ix2 p z) = ∑ j : Fin 8192, termL x0 x1 x2 x3 (rowG b p) p j := by
  have hn := negsum_apply x0 x1 x2 x3 p (0 : Fin 1)
  rw [rowsum_eq, term_chunk x0 x1 x2 x3 (rowG b p) p z _ _ _ _ _ _ 7 (same7 x2 x3 p) (eye7 i b hb p) (keptC7 x0 x1 p) (keptE7 x0 x1 p) hn,
    rowsum6_eq, term_chunk x0 x1 x2 x3 (rowG b p) p z _ _ _ _ _ _ 6 (same6 x2 x3 p) (eye6 i b hb p) (keptC6 x0 x1 p) (keptE6 x0 x1 p) hn,
    term_chunk x0 x1 x2 x3 (rowG b p) p z _ _ _ _ _ _ 5 (same5 x2 x3 p) (eye5 i b hb p) (keptC5 x0 x1 p) (keptE5 x0 x1 p) hn,
    rowsum4_eq, term_chunk x0 x1 x2 x3 (rowG b p) p z _ _ _ _ _ _ 4 (same4 x2 x3 p) (eye4 i b hb p) (keptC4 x0 x1 p) (keptE4 x0 x1 p) hn,
    rowsum3_eq, term_chunk x0 x1 x2 x3 (rowG b p) p z _ _ _ _ _ _ 3 (same3 x2 x3 p) (eye3 i b hb p) (keptC3 x0 x1 p) (keptE3 x0 x1 p) hn,
    rowsum2_eq, term_chunk x0 x1 x2 x3 (rowG b p) p z _ _ _ _ _ _ 2 (same2 x2 x3 p) (eye2 i b hb p) (keptC2 x0 x1 p) (keptE2 x0 x1 p) hn,
    term_chunk x0 x1 x2 x3 (rowG b p) p z _ _ _ _ _ _ 1 (same1 x2 x3 p) (eye1 i b hb p) (keptC1 x0 x1 p) (keptE1 x0 x1 p) hn,
    rowsum0_eq, term_chunk x0 x1 x2 x3 (rowG b p) p z _ _ _ _ _ _ 0 (same0 x2 x3 p) (eye0 i b hb p) (keptC0 x0 x1 p) (keptE0 x0 x1 p) hn,
    k1_pay43_apply, sum_cols_fold (termL x0 x1 x2 x3 (rowG b p) p)]

/-- WHAT ONE CALL LEAVES at row `p` of its output, for the block `b` the grid coordinate names: the sum over all
    8192 columns of the pair terms of global row `256 · b + p`. -/
theorem out1_4_apply (i : grid1.Coords) (b : Fin 32) (hb : (i 0).val = b.val) (p : Fin 256) (z : Fin 1) :
    out1_4 (F := Ideal) i x0 x1 x2 x3 (ix2 p z) = ∑ j : Fin 8192, termL x0 x1 x2 x3 (rowG b p) p j := by
  unfold out1_4
  rw [View.canon_unit_zero (S := S256x1) offs2_zero]
  exact rowsum_apply x0 x1 x2 x3 i b hb p z

/-- When the call's inputs are the block's rows of `en`, all of `en`, the block's labels and all labels, the row's
    output is the specification's pairwise loss of the global row. -/
theorem local_eq_spec (en : FVec Ideal S8192x256 .f32) (lab : IVec S8192 32) (r : Fin 8192) (p : Fin 256) (z : Fin 1)
    (h0 : ∀ k, x0 (ix2 p k) = en (ix2 r k)) (h1 : ∀ j k, x1 (ix2 j k) = en (ix2 j k))
    (h2 : x2 (ix2 p (0 : Fin 1)) = lab (ix1 r)) (h3 : ∀ j, x3 (ix2 (0 : Fin 1) j) = lab (ix1 j)) :
    ∑ j : Fin 8192, termL x0 x1 x2 x3 r p j = Cert.RefValue.rowsumSpec en lab (ix2 r z) := by
  rw [Cert.RefValue.rowsumSpec_apply]
  have hc : ∀ j, cosL x0 x1 p j = Cert.RefValue.cosAt en r j := fun j => by
    unfold cosL Cert.RefValue.cosAt
    exact Finset.sum_congr rfl fun k _ => by rw [h0, h1]
  have hn : negL x0 x1 x2 x3 p = Cert.RefValue.negsumAt en lab r := by
    unfold negL Cert.RefValue.negsumAt
    exact Finset.sum_congr rfl fun j _ => by rw [h2, h3, hc]
  refine Finset.sum_congr rfl fun j _ => ?_
  unfold termL Cert.RefValue.termAt
  rw [hn, h2, h3, hc]

end

end Cert.KernelIdeal.Hand

end
-- ==== Proof.Region1PointRows.lean ====
/-
  The second kernel's value at a grid point, against the row-sum specification.

  At point `t` the kernel function is handed rows `256·t … 256·t + 255` of the unit-length rows and of the label column,
  beside all rows and all labels; what it leaves in row `p` of its output block is the sum over all 8192 columns of the
  loss terms of global row `256·t + p` — the specification's row sum there.
-/
import proofs.«113247_j19061064860121_2_alg».proof.Proof.Gen.KernelIdeal.Launch
import proofs.«113247_j19061064860121_2_alg».proof.Proof.Gen.KernelIdeal.Skeleton
import proofs.«113247_j19061064860121_2_alg».proof.Proof.Gen.KernelIdeal.Points
import proofs.«113247_j19061064860121_2_alg».proof.Proof.KernelValue
import proofs.«113247_j19061064860121_2_alg».proof.Proof.Region1Point
import proofs.«113247_j19061064860121_2_alg».proof.Proof.Body1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.RefValue

/-- The grid is one axis of 32 points: point `t`'s coordinate is `t`. -/
theorem coords1 : ∀ t : Fin cfg1.N, ((grid1.coords t) 0).val = t.val :=
  (by decide +kernel : ∀ t : Fin grid1.N, ((grid1.coords t) 0).val = t.val)

theorem point_rows : PointRows (out1_4 (F := Ideal)) := by
  intro V c en lab hen hcol hrow t p z
  have hb : ((grid1.coords t) 0).val = (⟨t.val, point_lt t⟩ : Fin 32).val := coords1 t
  have hr : rowG ⟨t.val, point_lt t⟩ p = rowAt1 t p := Fin.ext rfl
  refine (out1_4_apply (inBlock1 V c 0 t) (inBlock1 V c 1 t) (inBlock1 V c 2 t) (inBlock1 V c 3 t) (grid1.coords t)
    ⟨t.val, point_lt t⟩ hb p z).trans ?_
  rw [hr]
  exact local_eq_spec (inBlock1 V c 0 t) (inBlock1 V c 1 t) (inBlock1 V c 2 t) (inBlock1 V c 3 t) en lab (rowAt1 t p) p z
    (fun k => (inBlock1_0_apply V c t p k).trans (hen _ k))
    (fun j k => (inBlock1_1_apply V c t j k).trans (hen j k))
    ((inBlock1_2_apply V c t p 0).trans (hcol _ 0))
    (fun j => (inBlock1_3_apply V c t 0 j).trans (hrow 0 j))

end Cert.KernelIdeal.Hand

end
-- ==== Proof.RefValueEn.lean ====
/-
  The reference's normalized rows are `enSpec`: its matrix product with the transposed weights is the sum over the
  shared axis, its bias and its row length are broadcast along the rows, and the leading zero of its row sum of
  squares is the extended reals' zero.
-/
import proofs.«113247_j19061064860121_2_alg».proof.Proof.Gen.ReferenceIdeal.Read
import proofs.«113247_j19061064860121_2_alg».proof.Proof.Spec

noncomputable section

open scoped BigOperators

namespace Cert.RefValue

open Idealize.ShloMosaic Idealize.ShloMosaic.ValueIdx
open Cert.ReferenceIdeal.Read
open Cert.KernelIdeal (S8192x1024 S256x1024 S256 S8192x256 S8192 S8192x1)

/-- The reference's affine layer at `(r, c)` is `eAt`. -/
theorem ref_e_apply (x0 : FVec Ideal S8192x1024 .f32) (x2 : FVec Ideal S256x1024 .f32) (x3 : FVec Ideal S256 .f32)
    (r : Fin 8192) (c : Fin 256) :
    val_main_v4 (F := Ideal) x0 x2 x3 (ix2 r c) = eAt x0 x2 x3 r c := by
  rw [val_main_v4_apply, val_main_v1_apply, val_main_v3_apply, val_main_v2_apply, Ideal.addf_def]
  unfold eAt
  refine congrArg₂ (· + ·) (Finset.sum_congr rfl fun k _ => ?_) ?_
  · rw [val_main_v0_apply]
    exact congrArg₂ (· * ·)
      (congrArg x0 (funext fun a => by match a with | ⟨0, _⟩ => rfl | ⟨1, _⟩ => rfl))
      (congrArg x2 (funext fun a => by match a with | ⟨0, _⟩ => rfl | ⟨1, _⟩ => rfl))
  · exact congrArg x3 (funext fun a => by match a with | ⟨0, _⟩ => rfl)

/-- The reference's clamped row length, read at row `r` (any column of the keepdims array), is `normAt`. -/
theorem ref_norm_apply (x0 : FVec Ideal S8192x1024 .f32) (x2 : FVec Ideal S256x1024 .f32) (x3 : FVec Ideal S256 .f32)
    (r : Fin 8192) (z : Fin 1) :
    val_main_v10 (F := Ideal) x0 x2 x3 (ix2 r z) = normAt x0 x2 x3 r := by
  rw [val_main_v10_apply, val_main_v8_apply, val_main_v7_apply, val_main_v6_apply, val_main_v9_apply,
    val_main_cst_0_apply, val_main_cst_apply, Ideal.maximumf_def, Ideal.hostUnary_sqrt_def, Ideal.ofBits_def,
    Ideal.ofBits_def, Ideal.ofBits_zero_f32, zero_add]
  unfold normAt
  refine congrArg₂ max (congrArg Ideal.sqrt (Finset.sum_congr rfl fun k _ => ?_)) rfl
  rw [val_main_v5_apply, Ideal.mulf_def]
  have hi : idx_main_v6 (idx_main_v7 (ix2 r z)) k = ix2 r k :=
    funext fun a => by match a with | ⟨0, _⟩ => rfl | ⟨1, _⟩ => rfl
  rw [hi, ref_e_apply]

/-- The reference's normalized rows are `enSpec` of its first, third and fourth arguments. -/
theorem ref_en (x0 : FVec Ideal S8192x1024 .f32) (x2 : FVec Ideal S256x1024 .f32) (x3 : FVec Ideal S256 .f32) :
    val_main_v12 (F := Ideal) x0 x2 x3 = enSpec x0 x2 x3 := by
  funext i
  obtain ⟨r, c, rfl⟩ : ∃ (r : Fin 8192) (c : Fin 256), i = ix2 r c := ⟨i 0, i 1, eq_ix2 i⟩
  rw [enSpec_apply, val_main_v12_apply, val_main_v11_apply, Ideal.hostDivf_def, ref_e_apply]
  have hi : idx_main_v11 (ix2 r c) = ix2 r (0 : Fin 1) :=
    funext fun a => by match a with | ⟨0, _⟩ => rfl | ⟨1, _⟩ => rfl
  rw [hi, ref_norm_apply]

end Cert.RefValue

end
-- ==== Proof.RefValueProto.lean ====
/-
  The reference's prototype-loss stages are `protoLosses` of its normalized rows: the same operations, one after
  the other, so the two terms are one term once each stage's name is opened.
-/
import proofs.«113247_j19061064860121_2_alg».proof.Proof.Gen.ReferenceIdeal.Read
import proofs.«113247_j19061064860121_2_alg».proof.Proof.HostTail

noncomputable section

namespace Cert.RefValue

open Idealize.ShloMosaic
open Cert.ReferenceIdeal.Read

/-- The sum of the reference's two prototype losses is `protoLosses` of its normalized rows, its labels and its label
    prototypes. -/
theorem ref_protoLosses (x0 : FVec Ideal Cert.KernelIdeal.S8192x1024 .f32) (x1 : IVec Cert.KernelIdeal.S8192 32)
    (x2 : FVec Ideal Cert.KernelIdeal.S256x1024 .f32) (x3 : FVec Ideal Cert.KernelIdeal.S256 .f32)
    (x4 : FVec Ideal Cert.KernelIdeal.S10x256 .f32) :
    val_main_v119 (F := Ideal) x0 x1 x2 x3 x4 = protoLosses (val_main_v12 (F := Ideal) x0 x2 x3) x1 x4 := rfl

end Cert.RefValue

end
-- ==== Proof.RefValueInter.lean ====
/-
  The reference's pairwise half: its `[8192, 8192]` array of terms, zeroed on the diagonal, is `termAt` entry by entry,
  so its total over both axes is the total of the per-row sums `rowsumSpec`.

  Entry by entry: the label comparison and the diagonal are one-bit words of decided propositions; `exp` of the
  masked cosine is the masked `exp` with `1` outside the mask because `exp 0 = 1`; the leading zeros of the sums are
  the extended reals' zero. The regrouping of the double sum is the commutative monoid's, no finiteness needed.
-/
import proofs.«113247_j19061064860121_2_alg».proof.Proof.Gen.ReferenceIdeal.Read
import proofs.«113247_j19061064860121_2_alg».proof.Proof.Spec
import proofs.«113247_j19061064860121_2_alg».proof.Proof.HostTail
import Idealize.ShloMosaic.Lib.WordArith
import Idealize.ShloMosaic.Lib.IdealHost

noncomputable section

open scoped BigOperators

namespace Cert.RefValue

open Idealize.ShloMosaic Idealize.ShloMosaic.ValueIdx
open Cert.ReferenceIdeal.Read
open Cert.KernelIdeal (S8192x1024 S256x1024 S256 S8192x256 S8192 S8192x1 S_)

/-! ## One-bit words -/

theorem select_ofBool {α : Type} (p : Bool) (x y : α) : Scalar.select (BitVec.ofBool p) x y = if p then x else y := by
  cases p
  · exact select_zero x y
  · exact select_one x y

theorem not_ofBool (p : Bool) : ~~~(BitVec.ofBool p) = BitVec.ofBool (!p) := by cases p <;> decide

/-- Two row numbers below `8192` are equal exactly when their 32-bit words are. -/
theorem iota_beq (r j : Fin 8192) :
    (IntOp.addi (BitVec.ofNat 32 r.val) 0#32 == BitVec.ofNat 32 j.val) = decide (r = j) := by
  have hr := r.isLt
  have hj := j.isLt
  unfold IntOp.addi
  rw [BitVec.add_zero]
  by_cases h : r = j
  · subst h; simp
  · rw [decide_eq_false h]
    refine beq_eq_false_iff_ne.mpr fun he => h (Fin.ext ?_)
    have := congrArg BitVec.toNat he
    rw [BitVec.toNat_ofNat, BitVec.toNat_ofNat, Nat.mod_eq_of_lt (by omega), Nat.mod_eq_of_lt (by omega)] at this
    exact this

theorem exp_zero : Ideal.exp 0 = 1 := by
  rw [← EReal.coe_zero, Ideal.exp_coe, Real.exp_zero, EReal.coe_one]

/-! ## The stages at an entry -/

section
variable (x0 : FVec Ideal S8192x1024 .f32) (x1 : IVec S8192 32) (x2 : FVec Ideal S256x1024 .f32)
  (x3 : FVec Ideal S256 .f32)

/-- The reference's product of the normalized rows with their transpose, at `(r, j)`, is the cosine. -/
theorem ref_cos_apply (r j : Fin 8192) :
    val_main_v22 (F := Ideal) x0 x2 x3 (ix2 r j) = cosAt (val_main_v12 (F := Ideal) x0 x2 x3) r j := by
  rw [val_main_v22_apply]
  unfold cosAt
  refine Finset.sum_congr rfl fun k _ => ?_
  rw [val_main_v21_apply]
  exact congrArg₂ (· * ·)
    (congrArg _ (funext fun a => by match a with | ⟨0, _⟩ => rfl | ⟨1, _⟩ => rfl))
    (congrArg _ (funext fun a => by match a with | ⟨0, _⟩ => rfl | ⟨1, _⟩ => rfl))

/-- The same-label word at `(r, j)`. -/
theorem ref_same_apply (r j : Fin 8192) :
    val_main_v27 (F := Ideal) x1 (ix2 r j) = BitVec.ofBool (x1 (ix1 r) == x1 (ix1 j)) := by
  rw [val_main_v27_apply, val_main_v25_apply, val_main_v26_apply, val_main_v23_apply, val_main_v24_apply]
  have h1 : idx_main_v23 (idx_main_v25 (ix2 r j)) = ix1 r := funext fun a => by match a with | ⟨0, _⟩ => rfl
  have h2 : idx_main_v24 (idx_main_v26 (ix2 r j)) = ix1 j := funext fun a => by match a with | ⟨0, _⟩ => rfl
  rw [h1, h2]
  rfl

/-- The diagonal word at `(r, j)`. -/
theorem ref_eye_apply (r j : Fin 8192) :
    val_main_v32 (F := Ideal) (ix2 r j) = BitVec.ofBool (decide (r = j)) := by
  rw [val_main_v32_apply, val_main_v31_apply, val_main_v28_apply, val_main_v29_apply, val_main_v30_apply,
    val_main_c_apply]
  exact congrArg BitVec.ofBool (iota_beq r j)

/-- The reference's per-row sum of `exp` over the rows of a different label is `negsumAt`. -/
theorem ref_negsum_apply (r : Fin 8192) :
    val_main_v36 (F := Ideal) x0 x1 x2 x3 (ix1 r) = negsumAt (val_main_v12 (F := Ideal) x0 x2 x3) x1 r := by
  rw [val_main_v36_apply, val_main_cst_4_apply, Ideal.ofBits_def, Ideal.ofBits_zero_f32, zero_add]
  unfold negsumAt
  refine Finset.sum_congr rfl fun k _ => ?_
  have hi : idx_main_v36 (ix1 r) k = ix2 r k := funext fun a => by match a with | ⟨0, _⟩ => rfl | ⟨1, _⟩ => rfl
  rw [hi, val_main_v35_apply, val_main_v33_apply, ref_same_apply, val_main_v34_apply, ref_cos_apply,
    val_main_call0_v1_apply, val_main_call0_v0_apply, val_main_cst_3_apply, not_ofBool, select_ofBool,
    Ideal.hostUnary_exp_def, Ideal.ofBits_def, Ideal.ofBits_zero_f32]
  by_cases h : x1 (ix1 r) = x1 (ix1 k)
  · simp [h]
  · simp [h]

/-- The reference's term array, zeroed on the diagonal, at `(r, j)` is `termAt`. -/
theorem ref_term_apply (r j : Fin 8192) :
    val_main_v48 (F := Ideal) x0 x1 x2 x3 (ix2 r j) = termAt (val_main_v12 (F := Ideal) x0 x2 x3) x1 r j := by
  have hi : idx_main_v41 (idx_main_v43 (ix2 r j)) = ix1 r := funext fun a => by match a with | ⟨0, _⟩ => rfl
  rw [val_main_v48_apply, val_main_v47_apply, ref_eye_apply, val_main_call2_v1_apply, val_main_call2_v0_apply,
    val_main_cst_6_apply, val_main_v46_apply, val_main_v40_apply, val_main_v45_apply, val_main_v44_apply,
    val_main_v43_apply, val_main_v41_apply, hi, ref_negsum_apply, val_main_v42_apply, val_main_v39_apply,
    val_main_v38_apply, ref_same_apply, val_main_v37_apply, ref_eye_apply, val_main_call1_v1_apply,
    val_main_call1_v0_apply, val_main_cst_5_apply, ref_cos_apply, not_ofBool, WordArith.andi_ofBool, select_ofBool,
    select_ofBool, Ideal.hostNegf_def, Ideal.negf_def, Ideal.addf_def, Ideal.addf_def, Ideal.hostUnary_log_def,
    Ideal.hostUnary_exp_def, Ideal.ofBits_def, Ideal.ofBits_zero_f32]
  unfold termAt
  by_cases h1 : r = j
  · simp [h1]
  · by_cases h2 : x1 (ix1 r) = x1 (ix1 j)
    · simp [h1, h2]
    · simp [h1, h2, exp_zero]

/-- The reference's mean of all the pair terms is `interMean` of the per-row sums: the total over the square array is
    the total, over the rows, of each row's sum (a double sum over the two coordinates), and a row of the keepdims
    array of row sums has one entry. -/
theorem ref_interMean :
    val_main_v50 (F := Ideal) x0 x1 x2 x3 = interMean (rowsumSpec (val_main_v12 (F := Ideal) x0 x2 x3) x1) := by
  funext i
  rw [val_main_v50_apply, val_main_v49_apply, val_main_cst_7_apply, val_main_cst_8_apply]
  unfold interMean
  rw [hostDivf_apply, hostReduceAdd_apply, Ideal.hostReduceAdd_total _ (fun b => b.elim0)]
  refine congrArg₂ Ideal.div (congrArg₂ (· + ·) rfl ?_) rfl
  refine (sum_idx2 _).trans (Eq.trans ?_ (sum_idx2 _).symm)
  refine Finset.sum_congr rfl fun r _ => ?_
  rw [Fin.sum_univ_one, rowsumSpec_apply]
  exact Finset.sum_congr rfl fun j _ => ref_term_apply x0 x1 x2 x3 r j

end

end Cert.RefValue

end
-- ==== Proof.RefValue.lean ====
/-
  The reference's result is the host tail of the specification: its normalized rows are `enSpec`, its mean over all
  pairs is `interMean` of the per-row sums `rowsumSpec`, and its prototype losses are `protoLosses` of the same rows;
  the two halves are joined by the same product with one half and the same sum on both sides.
-/
import proofs.«113247_j19061064860121_2_alg».proof.Proof.RefValueEn
import proofs.«113247_j19061064860121_2_alg».proof.Proof.RefValueProto
import proofs.«113247_j19061064860121_2_alg».proof.Proof.RefValueInter

noncomputable section

namespace Cert.RefValue

open Idealize.ShloMosaic Idealize.SL.Sem
open Cert.ReferenceIdeal.Read
open Cert.KernelIdeal (S8192x1024 S256x1024 S256 S8192x256 S8192 S8192x1 S10x256 S_)

/-- The reference's last stage, as a function of its five arguments, is `hostTail` of the specification's normalized
    rows and per-row pairwise sums. -/
theorem ref_value (x0 : FVec Ideal S8192x1024 .f32) (x1 : IVec S8192 32) (x2 : FVec Ideal S256x1024 .f32)
    (x3 : FVec Ideal S256 .f32) (x4 : FVec Ideal S10x256 .f32) :
    val_main_v121 (F := Ideal) x0 x1 x2 x3 x4
      = hostTail (enSpec x0 x2 x3) (rowsumSpec (enSpec x0 x2 x3) x1) x1 x4 := by
  unfold val_main_v121 val_main_v118 val_main_v120
  rw [ref_interMean, ref_protoLosses, ref_en]
  rfl

/-- The reference run's result term (the generated run's `res_main_v121`) at `Ideal` is `hostTail` of the
    specification at the launch contents of the five arguments. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v121 (F := Ideal) m c
      = hostTail
          (enSpec (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3)))
          (rowsumSpec
            (enSpec (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg4)) :=
  (val_main_v121_eq (F := Ideal) m c).trans (ref_value _ _ _ _ _)

end Cert.RefValue

end
-- ==== Proof.Claims.lean ====
/-
  The five claims, from the two kernel functions' triples.

  The program is two kernel regions among host operations.  Given the triple of the second kernel function — at the word
  level for the program as printed, on the extended reals for its idealization; the first kernel function's is proved
  with its region — every execution of either program terminates with the argument arrays as launched (the frames).  The
  reference is host operations only: its frame is its run with the result dropped.  The idealization rewrote nothing, so
  there is nothing to preserve.  And on the extended reals the two results are one term of the arguments: the closing
  host operations applied to the unit-length rows of `embedding · Wᵀ + b`, to their row sums of pairwise loss terms, to
  the labels and to the prototypes — on the kernel's side read off the two regions' arrays, on the reference's side read
  off its operations, where the one sum over all pairs is the sum of the row sums.
-/
import proofs.«113247_j19061064860121_2_alg».proof.Defs
import proofs.«113247_j19061064860121_2_alg».proof.Proof.Gen.Kernel
import proofs.«113247_j19061064860121_2_alg».proof.Proof.Gen.KernelIdeal
import proofs.«113247_j19061064860121_2_alg».proof.Proof.Gen.ReferenceIdeal
import proofs.«113247_j19061064860121_2_alg».proof.Proof.Gen.Pre_finite_inputs
import proofs.«113247_j19061064860121_2_alg».proof.Proof.Gen.ReferenceIdeal.Run
import proofs.«113247_j19061064860121_2_alg».proof.Proof.Gen.ReferenceIdeal.Read
import proofs.«113247_j19061064860121_2_alg».proof.Proof.WordRunFrame
import proofs.«113247_j19061064860121_2_alg».proof.Proof.WordBody1Defs
import proofs.«113247_j19061064860121_2_alg».proof.Proof.RunFrame
import proofs.«113247_j19061064860121_2_alg».proof.Proof.Body1Defs
import proofs.«113247_j19061064860121_2_alg».proof.Proof.KernelValue
import proofs.«113247_j19061064860121_2_alg».proof.Proof.Region1PointRows
import proofs.«113247_j19061064860121_2_alg».proof.Proof.RefValue

noncomputable section

namespace Cert.Proof

open Idealize.ShloMosaic Idealize.SL.Sem

/-- The kernel program as printed runs and leaves its arguments. -/
theorem frame_kernel (hK : Cert.Kernel.Hand.CallTriple (F := Bits) Cert.Kernel.Hand.out1_4) :
    Cert.frame_Kernel (hKernel := Cert.Kernel.Gen.facts) (hPre_finite_inputs := Cert.Pre_finite_inputs.Gen.facts) :=
  fun m ρ _ => Cert.Kernel.Hand.frame m ρ Cert.Kernel.Hand.out1_4 hK

/-- Its idealization runs and leaves its arguments. -/
theorem frame_kernelIdeal (hKI : Cert.KernelIdeal.Hand.CallTriple (F := Ideal) Cert.KernelIdeal.Hand.out1_4) :
    Cert.frame_KernelIdeal (hKernelIdeal := Cert.KernelIdeal.Gen.facts) (hPre_finite_inputs := Cert.Pre_finite_inputs.Gen.facts) :=
  fun m ρ _ => Cert.KernelIdeal.Hand.frame m ρ Cert.KernelIdeal.Hand.out1_4 hKI

/-- The reference runs and leaves its arguments: its run, the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals both programs end at the closing host operations of the unit-length rows, their row sums, the
    labels and the prototypes, of arguments that agree. -/
theorem algebraic (hKI : Cert.KernelIdeal.Hand.CallTriple (F := Ideal) Cert.KernelIdeal.Hand.out1_4) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.KernelIdeal.Hand.W6 m Cert.KernelIdeal.Hand.out1_4 c (Proc.devRef .tc Cert.KernelIdeal.main_v83),
    Cert.KernelIdeal.Hand.run_with m ρ Cert.KernelIdeal.Hand.out1_4 hKI Cert.KernelIdeal.main_v83 (by decide), ?_⟩
  refine (θ_run Cert.ReferenceIdeal.defs _ _).mono (fun _ h c => ⟨(h c).1.trans ?_, (h c).2⟩)
    (Cert.ReferenceIdeal.Value.run (F := Ideal) m' ρ')
  rw [Cert.RefValue.ref_result, (hagree c).1, (hagree c).2.1, (hagree c).2.2.1, (hagree c).2.2.2.1, (hagree c).2.2.2.2]
  exact (Cert.KernelIdeal.Hand.kernel_value m Cert.KernelIdeal.Hand.out1_4 Cert.KernelIdeal.Hand.point_rows c).symm

/-- Everything claimed, from the second kernel function's triple at the two instances. -/
theorem claim_of (hK : Cert.Kernel.Hand.CallTriple (F := Bits) Cert.Kernel.Hand.out1_4)
    (hKI : Cert.KernelIdeal.Hand.CallTriple (F := Ideal) Cert.KernelIdeal.Hand.out1_4) : Cert.Claim :=
  ⟨Cert.Kernel.Gen.facts, Cert.KernelIdeal.Gen.facts, Cert.ReferenceIdeal.Gen.facts, Cert.Pre_finite_inputs.Gen.facts,
    frame_kernel hK, frame_kernelIdeal hKI, frame_reference, trivial, algebraic hKI⟩

end Cert.Proof

end
-- ==== Proof.Body1.lean ====
/-
  The second kernel region: the pairwise term of the loss, one block of 256 rows per call.

  A call reads its 256 rows `en_i` (bf16), the full 8192×256 matrix `en` (bf16), the rows' labels (256×1) and all
  labels (1×8192).  In a first sweep over the eight column chunks of 1024 it forms `C = en_i · en_jᵀ` and `exp C`,
  keeps both in two 256×8192 strips, and accumulates, per row, the sum of `exp C` over the columns of a different
  label.  In a second sweep it reads the kept chunks back and accumulates, per row, the sum over the off-diagonal
  columns of `-pos + log (negsum + where (same, exp C, 1))`.  The 256 row sums are the call's one output.

  The values of that computation are named, as functions of the four inputs, in the module of definitions imported
  below — the chunk products kept in the strips are named by what was stored there.  This module proves that a strip
  filled chunk by chunk reads back what was stored, and from it the call's triple at every float instance: the inputs
  come back as they were, the output buffer holds the named row sums, the two strips hold something.
-/
import proofs.«113247_j19061064860121_2_alg».proof.Proof.Gen.KernelIdeal.Launch
import proofs.«113247_j19061064860121_2_alg».proof.Proof.Gen.KernelIdeal.Skeleton
import proofs.«113247_j19061064860121_2_alg».proof.Proof.Body1Defs
import proofs.«113247_j19061064860121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a strip back -/

/-- A load whose box is separated, on some axis, from the last write's rectangle reads the earlier writes. -/
theorem readCov_cons_of_disj {sig : RefSig} {κ : Kind} {sp : Space} {s : Shape} {e : EltTy} {Val : EltTy → Type} [∀ e, Nonempty (Val e)]
    (v : View sig κ sp s e) (p : View.Piece Val s e) (L : List (View.Piece Val s e)) (B : LoadRect s)
    (h : LoadRect.disj p.1 B = true) : v.readCov (p :: L) B = v.readCov L B := by
  rw [View.readCov_eq_canon', View.readCov_eq_canon']
  funext j
  exact View.canon_cons_of_not_mem p L (LoadRect.idx_not_mem_of_disj h j)

/-- Two chunks of a strip that start 1024 or more columns apart are separated on the column axis. -/
theorem strip_disj (o o' : ℕ) (h : ∀ a, (![0, o] : Fin 2 → ℕ) a + S256x1024.size a ≤ S256x8192.size a)
    (h' : ∀ a, (![0, o'] : Fin 2 → ℕ) a + S256x1024.size a ≤ S256x8192.size a) (hlt : o' + 1024 ≤ o ∨ o + 1024 ≤ o') :
    LoadRect.disj (Rect.unit (s := S256x8192) ![0, o] S256x1024.size h) (Rect.unit (s := S256x8192) ![0, o'] S256x1024.size h').toLoadRect = true := by
  refine LoadRect.disj_of_disjP ⟨1, ?_⟩
  rcases hlt with hlt | hlt
  · right; right; right
    show o' + 1 * (1024 - 1) < o
    omega
  · right; right; left
    show o + 1 * (1024 - 1) < o'
    omega

/-- A load of one chunk of a strip skips a later write to another chunk. -/
theorem readCov_strip_skip {sig : RefSig} {κ : Kind} {sp : Space} {Val : EltTy → Type} [∀ e, Nonempty (Val e)]
    (v : View sig κ sp S256x8192 .f32) (o o' : ℕ) (h : ∀ a, (![0, o] : Fin 2 → ℕ) a + S256x1024.size a ≤ S256x8192.size a)
    (h' : ∀ a, (![0, o'] : Fin 2 → ℕ) a + S256x1024.size a ≤ S256x8192.size a)
    (w : (Rect.unit (s := S256x8192) ![0, o] S256x1024.size h).shape.Idx → Val .f32) (L : List (View.Piece Val S256x8192 .f32))
    (hlt : o' + 1024 ≤ o ∨ o + 1024 ≤ o') :
    v.readCov (⟨Rect.unit (s := S256x8192) ![0, o] S256x1024.size h, w⟩ :: L) (Rect.unit (s := S256x8192) ![0, o'] S256x1024.size h').toLoadRect
      = v.readCov L (Rect.unit (s := S256x8192) ![0, o'] S256x1024.size h').toLoadRect :=
  readCov_cons_of_disj v _ L _ (strip_disj o o' h h' hlt)

/-! ### A strip filled chunk by chunk reads back, chunk by chunk, what was stored

The eight chunks are written in order 0 … 7 (the list holds the last write first); a load of chunk `k` skips the later
writes, which lie 1024 or more columns away, and reads the write made through its own rectangle. -/

theorem strip_read0 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect0.toLoadRect = w0 := by
  rw [readCov_strip_skip (o := 7168) (o' := 0) (hlt := by omega),
    readCov_strip_skip (o := 6144) (o' := 0) (hlt := by omega),
    readCov_strip_skip (o := 5120) (o' := 0) (hlt := by omega),
    readCov_strip_skip (o := 4096) (o' := 0) (hlt := by omega),
    readCov_strip_skip (o := 3072) (o' := 0) (hlt := by omega),
    readCov_strip_skip (o := 2048) (o' := 0) (hlt := by omega),
    readCov_strip_skip (o := 1024) (o' := 0) (hlt := by omega)]
  exact View.readCov_cons_toLoadRect ..

theorem strip_read1 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect1.toLoadRect = w1 := by
  rw [readCov_strip_skip (o := 7168) (o' := 1024) (hlt := by omega),
    readCov_strip_skip (o := 6144) (o' := 1024) (hlt := by omega),
    readCov_strip_skip (o := 5120) (o' := 1024) (hlt := by omega),
    readCov_strip_skip (o := 4096) (o' := 1024) (hlt := by omega),
    readCov_strip_skip (o := 3072) (o' := 1024) (hlt := by omega),
    readCov_strip_skip (o := 2048) (o' := 1024) (hlt := by omega)]
  exact View.readCov_cons_toLoadRect ..

theorem strip_read2 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect2.toLoadRect = w2 := by
  rw [readCov_strip_skip (o := 7168) (o' := 2048) (hlt := by omega),
    readCov_strip_skip (o := 6144) (o' := 2048) (hlt := by omega),
    readCov_strip_skip (o := 5120) (o' := 2048) (hlt := by omega),
    readCov_strip_skip (o := 4096) (o' := 2048) (hlt := by omega),
    readCov_strip_skip (o := 3072) (o' := 2048) (hlt := by omega)]
  exact View.readCov_cons_toLoadRect ..

theorem strip_read3 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect3.toLoadRect = w3 := by
  rw [readCov_strip_skip (o := 7168) (o' := 3072) (hlt := by omega),
    readCov_strip_skip (o := 6144) (o' := 3072) (hlt := by omega),
    readCov_strip_skip (o := 5120) (o' := 3072) (hlt := by omega),
    readCov_strip_skip (o := 4096) (o' := 3072) (hlt := by omega)]
  exact View.readCov_cons_toLoadRect ..

theorem strip_read4 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect4.toLoadRect = w4 := by
  rw [readCov_strip_skip (o := 7168) (o' := 4096) (hlt := by omega),
    readCov_strip_skip (o := 6144) (o' := 4096) (hlt := by omega),
    readCov_strip_skip (o := 5120) (o' := 4096) (hlt := by omega)]
  exact View.readCov_cons_toLoadRect ..

theorem strip_read5 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect5.toLoadRect = w5 := by
  rw [readCov_strip_skip (o := 7168) (o' := 5120) (hlt := by omega),
    readCov_strip_skip (o := 6144) (o' := 5120) (hlt := by omega)]
  exact View.readCov_cons_toLoadRect ..

theorem strip_read6 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect6.toLoadRect = w6 := by
  rw [readCov_strip_skip (o := 7168) (o' := 6144) (hlt := by omega)]
  exact View.readCov_cons_toLoadRect ..

theorem strip_read7 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect7.toLoadRect = w7 := by
  exact View.readCov_cons_toLoadRect ..

/-! ## The call's triple -/

set_option maxHeartbeats 4000000 in
/-- The kernel function on whole buffers — the four inputs at contents `x0 x1 x2 x3`, the output and the two strips at
    anything — runs to its continuation with the inputs as they were, the output at `out1_4` of the inputs, and the
    strips at something. -/
theorem sound_kernel1 (c : Dev nD) (E : Set ℕ) (i : grid1.Coords)
    (arg1 : Memref sig .tc .vmem S256x256 .bf16) (harg1 : arg1.IsWhole) (arg2 : Memref sig .tc .vmem S8192x256 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x8192 .f32) (harg6 : arg6.IsWhole)
    (arg7 : Memref sig .tc .vmem S256x8192 .f32) (harg7 : arg7.IsWhole)
    (x0 : Vec F S256x256 .bf16) (x1 : Vec F S8192x256 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 i x0 x1 x2 x3) ∗ (∃ d, owns (c : Thread nD τ) arg6 fullShare d) ∗ (∃ d, owns (c : Thread nD τ) arg7 fullShare d)) -∗ K ⟨⟩))
      ⊢ wp frame (wpE (defs₀ (F := F)) Variants.none c none) E (cc1__fused_interloss_kernel i arg1 harg1 arg2 harg2 arg3 harg3 arg4 harg4 arg5 harg5 arg6 harg6 arg7 harg7) K := by
  simp only [cc1__fused_interloss_kernel_eq_skeleton]; unfold cc1__fused_interloss_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (View.read_writes_eq_canon _ _ _ (cover_col _)).trans ?_
    sl_unfold_run_names
    rw [strip_read0 arg6.view, strip_read0 arg7.view,
      strip_read1 arg6.view, strip_read1 arg7.view,
      strip_read2 arg6.view, strip_read2 arg7.view,
      strip_read3 arg6.view, strip_read3 arg7.view,
      strip_read4 arg6.view, strip_read4 arg7.view,
      strip_read5 arg6.view, strip_read5 arg7.view,
      strip_read6 arg6.view, strip_read6 arg7.view,
      strip_read7 arg6.view, strip_read7 arg7.view]
    simp only [View.readAt_eq_ld, out1_4, rowsum, rowsum6, rowsum4, rowsum3, rowsum2, rowsum0, negsum, negsum6, negsum4, negsum2, negsum0, prod0, prod1, prod2, prod3, prod4, prod5, prod6, prod7, expProd0, expProd1, expProd1', expProd2, expProd3, expProd4, expProd5, expProd6, expProd7, chunk3, rowBase, labI, rowsI, rowsRect, colRect, chunkRect0, chunkRect1, chunkRect2, chunkRect3, chunkRect4, chunkRect5, chunkRect6, chunkRect7, chunkLabRect0, chunkLabRect1, chunkLabRect2, chunkLabRect3, chunkLabRect4, chunkLabRect5, chunkLabRect6, chunkLabRect7, stripRect0, stripRect1, stripRect2, stripRect3, stripRect4, stripRect5, stripRect6, stripRect7]
  isplitl [H6]
  · iexists _, _; isplitr
    swap; · iexact H6
    ipureintro; rfl
  iexists _, _; isplitr
  swap; · iexact H7
  ipureintro; rfl

end Cert.KernelIdeal.Hand

end
-- ==== Proof.WordBody1.lean ====
/-
  (This module is the text of the module of the same name without the prefix, for the program as printed — read at the
  word level — instead of its idealization: the two programs are the same text, and every statement here holds at every
  float instance.)

  The second kernel region: the pairwise term of the loss, one block of 256 rows per call.

  A call reads its 256 rows `en_i` (bf16), the full 8192×256 matrix `en` (bf16), the rows' labels (256×1) and all
  labels (1×8192).  In a first sweep over the eight column chunks of 1024 it forms `C = en_i · en_jᵀ` and `exp C`,
  keeps both in two 256×8192 strips, and accumulates, per row, the sum of `exp C` over the columns of a different
  label.  In a second sweep it reads the kept chunks back and accumulates, per row, the sum over the off-diagonal
  columns of `-pos + log (negsum + where (same, exp C, 1))`.  The 256 row sums are the call's one output.

  The values of that computation are named, as functions of the four inputs, in the module of definitions imported
  below — the chunk products kept in the strips are named by what was stored there.  This module proves that a strip
  filled chunk by chunk reads back what was stored, and from it the call's triple at every float instance: the inputs
  come back as they were, the output buffer holds the named row sums, the two strips hold something.
-/
import proofs.«113247_j19061064860121_2_alg».proof.Proof.Gen.Kernel.Launch
import proofs.«113247_j19061064860121_2_alg».proof.Proof.Gen.Kernel.Skeleton
import proofs.«113247_j19061064860121_2_alg».proof.Proof.WordBody1Defs
import proofs.«113247_j19061064860121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a strip back -/

/-- A load whose box is separated, on some axis, from the last write's rectangle reads the earlier writes. -/
theorem readCov_cons_of_disj {sig : RefSig} {κ : Kind} {sp : Space} {s : Shape} {e : EltTy} {Val : EltTy → Type} [∀ e, Nonempty (Val e)]
    (v : View sig κ sp s e) (p : View.Piece Val s e) (L : List (View.Piece Val s e)) (B : LoadRect s)
    (h : LoadRect.disj p.1 B = true) : v.readCov (p :: L) B = v.readCov L B := by
  rw [View.readCov_eq_canon', View.readCov_eq_canon']
  funext j
  exact View.canon_cons_of_not_mem p L (LoadRect.idx_not_mem_of_disj h j)

/-- Two chunks of a strip that start 1024 or more columns apart are separated on the column axis. -/
theorem strip_disj (o o' : ℕ) (h : ∀ a, (![0, o] : Fin 2 → ℕ) a + S256x1024.size a ≤ S256x8192.size a)
    (h' : ∀ a, (![0, o'] : Fin 2 → ℕ) a + S256x1024.size a ≤ S256x8192.size a) (hlt : o' + 1024 ≤ o ∨ o + 1024 ≤ o') :
    LoadRect.disj (Rect.unit (s := S256x8192) ![0, o] S256x1024.size h) (Rect.unit (s := S256x8192) ![0, o'] S256x1024.size h').toLoadRect = true := by
  refine LoadRect.disj_of_disjP ⟨1, ?_⟩
  rcases hlt with hlt | hlt
  · right; right; right
    show o' + 1 * (1024 - 1) < o
    omega
  · right; right; left
    show o + 1 * (1024 - 1) < o'
    omega

/-- A load of one chunk of a strip skips a later write to another chunk. -/
theorem readCov_strip_skip {sig : RefSig} {κ : Kind} {sp : Space} {Val : EltTy → Type} [∀ e, Nonempty (Val e)]
    (v : View sig κ sp S256x8192 .f32) (o o' : ℕ) (h : ∀ a, (![0, o] : Fin 2 → ℕ) a + S256x1024.size a ≤ S256x8192.size a)
    (h' : ∀ a, (![0, o'] : Fin 2 → ℕ) a + S256x1024.size a ≤ S256x8192.size a)
    (w : (Rect.unit (s := S256x8192) ![0, o] S256x1024.size h).shape.Idx → Val .f32) (L : List (View.Piece Val S256x8192 .f32))
    (hlt : o' + 1024 ≤ o ∨ o + 1024 ≤ o') :
    v.readCov (⟨Rect.unit (s := S256x8192) ![0, o] S256x1024.size h, w⟩ :: L) (Rect.unit (s := S256x8192) ![0, o'] S256x1024.size h').toLoadRect
      = v.readCov L (Rect.unit (s := S256x8192) ![0, o'] S256x1024.size h').toLoadRect :=
  readCov_cons_of_disj v _ L _ (strip_disj o o' h h' hlt)

/-! ### A strip filled chunk by chunk reads back, chunk by chunk, what was stored

The eight chunks are written in order 0 … 7 (the list holds the last write first); a load of chunk `k` skips the later
writes, which lie 1024 or more columns away, and reads the write made through its own rectangle. -/

theorem strip_read0 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect0.toLoadRect = w0 := by
  rw [readCov_strip_skip (o := 7168) (o' := 0) (hlt := by omega),
    readCov_strip_skip (o := 6144) (o' := 0) (hlt := by omega),
    readCov_strip_skip (o := 5120) (o' := 0) (hlt := by omega),
    readCov_strip_skip (o := 4096) (o' := 0) (hlt := by omega),
    readCov_strip_skip (o := 3072) (o' := 0) (hlt := by omega),
    readCov_strip_skip (o := 2048) (o' := 0) (hlt := by omega),
    readCov_strip_skip (o := 1024) (o' := 0) (hlt := by omega)]
  exact View.readCov_cons_toLoadRect ..

theorem strip_read1 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect1.toLoadRect = w1 := by
  rw [readCov_strip_skip (o := 7168) (o' := 1024) (hlt := by omega),
    readCov_strip_skip (o := 6144) (o' := 1024) (hlt := by omega),
    readCov_strip_skip (o := 5120) (o' := 1024) (hlt := by omega),
    readCov_strip_skip (o := 4096) (o' := 1024) (hlt := by omega),
    readCov_strip_skip (o := 3072) (o' := 1024) (hlt := by omega),
    readCov_strip_skip (o := 2048) (o' := 1024) (hlt := by omega)]
  exact View.readCov_cons_toLoadRect ..

theorem strip_read2 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect2.toLoadRect = w2 := by
  rw [readCov_strip_skip (o := 7168) (o' := 2048) (hlt := by omega),
    readCov_strip_skip (o := 6144) (o' := 2048) (hlt := by omega),
    readCov_strip_skip (o := 5120) (o' := 2048) (hlt := by omega),
    readCov_strip_skip (o := 4096) (o' := 2048) (hlt := by omega),
    readCov_strip_skip (o := 3072) (o' := 2048) (hlt := by omega)]
  exact View.readCov_cons_toLoadRect ..

theorem strip_read3 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect3.toLoadRect = w3 := by
  rw [readCov_strip_skip (o := 7168) (o' := 3072) (hlt := by omega),
    readCov_strip_skip (o := 6144) (o' := 3072) (hlt := by omega),
    readCov_strip_skip (o := 5120) (o' := 3072) (hlt := by omega),
    readCov_strip_skip (o := 4096) (o' := 3072) (hlt := by omega)]
  exact View.readCov_cons_toLoadRect ..

theorem strip_read4 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect4.toLoadRect = w4 := by
  rw [readCov_strip_skip (o := 7168) (o' := 4096) (hlt := by omega),
    readCov_strip_skip (o := 6144) (o' := 4096) (hlt := by omega),
    readCov_strip_skip (o := 5120) (o' := 4096) (hlt := by omega)]
  exact View.readCov_cons_toLoadRect ..

theorem strip_read5 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect5.toLoadRect = w5 := by
  rw [readCov_strip_skip (o := 7168) (o' := 5120) (hlt := by omega),
    readCov_strip_skip (o := 6144) (o' := 5120) (hlt := by omega)]
  exact View.readCov_cons_toLoadRect ..

theorem strip_read6 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect6.toLoadRect = w6 := by
  rw [readCov_strip_skip (o := 7168) (o' := 6144) (hlt := by omega)]
  exact View.readCov_cons_toLoadRect ..

theorem strip_read7 {sig : RefSig} {κ : Kind} {sp : Space} {Val : EltTy → Type} [∀ e, Nonempty (Val e)]
    (v : View sig κ sp S256x8192 .f32) (w0 w1 w2 w3 w4 w5 w6 w7 : S256x1024.Idx → Val .f32) :
    v.readCov ([⟨stripRect7, w7⟩, ⟨stripRect6, w6⟩, ⟨stripRect5, w5⟩, ⟨stripRect4, w4⟩, ⟨stripRect3, w3⟩, ⟨stripRect2, w2⟩, ⟨stripRect1, w1⟩, ⟨stripRect0, w0⟩] : List (View.Piece Val S256x8192 .f32)) stripRect7.toLoadRect = w7 := by
  exact View.readCov_cons_toLoadRect ..

/-! ## The call's triple -/

set_option maxHeartbeats 4000000 in
/-- The kernel function on whole buffers — the four inputs at contents `x0 x1 x2 x3`, the output and the two strips at
    anything — runs to its continuation with the inputs as they were, the output at `out1_4` of the inputs, and the
    strips at something. -/
theorem sound_kernel1 (c : Dev nD) (E : Set ℕ) (i : grid1.Coords)
    (arg1 : Memref sig .tc .vmem S256x256 .bf16) (harg1 : arg1.IsWhole) (arg2 : Memref sig .tc .vmem S8192x256 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x8192 .f32) (harg6 : arg6.IsWhole)
    (arg7 : Memref sig .tc .vmem S256x8192 .f32) (harg7 : arg7.IsWhole)
    (x0 : Vec F S256x256 .bf16) (x1 : Vec F S8192x256 .bf16) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 i x0 x1 x2 x3) ∗ (∃ d, owns (c : Thread nD τ) arg6 fullShare d) ∗ (∃ d, owns (c : Thread nD τ) arg7 fullShare d)) -∗ K ⟨⟩))
      ⊢ wp frame (wpE (defs₀ (F := F)) Variants.none c none) E (cc1__fused_interloss_kernel i arg1 harg1 arg2 harg2 arg3 harg3 arg4 harg4 arg5 harg5 arg6 harg6 arg7 harg7) K := by
  simp only [cc1__fused_interloss_kernel_eq_skeleton]; unfold cc1__fused_interloss_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (View.read_writes_eq_canon _ _ _ (cover_col _)).trans ?_
    sl_unfold_run_names
    rw [strip_read0 arg6.view, strip_read0 arg7.view,
      strip_read1 arg6.view, strip_read1 arg7.view,
      strip_read2 arg6.view, strip_read2 arg7.view,
      strip_read3 arg6.view, strip_read3 arg7.view,
      strip_read4 arg6.view, strip_read4 arg7.view,
      strip_read5 arg6.view, strip_read5 arg7.view,
      strip_read6 arg6.view, strip_read6 arg7.view,
      strip_read7 arg6.view, strip_read7 arg7.view]
    simp only [View.readAt_eq_ld, out1_4, rowsum, rowsum6, rowsum4, rowsum3, rowsum2, rowsum0, negsum, negsum6, negsum4, negsum2, negsum0, prod0, prod1, prod2, prod3, prod4, prod5, prod6, prod7, expProd0, expProd1, expProd1', expProd2, expProd3, expProd4, expProd5, expProd6, expProd7, chunk3, rowBase, labI, rowsI, rowsRect, colRect, chunkRect0, chunkRect1, chunkRect2, chunkRect3, chunkRect4, chunkRect5, chunkRect6, chunkRect7, chunkLabRect0, chunkLabRect1, chunkLabRect2, chunkLabRect3, chunkLabRect4, chunkLabRect5, chunkLabRect6, chunkLabRect7, stripRect0, stripRect1, stripRect2, stripRect3, stripRect4, stripRect5, stripRect6, stripRect7]
  isplitl [H6]
  · iexists _, _; isplitr
    swap; · iexact H6
    ipureintro; rfl
  iexists _, _; isplitr
  swap; · iexact H7
  ipureintro; rfl

end Cert.Kernel.Hand

end
-- ==== Proof.lean ====
/-
  The certificate's five claims for a contrastive-loss kernel: two kernel regions among host operations, against a
  plain array-program reference.

  The first region turns the rows of `embedding · Wᵀ + b` into unit-length rows (twice: once kept wide, once narrowed);
  the second, for each block of 256 rows, sweeps all 8192 rows eight column chunks at a time — pairwise cosines, their
  exponentials, the per-row sum of the exponentials over the columns of a different label, and then the per-row sum over
  the off-diagonal columns of `-pos + log (negsum + exp pos)` — and the host closes with the mean of those row sums and
  the two prototype losses.  Each kernel function's triple (the first with its region, the second in its own module)
  gives, through the run of the program's six segments, the frames of the program as printed and of its idealization;
  the reference's frame is its run.  On the extended reals the kernel's result, read off the two regions' arrays, and
  the reference's, read off its operations, are one term of the arguments: nothing there needs the inputs finite, since
  only the grouping of sums differs and `exp 0 = 1` joins the two spellings of the positive term.
-/
import proofs.«113247_j19061064860121_2_alg».proof.Defs
import proofs.«113247_j19061064860121_2_alg».proof.Proof.Gen.Kernel
import proofs.«113247_j19061064860121_2_alg».proof.Proof.Gen.Kernel.Skeleton
import proofs.«113247_j19061064860121_2_alg».proof.Proof.Gen.Kernel.Launch
import proofs.«113247_j19061064860121_2_alg».proof.Proof.Gen.Kernel.Regions
import proofs.«113247_j19061064860121_2_alg».proof.Proof.Gen.Kernel.Points
import proofs.«113247_j19061064860121_2_alg».proof.Proof.Gen.KernelIdeal
import proofs.«113247_j19061064860121_2_alg».proof.Proof.Gen.KernelIdeal.Skeleton
import proofs.«113247_j19061064860121_2_alg».proof.Proof.Gen.KernelIdeal.Launch
import proofs.«113247_j19061064860121_2_alg».proof.Proof.Gen.KernelIdeal.Regions
import proofs.«113247_j19061064860121_2_alg».proof.Proof.Gen.KernelIdeal.Points
import proofs.«113247_j19061064860121_2_alg».proof.Proof.Gen.ReferenceIdeal
import proofs.«113247_j19061064860121_2_alg».proof.Proof.Gen.Pre_finite_inputs
import proofs.«113247_j19061064860121_2_alg».proof.Proof.Gen.ReferenceIdeal.Run
import proofs.«113247_j19061064860121_2_alg».proof.Proof.Gen.ReferenceIdeal.Read
import proofs.«113247_j19061064860121_2_alg».proof.Proof.Claims
import proofs.«113247_j19061064860121_2_alg».proof.Proof.Body1
import proofs.«113247_j19061064860121_2_alg».proof.Proof.WordBody1
import Idealize.ShloMosaic.Adequacy
import Idealize.ShloMosaic.Init

noncomputable section

namespace Cert.Proof

open Idealize.ShloMosaic Idealize.SL.Sem

/-- Everything claimed: the second kernel function's triple, at the word level and on the extended reals, closes it. -/
theorem claim : Cert.Claim :=
  claim_of (Cert.Kernel.Hand.sound_kernel1 (F := Bits)) (Cert.KernelIdeal.Hand.sound_kernel1 (F := Ideal))

end Cert.Proof

end
